-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x128 : Shape := ⟨3, ![256, 512, 128]⟩
abbrev S256x512x512 : Shape := ⟨3, ![256, 512, 512]⟩
abbrev S128x32 : Shape := ⟨2, ![128, 32]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S256x512x128 : S_.BroadcastsInDim S256x512x128 (![] : Fin 0 → Fin S256x512x128.rank)
  reducesTo_S256x512x128_S_d0_1_2 : S256x512x128.ReducesTo [0, 1, 2] S_
  h_S_ : 0 < S_.numel
  bcast_S_S256x512x512 : S_.BroadcastsInDim S256x512x512 (![] : Fin 0 → Fin S256x512x512.rank)
  reducesTo_S256x512x512_S_d0_1_2 : S256x512x512.ReducesTo [0, 1, 2] S_
  bcast_S_S128x32 : S_.BroadcastsInDim S128x32 (![] : Fin 0 → Fin S128x32.rank)
  reducesTo_S128x32_S_d0_1 : S128x32.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg1 : FVec F S256x512x512 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S256x512x512 .f32 := broadcastInDim S256x512x512 ![] bcast_S_S256x512x512 main_cst_26
  let main_v70 : IVec S256x512x512 1 := cmpf .oge main_arg1 main_v69
  let main_c_27 : IVec S_ 1 := constantI S_ 1 1#1
  let main_v71 : IVec S_ 1 := (fun x v => Host.reduce IntOp.andi x v reducesTo_S256x512x512_S_d0_1_2 h_S_) main_v70 main_c_27
  let main_v72 : IVec S_ 1 := andi main_v68 main_v71
  main_v72

def fn_part3 {F : FTy → Type} [FloatOps F] (main_arg1 : FVec F S256x512x512 .f32) (main_arg11 : FVec F S64 .f32) (main_arg12 : FVec F S64x16 .f32) (main_arg13 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x16 .f32 := Host.absf main_arg12
  let main_cst_22 : FVec F S_ .f32 := constant S_ .f32 0x7F800000#32
  let main_v60 : FVec F S64x16 .f32 := broadcastInDim S64x16 ![] bcast_S_S64x16 main_cst_22
  let main_v61 : IVec S64x16 1 := cmpf .olt main_v59 main_v60
  let main_c_23 : IVec S_ 1 := constantI S_ 1 1#1
  let main_v62 : IVec S_ 1 := (fun x v => Host.reduce IntOp.andi x v reducesTo_S64x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg1 main_v63 main_v67

def fn_part2 {F : FTy → Type} [FloatOps F] (main_arg1 : FVec F S256x512x512 .f32) (main_arg7 : FVec F S64 .f32) (main_arg8 : FVec F S64x64 .f32) (main_arg9 : FVec F S64 .f32) (main_arg10 : FVec F S64 .f32) (main_arg11 : FVec F S64 .f32) (main_arg12 : FVec F S64x16 .f32) (main_arg13 : FVec F S16 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg1 main_arg11 main_arg12 main_arg13 main_v48 main_v49 main_v50

def fn_part1 {F : FTy → Type} [FloatOps F] (main_arg1 : FVec F S256x512x512 .f32) (main_arg4 : FVec F S256x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x16 .f32) (main_arg13 : FVec F S16 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg7 main_arg8 main_arg9 main_arg10 main_arg11 main_arg12 main_arg13 main_v33

def fn {F : FTy → Type} [FloatOps F] (main_arg0 : FVec F S256x512x128 .f32) (main_arg1 : FVec F S256x512x512 .f32) (main_arg2 : FVec F S128x32 .f32) (main_arg3 : FVec F S128x32 .f32) (main_arg4 : FVec F S256x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x16 .f32) (main_arg13 : FVec F S16 .f32) : IVec S_ 1 :=
  let main_v0 : FVec F S256x512x128 .f32 := Host.absf main_arg0
  let main_cst : FVec F S_ .f32 := constant S_ .f32 0x7F800000#32
  let main_v1 : FVec F S256x512x128 .f32 := broadcastInDim S256x512x128 ![] bcast_S_S256x512x128 main_cst
  let main_v2 : IVec S256x512x128 1 := cmpf .olt main_v0 main_v1
  let main_c : IVec S_ 1 := constantI S_ 1 1#1
  let main_v3 : IVec S_ 1 := (fun x v => Host.reduce IntOp.andi x v reducesTo_S256x512x128_S_d0_1_2 h_S_) main_v2 main_c
  let main_v4 : FVec F S256x512x512 .f32 := Host.absf main_arg1
  let main_cst_0 : FVec F S_ .f32 := constant S_ .f32 0x7F800000#32
  let main_v5 : FVec F S256x512x512 .f32 := broadcastInDim S256x512x512 ![] bcast_S_S256x512x512 main_cst_0
  let main_v6 : IVec S256x512x512 1 := cmpf .olt main_v4 main_v5
  let main_c_1 : IVec S_ 1 := constantI S_ 1 1#1
  let main_v7 : IVec S_ 1 := (fun x v => Host.reduce IntOp.andi x v reducesTo_S256x512x512_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg1 main_arg4 main_arg5 main_arg6 main_arg7 main_arg8 main_arg9 main_arg10 main_arg11 main_arg12 main_arg13 main_v13 main_v16
-- ==== Kernel.lean ====
abbrev S256x512x128 : Shape := ⟨3, ![256, 512, 128]⟩
abbrev S256x512x512 : Shape := ⟨3, ![256, 512, 512]⟩
abbrev S128x32 : Shape := ⟨2, ![128, 32]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x64 : Shape := ⟨2, ![1, 64]⟩
abbrev S256x512x64 : Shape := ⟨3, ![256, 512, 64]⟩
abbrev S1x512x128 : Shape := ⟨3, ![1, 512, 128]⟩
abbrev S1x512x512 : Shape := ⟨3, ![1, 512, 512]⟩
abbrev S1x512x64 : Shape := ⟨3, ![1, 512, 64]⟩
abbrev S512x128 : Shape := ⟨2, ![512, 128]⟩
abbrev S512x512 : Shape := ⟨2, ![512, 512]⟩
abbrev S512x32 : Shape := ⟨2, ![512, 32]⟩
abbrev S32x512 : Shape := ⟨2, ![32, 512]⟩
abbrev S512 : Shape := ⟨1, ![512]⟩
abbrev S512x1 : Shape := ⟨2, ![512, 1]⟩
abbrev S512x256 : Shape := ⟨2, ![512, 256]⟩
abbrev S512x64 : Shape := ⟨2, ![512, 64]⟩
abbrev S_ : Shape := ⟨0, ![]⟩
abbrev S131072x64 : Shape := ⟨2, ![131072, 64]⟩
abbrev S8192x64 : Shape := ⟨2, ![8192, 64]⟩
abbrev S1x16 : Shape := ⟨2, ![1, 16]⟩
abbrev S131072x16 : Shape := ⟨2, ![131072, 16]⟩
abbrev S8192x16 : Shape := ⟨2, ![8192, 16]⟩
abbrev S256x512x16 : Shape := ⟨3, ![256, 512, 16]⟩

abbrev nBuf : Space → Nat
  | .hbm => 46
  | .vmem => 34
  | .smem => 0
  | _ => 0

abbrev bufTy : (tb : Table) → Fin (tcTables nBuf tb) → BufTy
  | .hbm, ⟨0, _⟩ => ⟨S256x512x128, .f32⟩
  | .hbm, ⟨1, _⟩ => ⟨S256x512x512, .f32⟩
  | .hbm, ⟨2, _⟩ => ⟨S128x32, .f32⟩
  | .hbm, ⟨3, _⟩ => ⟨S128x32, .f32⟩
  | .hbm, ⟨4, _⟩ => ⟨S256x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x16, .f32⟩
  | .hbm, ⟨13, _⟩ => ⟨S16, .f32⟩
  | .hbm, ⟨14, _⟩ => ⟨S1x64, .f32⟩
  | .hbm, ⟨15, _⟩ => ⟨S256x512x64, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .f32⟩
  | .hbm, ⟨21, _⟩ => ⟨S_, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S131072x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S131072x64, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x16, .f32⟩
  | .hbm, ⟨44, _⟩ => ⟨S131072x16, .f32⟩
  | .hbm, ⟨45, _⟩ => ⟨S256x512x16, .f32⟩
  | .local _ .vmem, ⟨0, _⟩ => ⟨S1x512x128, .f32⟩
  | .local _ .vmem, ⟨1, _⟩ => ⟨S1x512x128, .f32⟩
  | .local _ .vmem, ⟨2, _⟩ => ⟨S1x512x512, .f32⟩
  | .local _ .vmem, ⟨3, _⟩ => ⟨S1x512x512, .f32⟩
  | .local _ .vmem, ⟨4, _⟩ => ⟨S128x32, .f32⟩
  | .local _ .vmem, ⟨5, _⟩ => ⟨S128x32, .f32⟩
  | .local _ .vmem, ⟨6, _⟩ => ⟨S256x64, .f32⟩
  | .local _ .vmem, ⟨7, _⟩ => ⟨S1x64, .f32⟩
  | .local _ .vmem, ⟨8, _⟩ => ⟨S1x512x64, .f32⟩
  | .local _ .vmem, ⟨9, _⟩ => ⟨S1x512x64, .f32⟩
  | .local _ .vmem, ⟨10, _⟩ => ⟨S1x64, .f32⟩
  | .local _ .vmem, ⟨11, _⟩ => ⟨S1x64, .f32⟩
  | .local _ .vmem, ⟨12, _⟩ => ⟨S8192x64, .f32⟩
  | .local _ .vmem, ⟨13, _⟩ => ⟨S8192x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S8192x64, .f32⟩
  | .local _ .vmem, ⟨21, _⟩ => ⟨S8192x64, .f32⟩
  | .local _ .vmem, ⟨22, _⟩ => ⟨S1x64, .f32⟩
  | .local _ .vmem, ⟨23, _⟩ => ⟨S1x64, .f32⟩
  | .local _ .vmem, ⟨24, _⟩ => ⟨S8192x64, .f32⟩
  | .local _ .vmem, ⟨25, _⟩ => ⟨S8192x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S64x16, .f32⟩
  | .local _ .vmem, ⟨31, _⟩ => ⟨S1x16, .f32⟩
  | .local _ .vmem, ⟨32, _⟩ => ⟨S8192x16, .f32⟩
  | .local _ .vmem, ⟨33, _⟩ => ⟨S8192x16, .f32⟩
  | _, _ => ⟨S256x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem9_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8192x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  transposes_S512x32_p1_0_S32x512 : S512x32.Transposes [1, 0] S32x512
  reduces_S512x512_S512 : S512x512.Reduces [1] S512
  shapeCasts_S512_S512x1 : S512.ShapeCasts S512x1
  broadcasts_S512x1_S512x512 : S512x1.Broadcasts S512x512
  concatenates_S512x128_S512x128_S512x256_d1 : Shape.Concatenates [S512x128, S512x128] S512x256 1
  inb_S256x64_S256x64_0_0 : ∀ a, (![0, 0] : Fin 2 → Nat) a + S256x64.size a ≤ S256x64.size a
  h_S256x64 : 0 < S256x64.numel
  shapeCasts_S1x64_S1x64 : S1x64.ShapeCasts S1x64
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  reduces_S512x64_S64 : S512x64.Reduces [0] S64
  bcast_S_S1x64 : S_.BroadcastsInDim S1x64 (![] : Fin 0 → Fin S1x64.rank)
  shapeCasts_S256x512x64_S131072x64 : S256x512x64.ShapeCasts S131072x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  reduces_S8192x64_S64 : S8192x64.Reduces [0] S64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S8192x16_S8192x16_0_0 : ∀ a, (![0, 0] : Fin 2 → Nat) a + S8192x16.size a ≤ S8192x16.size a
  h_S8192x16 : 0 < S8192x16.numel
  shapeCasts_S131072x16_S256x512x16 : S131072x16.ShapeCasts S256x512x16
  dot_S512x128_S128x32_S512x32_1_0_0_1_n_n_wf : DotDims.WF S512x128 S128x32 S512x32 [1] [0] [0] [1] [] []
  dot_S512x32_S32x512_S512x512_1_0_0_1_n_n_wf : DotDims.WF S512x32 S32x512 S512x512 [1] [0] [0] [1] [] []
  dot_S512x512_S512x128_S512x128_1_0_0_1_n_n_wf : DotDims.WF S512x512 S512x128 S512x128 [1] [0] [0] [1] [] []
  dot_S512x256_S256x64_S512x64_1_0_0_1_n_n_wf : DotDims.WF S512x256 S256x64 S512x64 [1] [0] [0] [1] [] []
  dot_S8192x64_S64x64_S8192x64_1_0_0_1_n_n_wf : DotDims.WF S8192x64 S64x64 S8192x64 [1] [0] [0] [1] [] []
  dot_S8192x64_S64x16_S8192x16_1_0_0_1_n_n_wf : DotDims.WF S8192x64 S64x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S256x512x128.size a
  hwx0_0 : ∀ i : grid0.Coords, EltTy.bits .f32 = 32 ∨ (Rect.block (s := S256x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S256x512x512.size a
  hwx0_1 : ∀ i : grid0.Coords, EltTy.bits .f32 = 32 ∨ (Rect.block (s := S256x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x64.size a ≤ S256x512x64.size a
  hwx0_6 : ∀ i : grid0.Coords, EltTy.bits .f32 = 32 ∨ (Rect.block (s := S256x512x64) S1x512x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S131072x64.size a
  hwx1_0 : ∀ i : grid1.Coords, EltTy.bits .f32 = 32 ∨ (Rect.block (s := S131072x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8192x64.size a ≤ S131072x64.size a
  hwx1_7 : ∀ i : grid1.Coords, EltTy.bits .f32 = 32 ∨ (Rect.block (s := S131072x64) S8192x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S131072x64.size a
  hwx2_0 : ∀ i : grid2.Coords, EltTy.bits .f32 = 32 ∨ (Rect.block (s := S131072x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8192x16.size a ≤ S131072x16.size a
  hwx2_7 : ∀ i : grid2.Coords, EltTy.bits .f32 = 32 ∨ (Rect.block (s := S131072x16) S8192x16.size (cc2_transform_7 i) (hinb2_7 i)).WholeWords (EltTy.packing .f32)

variable [Facts₀]

def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v8) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12_0) S8192x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_1) S1x64.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12_2) S1x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v12_0) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S8192x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S256x512x128 : Shape := ⟨3, ![256, 512, 128]⟩
abbrev S256x512x512 : Shape := ⟨3, ![256, 512, 512]⟩
abbrev S128x32 : Shape := ⟨2, ![128, 32]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S256x512x32 : Shape := ⟨3, ![256, 512, 32]⟩
abbrev S_ : Shape := ⟨0, ![]⟩
abbrev S256x512 : Shape := ⟨2, ![256, 512]⟩
abbrev S256x512x1 : Shape := ⟨3, ![256, 512, 1]⟩
abbrev S256x512x256 : Shape := ⟨3, ![256, 512, 256]⟩
abbrev S131072x256 : Shape := ⟨2, ![131072, 256]⟩
abbrev S131072x64 : Shape := ⟨2, ![131072, 64]⟩
abbrev S1x64 : Shape := ⟨2, ![1, 64]⟩
abbrev S131072x16 : Shape := ⟨2, ![131072, 16]⟩
abbrev S1x16 : Shape := ⟨2, ![1, 16]⟩
abbrev S256x512x16 : Shape := ⟨3, ![256, 512, 16]⟩

abbrev nBuf : Space → Nat
  | .hbm => 145
  | .vmem => 0
  | .smem => 0
  | _ => 0

abbrev hbmTy0_0 (i : Nat) : BufTy := match i % 128 with
  | 0 => ⟨S256x512x128, .f32⟩
  | 1 => ⟨S256x512x512, .f32⟩
  | 2 => ⟨S128x32, .f32⟩
  | 3 => ⟨S128x32, .f32⟩
  | 4 => ⟨S256x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x16, .f32⟩
  | 13 => ⟨S16, .f32⟩
  | 14 => ⟨S256x512x32, .f32⟩
  | 15 => ⟨S256x512x32, .f32⟩
  | 16 => ⟨S256x512x512, .f32⟩
  | 17 => ⟨S256x512x512, .f32⟩
  | 18 => ⟨S256x512x512, .f32⟩
  | 19 => ⟨S_, .f32⟩
  | 20 => ⟨S256x512, .f32⟩
  | 21 => ⟨S256x512x1, .f32⟩
  | 22 => ⟨S_, .f32⟩
  | 23 => ⟨S256x512x1, .f32⟩
  | 24 => ⟨S256x512x1, .f32⟩
  | 25 => ⟨S256x512x512, .f32⟩
  | 26 => ⟨S256x512x512, .f32⟩
  | 27 => ⟨S256x512x128, .f32⟩
  | 28 => ⟨S256x512x256, .f32⟩
  | 29 => ⟨S131072x256, .f32⟩
  | 30 => ⟨S131072x64, .f32⟩
  | 31 => ⟨S1x64, .f32⟩
  | 32 => ⟨S131072x64, .f32⟩
  | 33 => ⟨S131072x64, .f32⟩
  | 34 => ⟨S_, .f32⟩
  | 35 => ⟨S64, .f32⟩
  | 36 => ⟨S_, .f32⟩
  | 37 => ⟨S64, .f32⟩
  | 38 => ⟨S64, .f32⟩
  | 39 => ⟨S_, .i32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S131072x64, .f32⟩
  | 47 => ⟨S131072x64, .f32⟩
  | 48 => ⟨S131072x64, .f32⟩
  | 49 => ⟨S_, .f32⟩
  | 50 => ⟨S_, .f32⟩
  | 51 => ⟨S_, .f32⟩
  | 52 => ⟨S_, .f32⟩
  | 53 => ⟨S64, .f32⟩
  | 54 => ⟨S64, .f32⟩
  | 55 => ⟨S64, .f32⟩
  | 56 => ⟨S_, .f32⟩
  | 57 => ⟨S_, .i1⟩
  | 58 => ⟨S_, .f32⟩
  | 59 => ⟨S_, .f32⟩
  | 60 => ⟨S64, .f32⟩
  | 61 => ⟨S64, .f32⟩
  | 62 => ⟨S1x64, .f32⟩
  | 63 => ⟨S131072x64, .f32⟩
  | 64 => ⟨S131072x64, .f32⟩
  | 65 => ⟨S_, .f32⟩
  | 66 => ⟨S64, .f32⟩
  | 67 => ⟨S64, .f32⟩
  | 68 => ⟨S64, .f32⟩
  | 69 => ⟨S1x64, .f32⟩
  | 70 => ⟨S131072x64, .f32⟩
  | 71 => ⟨S131072x64, .f32⟩
  | 72 => ⟨S1x64, .f32⟩
  | 73 => ⟨S131072x64, .f32⟩
  | 74 => ⟨S131072x64, .f32⟩
  | 75 => ⟨S1x64, .f32⟩
  | 76 => ⟨S131072x64, .f32⟩
  | 77 => ⟨S131072x64, .f32⟩
  | 78 => ⟨S_, .f32⟩
  | 79 => ⟨S131072x64, .f32⟩
  | 80 => ⟨S131072x64, .f32⟩
  | 81 => ⟨S131072x64, .f32⟩
  | 82 => ⟨S1x64, .f32⟩
  | 83 => ⟨S131072x64, .f32⟩
  | 84 => ⟨S131072x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S131072x64, .f32⟩
  | 98 => ⟨S131072x64, .f32⟩
  | 99 => ⟨S131072x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S131072x64, .f32⟩
  | 115 => ⟨S131072x64, .f32⟩
  | 116 => ⟨S_, .f32⟩
  | 117 => ⟨S64, .f32⟩
  | 118 => ⟨S64, .f32⟩
  | 119 => ⟨S64, .f32⟩
  | 120 => ⟨S1x64, .f32⟩
  | 121 => ⟨S131072x64, .f32⟩
  | 122 => ⟨S131072x64, .f32⟩
  | 123 => ⟨S1x64, .f32⟩
  | 124 => ⟨S131072x64, .f32⟩
  | 125 => ⟨S131072x64, .f32⟩
  | 126 => ⟨S1x64, .f32⟩
  | 127 => ⟨S131072x64, .f32⟩
  | _ => ⟨S256x512x128, .f32⟩

abbrev hbmTy0_1 (i : Nat) : BufTy := match i % 128 with
  | 0 => ⟨S131072x64, .f32⟩
  | 1 => ⟨S_, .f32⟩
  | 2 => ⟨S131072x64, .f32⟩
  | 3 => ⟨S131072x64, .f32⟩
  | 4 => ⟨S131072x16, .f32⟩
  | 5 => ⟨S1x16, .f32⟩
  | 6 => ⟨S131072x16, .f32⟩
  | 7 => ⟨S131072x16, .f32⟩
  | 8 => ⟨S131072x16, .f32⟩
  | 9 => ⟨S131072x16, .f32⟩
  | 10 => ⟨S_, .f32⟩
  | 11 => ⟨S131072x16, .f32⟩
  | 12 => ⟨S131072x16, .f32⟩
  | 13 => ⟨S_, .f32⟩
  | 14 => ⟨S131072x16, .f32⟩
  | 15 => ⟨S131072x16, .f32⟩
  | 16 => ⟨S256x512x16, .f32⟩
  | _ => ⟨S256x512x128, .f32⟩

abbrev hbmTy (i : Nat) : BufTy := match i / 128 with
  | 0 => hbmTy0_0 i
  | 1 => hbmTy0_1 i
  | _ => ⟨S256x512x128, .f32⟩

abbrev bufTy : (tb : Table) → Fin (tcTables nBuf tb) → BufTy
  | .hbm, ⟨i, _⟩ => hbmTy i
  | _, _ => ⟨S256x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_3 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_call1_cst : Ref sig .tc := ⟨.hbm, 78, rfl⟩
abbrev main_call1_v0 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_4 : Ref sig .tc := ⟨.hbm, 85, rfl⟩
abbrev main_v42 : Ref sig .tc := ⟨.hbm, 86, rfl⟩
abbrev main_cst_5 : Ref sig .tc := ⟨.hbm, 87, rfl⟩
abbrev main_v43 : Ref sig .tc := ⟨.hbm, 88, rfl⟩
abbrev main_v44 : Ref sig .tc := ⟨.hbm, 89, rfl⟩
abbrev main_c_6 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_cst_3 : Ref sig .tc := ⟨.hbm, 107, rfl⟩
abbrev main_call2_v12 : Ref sig .tc := ⟨.hbm, 108, rfl⟩
abbrev main_call2_cst_4 : Ref sig .tc := ⟨.hbm, 109, rfl⟩
abbrev main_call2_call0_v0 : Ref sig .tc := ⟨.hbm, 110, rfl⟩
abbrev main_call2_call0_v1 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_7 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_call3_cst : Ref sig .tc := ⟨.hbm, 129, rfl⟩
abbrev main_call3_v0 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_cst_8 : Ref sig .tc := ⟨.hbm, 138, rfl⟩
abbrev main_v68 : Ref sig .tc := ⟨.hbm, 139, rfl⟩
abbrev main_v69 : Ref sig .tc := ⟨.hbm, 140, rfl⟩
abbrev main_cst_9 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩

abbrev nD : Nat := 1
abbrev τ : Topo := Topo.v7x

variable {F : FTy → Type} [FloatOps F]

class Facts₀ : Prop where
  reducesTo_S256x512x512_S256x512_d2 : S256x512x512.ReducesTo [2] S256x512
  h_S_ : 0 < S_.numel
  bcast_S256x512_S256x512x1_0_1 : S256x512.BroadcastsInDim S256x512x1 (![0, 1] : Fin 2 → Fin S256x512x1.rank)
  bcast_S_S256x512x1 : S_.BroadcastsInDim S256x512x1 (![] : Fin 0 → Fin S256x512x1.rank)
  bcast_S256x512x1_S256x512x512_0_1_2 : S256x512x1.BroadcastsInDim S256x512x512 (![0, 1, 2] : Fin 3 → Fin S256x512x512.rank)
  concatenates_S256x512x128_S256x512x128_S256x512x256_d2 : Shape.Concatenates [S256x512x128, S256x512x128] S256x512x256 2
  shapeCasts_S256x512x256_S131072x256 : S256x512x256.ShapeCasts S131072x256
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  reducesTo_S131072x64_S64_d0 : S131072x64.ReducesTo [0] S64
  bcast_S_S64 : S_.BroadcastsInDim S64 (![] : Fin 0 → Fin S64.rank)
  bcast_S_S1x64 : S_.BroadcastsInDim S1x64 (![] : Fin 0 → Fin S1x64.rank)
  bcast_S_S131072x64 : S_.BroadcastsInDim S131072x64 (![] : Fin 0 → Fin S131072x64.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  shapeCasts_S131072x16_S256x512x16 : S131072x16.ShapeCasts S256x512x16
  dot_S256x512x128_S128x32_S256x512x32_2_0_01_1_n_n_wf : DotDims.WF S256x512x128 S128x32 S256x512x32 [2] [0] [0, 1] [1] [] []
  dot_S256x512x32_S256x512x32_S256x512x512_2_2_1_1_0_0_wf : DotDims.WF S256x512x32 S256x512x32 S256x512x512 [2] [2] [1] [1] [0] [0]
  dot_S256x512x512_S256x512x128_S256x512x128_2_1_1_2_0_0_wf : DotDims.WF S256x512x512 S256x512x128 S256x512x128 [2] [1] [1] [2] [0] [0]
  dot_S131072x256_S256x64_S131072x64_1_0_0_1_n_n_wf : DotDims.WF S131072x256 S256x64 S131072x64 [1] [0] [0] [1] [] []
  dot_S131072x64_S64x64_S131072x64_1_0_0_1_n_n_wf : DotDims.WF S131072x64 S64x64 S131072x64 [1] [0] [0] [1] [] []
  dot_S131072x64_S64x16_S131072x16_1_0_0_1_n_n_wf : DotDims.WF S131072x64 S64x16 S131072x16 [1] [0] [0] [1] [] []

variable [Facts₀]

def dot_S256x512x128_S128x32_S256x512x32_2_0_01_1_n_n : DotDims S256x512x128 S128x32 S256x512x32 where
  lhsContracting := [2]
  rhsContracting := [0]
  lhsNonContracting := [0, 1]
  rhsNonContracting := [1]
  lhsBatch := []
  rhsBatch := []
  wf := dot_S256x512x128_S128x32_S256x512x32_2_0_01_1_n_n_wf
def dot_S256x512x32_S256x512x32_S256x512x512_2_2_1_1_0_0 : DotDims S256x512x32 S256x512x32 S256x512x512 where
  lhsContracting := [2]
  rhsContracting := [2]
  lhsNonContracting := [1]
  rhsNonContracting := [1]
  lhsBatch := [0]
  rhsBatch := [0]
  wf := dot_S256x512x32_S256x512x32_S256x512x512_2_2_1_1_0_0_wf
def dot_S256x512x512_S256x512x128_S256x512x128_2_1_1_2_0_0 : DotDims S256x512x512 S256x512x128 S256x512x128 where
  lhsContracting := [2]
  rhsContracting := [1]
  lhsNonContracting := [1]
  rhsNonContracting := [2]
  lhsBatch := [0]
  rhsBatch := [0]
  wf := dot_S256x512x512_S256x512x128_S256x512x128_2_1_1_2_0_0_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x64_S64x16_S131072x16_1_0_0_1_n_n : DotDims S131072x64 S64x16 S131072x16 where
  lhsContracting := [1]
  rhsContracting := [0]
  lhsNonContracting := [0]
  rhsNonContracting := [1]
  lhsBatch := []
  rhsBatch := []
  wf := dot_S131072x64_S64x16_S131072x16_1_0_0_1_n_n_wf

class Facts : Prop extends Facts₀ where

variable [Facts]
-- ==== Proof.KernelRun.lean ====
/-
  The idealized kernel's run with its result NAMED. @main is seven segments (host operations, then the three
  kernel launches with host operations between and after them); the buffer contents at each boundary are the
  folds `W0 … W7` of the generated frame. Every weakly fair execution ends with each unscoped buffer at the last
  boundary's contents `W7`; read at the result buffer that names the program's value, read at an argument it
  gives the argument back. What `W7` holds at the result buffer is computed in the modules that import this one.
-/
import proofs.«157847_j6760278524113_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault, its result buffer at the last
    boundary's contents and its fourteen argument arrays as launched. -/
theorem run_named : θ_run defs (onTc (τ := τ) (main (F := F))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v23 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.RunValue

end
-- ==== Proof.Spec.lean ====
/-
  The scalar formulas both programs compute, on the extended reals.

  `bnRelu x μ v g β` is one entry of a batch normalisation followed by a clamp at zero:
  `max ((x − μ) · (v + ε)^(-1/2) · g + β) 0`, with `ε` the value the word `0x3727C5AC` denotes (about 1e-5) and `0` the value of
  the zero word; both programs carry the same two words, so neither is evaluated.
  `matPlain`: the entry `(a, b)` of an `m × k` by `k × n` product, the sum over the contracted coordinate.
-/
import Idealize.ShloMosaic.PureOps.Ideal.Laws
import Idealize.ShloMosaic.Lib.ValueIdx
import Idealize.ShloMosaic.Lib.StackMember
import Idealize.ShloMosaic.Lib.KernelVsHost

noncomputable section

namespace Cert.Spec

open Idealize.ShloMosaic Idealize.ShloMosaic.ValueIdx

/-- The value of the words both programs add under the inverse square root and clamp against. -/
abbrev eps : EReal := Ideal.ofBits .f32 0x3727C5AC#32
abbrev zero : EReal := Ideal.ofBits .f32 0x00000000#32

/-- One entry normalised by mean `μ` and variance `v`, scaled by `g`, shifted by `β`, clamped below at zero. -/
def bnRelu (x μ v g β : EReal) : EReal := max ((x - μ) * Ideal.rsqrt (v + eps) * g + β) zero

/-- A kernel's matrix product into a zero accumulator, for the plain dimension numbers (rows by contraction, contraction
    by columns), read at `(a, b)`: the sum over the contracted coordinate of the products of the entries. -/
theorem matmul_plain_apply {m k n : Nat} (d : DotDims ⟨2, ![m, k]⟩ ⟨2, ![k, n]⟩ ⟨2, ![m, n]⟩) (hd : d = DotDims.plain m k n)
    {φ₁ φ₂ : FTy} (A : FVec Ideal ⟨2, ![m, k]⟩ φ₁) (B : FVec Ideal ⟨2, ![k, n]⟩ φ₂) (a : Fin m) (b : Fin n) :
    matmul d none A B (constant ⟨2, ![m, n]⟩ .f32 0x00000000#32) (ix2 a b) = ∑ c : Fin k, A (ix2 a c) * B (ix2 c b) := by
  subst hd
  rw [matmul_zero_eq_dotGeneral]
  exact StackMember.dotGeneral_plain_apply none A B a b

end Cert.Spec

end
-- ==== Proof.Pay3.lean ====
/-
  The third kernel's arithmetic read at an entry. Its one store holds, at row `r` and column `a` of the block,
  `logistic (∑ k, bnRelu (h2 r k) (μ k) (v k) (g k) (β k) · wo k a + bo a)`: the block of the second hidden layer is normalised
  column by column, clamped at zero, multiplied by the output weights (the rounding to the short format on the way into the
  product is the identity on the extended reals), shifted by the output bias and passed through the logistic function.
-/
import proofs.«157847_j6760278524113_2_alg».proof.Proof.Gen.KernelIdeal.Skeleton
import proofs.«157847_j6760278524113_2_alg».proof.Proof.Spec
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Spec

theorem dot3_plain : dot_S8192x64_S64x16_S8192x16_1_0_0_1_n_n = DotDims.plain 8192 64 16 := rfl

/-- The third kernel's stored block at `(r, a)`. -/
theorem pay3_apply (x0 : FVec Ideal S8192x64 .f32) (x1 x2 x3 x4 : FVec Ideal S1x64 .f32) (x5 : FVec Ideal S64x16 .f32)
    (x6 : FVec Ideal S1x16 .f32) (r : Fin 8192) (a : Fin 16) :
    k2_pay1 (F := Ideal) x0 x1 x2 x3 x4 x5 x6 (ix2 r a)
      = Ideal.logistic ((∑ k : Fin 64, bnRelu (x0 (ix2 r k)) (x1 (ix2 (0 : Fin 1) k)) (x2 (ix2 (0 : Fin 1) k)) (x3 (ix2 (0 : Fin 1) k))
          (x4 (ix2 (0 : Fin 1) k)) * x5 (ix2 k a)) + x6 (ix2 (0 : Fin 1) a)) := by
  unfold k2_pay1
  simp only [shapeCast_self]
  refine congrArg Ideal.logistic ?_
  refine congrArg₂ (· + ·) ?_ ?_
  · refine (matmul_plain_apply _ dot3_plain _ _ r a).trans ?_
    refine Finset.sum_congr rfl fun k _ => ?_
    refine congrArg₂ (· * ·) ?_ rfl
    show max ((x0 (ix2 r k) - broadcastTo S8192x64 x1 broadcasts_S1x64_S8192x64 (ix2 r k))
        * broadcastTo S8192x64 (rsqrt (addf x2 (broadcast S1x64 (Scalar.ofBits .f32 0x3727C5AC#32)))) broadcasts_S1x64_S8192x64 (ix2 r k)
        * broadcastTo S8192x64 x3 broadcasts_S1x64_S8192x64 (ix2 r k)
        + broadcastTo S8192x64 x4 broadcasts_S1x64_S8192x64 (ix2 r k)) (Ideal.ofBits .f32 0x00000000#32) = _
    rw [broadcastTo_1b_ab_apply, broadcastTo_1b_ab_apply, broadcastTo_1b_ab_apply, broadcastTo_1b_ab_apply]
    rfl
  · exact broadcastTo_1b_ab_apply x6 broadcasts_S1x16_S8192x16 r a

end Cert.KernelIdeal.Pay

end
-- ==== Proof.Value3.lean ====
/-
  The third kernel launch as one function of the arrays it reads. The launch has sixteen grid points; point `t` stages rows
  `8192 t … 8192 t + 8191` of the second hidden layer and of the output, and the whole of every other operand. What point `t`
  writes back is therefore rows `8192 t …` of ONE function `G3` of the whole arrays — entry `(R, a)` is
  `logistic (∑ k, bnRelu (h2 R k) (μ k) (v k) (g k) (β k) · wo k a + bo a)` —, the sixteen blocks tile the 131072 rows (row `R` lies
  in block `R / 8192`), and so the output array after the launch is `G3`.
-/
import proofs.«157847_j6760278524113_2_alg».proof.Proof.Gen.KernelIdeal.Frame
import proofs.«157847_j6760278524113_2_alg».proof.Proof.Pay3

set_option maxRecDepth 16384

noncomputable section

open Idealize.ShloMosaic Idealize.ShloMosaic.TcCoe Idealize.SL.Sem
open Idealize.ShloMosaic.Pipeline (Dat)

namespace Cert.KernelIdeal.Value3

open Cert.KernelIdeal Cert.KernelIdeal.Gen Cert.KernelIdeal.Pay Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Entry `(R, a)` of the launch's output, from the whole arrays. -/
def G3at (h2 : S131072x64.Idx → Elt Ideal .f32) (μ v g β : S1x64.Idx → Elt Ideal .f32) (wo : S64x16.Idx → Elt Ideal .f32)
    (bo : S1x16.Idx → Elt Ideal .f32) (R : Fin 131072) (a : Fin 16) : EReal :=
  Ideal.logistic ((∑ k : Fin 64, bnRelu (h2 (ix2 R k)) (μ (ix2 (0 : Fin 1) k)) (v (ix2 (0 : Fin 1) k)) (g (ix2 (0 : Fin 1) k))
    (β (ix2 (0 : Fin 1) k)) * wo (ix2 k a)) + bo (ix2 (0 : Fin 1) a))

/-- The launch's output array as one function of the arrays it reads. -/
def G3 (h2 : S131072x64.Idx → Elt Ideal .f32) (μ v g β : S1x64.Idx → Elt Ideal .f32) (wo : S64x16.Idx → Elt Ideal .f32)
    (bo : S1x16.Idx → Elt Ideal .f32) : S131072x16.Idx → Elt Ideal .f32 := fun i => G3at h2 μ v g β wo bo (i 0) (i 1)

/-- The first window's block at point `t` is rows `8192 t …` of the second hidden layer. -/
theorem iblk0_apply (c : Dev nD) (t : Fin cfg2.N) (x : S8192x64.Idx) (k : S131072x64.Idx)
    (hk0 : (k 0).val = 8192 * t.val + (x 0).val) (hk1 : (k 1).val = (x 1).val) :
    (iblk2 V c 0 t : Vec Ideal S8192x64 .f32) x = (V c main_v12_0 : S131072x64.Idx → Elt Ideal .f32) k := by
  have hi : win2_0.index t 0 = t.val ∧ win2_0.index t 1 = 0 :=
    (by decide +kernel : ∀ t : Fin grid2.N, win2_0.index t 0 = t.val ∧ win2_0.index t 1 = 0) t
  unfold iblk2
  rw [View.read_apply]
  show V c main_v12_0 _ = V c main_v12_0 _
  refine congrArg (V c main_v12_0) (funext fun a => Fin.ext ?_)
  match a with
  | ⟨0, _⟩ => show win2_0.index t 0 * 8192 + 1 * (x 0).val = (k 0).val; rw [hi.1, hk0]; omega
  | ⟨1, _⟩ => show win2_0.index t 1 * 64 + 1 * (x 1).val = (k 1).val; rw [hi.2, hk1]; omega

/-- Window 1 stages its whole array at every point: its block read at an entry is the array there. -/
theorem iblk1_apply (c : Dev nD) (t : Fin cfg2.N) (x : S1x64.Idx) :
    (iblk2 V c 1 t : Vec Ideal S1x64 .f32) x = (V c main_v14 : S1x64.Idx → Elt Ideal .f32) x := by
  have hi : win2_1.index t 0 = 0 ∧ win2_1.index t 1 = 0 :=
    (by decide +kernel : ∀ t : Fin grid2.N, win2_1.index t 0 = 0 ∧ win2_1.index t 1 = 0) t
  unfold iblk2
  rw [View.read_apply]
  show V c main_v14 _ = V c main_v14 _
  refine congrArg (V c main_v14) (funext fun a => Fin.ext ?_)
  match a with
  | ⟨0, _⟩ => show win2_1.index t 0 * 1 + 1 * (x 0).val = (x 0).val; rw [hi.1]; omega
  | ⟨1, _⟩ => show win2_1.index t 1 * 64 + 1 * (x 1).val = (x 1).val; rw [hi.2]; omega

/-- Window 2 stages its whole array at every point: its block read at an entry is the array there. -/
theorem iblk2_apply (c : Dev nD) (t : Fin cfg2.N) (x : S1x64.Idx) :
    (iblk2 V c 2 t : Vec Ideal S1x64 .f32) x = (V c main_v18 : S1x64.Idx → Elt Ideal .f32) x := by
  have hi : win2_2.index t 0 = 0 ∧ win2_2.index t 1 = 0 :=
    (by decide +kernel : ∀ t : Fin grid2.N, win2_2.index t 0 = 0 ∧ win2_2.index t 1 = 0) t
  unfold iblk2
  rw [View.read_apply]
  show V c main_v18 _ = V c main_v18 _
  refine congrArg (V c main_v18) (funext fun a => Fin.ext ?_)
  match a with
  | ⟨0, _⟩ => show win2_2.index t 0 * 1 + 1 * (x 0).val = (x 0).val; rw [hi.1]; omega
  | ⟨1, _⟩ => show win2_2.index t 1 * 64 + 1 * (x 1).val = (x 1).val; rw [hi.2]; omega

/-- Window 3 stages its whole array at every point: its block read at an entry is the array there. -/
theorem iblk3_apply (c : Dev nD) (t : Fin cfg2.N) (x : S1x64.Idx) :
    (iblk2 V c 3 t : Vec Ideal S1x64 .f32) x = (V c main_v19 : S1x64.Idx → Elt Ideal .f32) x := by
  have hi : win2_3.index t 0 = 0 ∧ win2_3.index t 1 = 0 :=
    (by decide +kernel : ∀ t : Fin grid2.N, win2_3.index t 0 = 0 ∧ win2_3.index t 1 = 0) t
  unfold iblk2
  rw [View.read_apply]
  show V c main_v19 _ = V c main_v19 _
  refine congrArg (V c main_v19) (funext fun a => Fin.ext ?_)
  match a with
  | ⟨0, _⟩ => show win2_3.index t 0 * 1 + 1 * (x 0).val = (x 0).val; rw [hi.1]; omega
  | ⟨1, _⟩ => show win2_3.index t 1 * 64 + 1 * (x 1).val = (x 1).val; rw [hi.2]; omega

/-- Window 4 stages its whole array at every point: its block read at an entry is the array there. -/
theorem iblk4_apply (c : Dev nD) (t : Fin cfg2.N) (x : S1x64.Idx) :
    (iblk2 V c 4 t : Vec Ideal S1x64 .f32) x = (V c main_v20 : S1x64.Idx → Elt Ideal .f32) x := by
  have hi : win2_4.index t 0 = 0 ∧ win2_4.index t 1 = 0 :=
    (by decide +kernel : ∀ t : Fin grid2.N, win2_4.index t 0 = 0 ∧ win2_4.index t 1 = 0) t
  unfold iblk2
  rw [View.read_apply]
  show V c main_v20 _ = V c main_v20 _
  refine congrArg (V c main_v20) (funext fun a => Fin.ext ?_)
  match a with
  | ⟨0, _⟩ => show win2_4.index t 0 * 1 + 1 * (x 0).val = (x 0).val; rw [hi.1]; omega
  | ⟨1, _⟩ => show win2_4.index t 1 * 64 + 1 * (x 1).val = (x 1).val; rw [hi.2]; omega

/-- Window 5 stages its whole array at every point: its block read at an entry is the array there. -/
theorem iblk5_apply (c : Dev nD) (t : Fin cfg2.N) (x : S64x16.Idx) :
    (iblk2 V c 5 t : Vec Ideal S64x16 .f32) x = (V c main_arg12 : S64x16.Idx → Elt Ideal .f32) x := by
  have hi : win2_5.index t 0 = 0 ∧ win2_5.index t 1 = 0 :=
    (by decide +kernel : ∀ t : Fin grid2.N, win2_5.index t 0 = 0 ∧ win2_5.index t 1 = 0) t
  unfold iblk2
  rw [View.read_apply]
  show V c main_arg12 _ = V c main_arg12 _
  refine congrArg (V c main_arg12) (funext fun a => Fin.ext ?_)
  match a with
  | ⟨0, _⟩ => show win2_5.index t 0 * 64 + 1 * (x 0).val = (x 0).val; rw [hi.1]; omega
  | ⟨1, _⟩ => show win2_5.index t 1 * 16 + 1 * (x 1).val = (x 1).val; rw [hi.2]; omega

/-- Window 6 stages its whole array at every point: its block read at an entry is the array there. -/
theorem iblk6_apply (c : Dev nD) (t : Fin cfg2.N) (x : S1x16.Idx) :
    (iblk2 V c 6 t : Vec Ideal S1x16 .f32) x = (V c main_v21 : S1x16.Idx → Elt Ideal .f32) x := by
  have hi : win2_6.index t 0 = 0 ∧ win2_6.index t 1 = 0 :=
    (by decide +kernel : ∀ t : Fin grid2.N, win2_6.index t 0 = 0 ∧ win2_6.index t 1 = 0) t
  unfold iblk2
  rw [View.read_apply]
  show V c main_v21 _ = V c main_v21 _
  refine congrArg (V c main_v21) (funext fun a => Fin.ext ?_)
  match a with
  | ⟨0, _⟩ => show win2_6.index t 0 * 1 + 1 * (x 0).val = (x 0).val; rw [hi.1]; omega
  | ⟨1, _⟩ => show win2_6.index t 1 * 16 + 1 * (x 1).val = (x 1).val; rw [hi.2]; omega

/-- The output window's block at point `t` sits at rows `8192 t …`. -/
theorem out_index (t : Fin cfg2.N) : win2_7.index t 0 = t.val ∧ win2_7.index t 1 = 0 :=
  (by decide +kernel : ∀ t : Fin grid2.N, win2_7.index t 0 = t.val ∧ win2_7.index t 1 = 0) t

/-- WHAT POINT `t` WRITES BACK is block `t` of `G3` of the arrays as the launch finds them. -/
theorem flushed3 (c : Dev nD) (t : Fin cfg2.N) :
    (dat2 V c).flushed 7 t = ((cfg2.win 7).blk t).view.read (Elt Ideal)
      (G3 (V c main_v12_0) (V c main_v14) (V c main_v18) (V c main_v19) (V c main_v20) (V c main_arg12) (V c main_v21)) := by
  show (cfg2.win 7).cut (grid2.coords t) ((dat2 V c).after 7 t) = _
  rw [after2_7]
  unfold out2_7
  rw [View.canon_unit_zero hz]
  simp only [View.ld_unit_zero (S := S8192x64) hz, View.ld_unit_zero (S := S1x64) hz, View.ld_unit_zero (S := S64x16) hz,
    View.ld_unit_zero (S := S1x16) hz]
  funext j
  obtain ⟨r, a, rfl⟩ : ∃ (r : Fin 8192) (a : Fin 16), j = ix2 r a := ⟨j 0, j 1, eq_ix2 j⟩
  refine (pay3_apply (iblk2 V c 0 t) (iblk2 V c 1 t) (iblk2 V c 2 t) (iblk2 V c 3 t) (iblk2 V c 4 t) (iblk2 V c 5 t)
    (iblk2 V c 6 t) r a).trans ?_
  rw [View.read_apply]
  obtain ⟨i0, i1⟩ := out_index t
  have hR0 : ((((cfg2.win 7).blk t).view.emb (ix2 r a)) 0).val = 8192 * t.val + r.val := by
    show win2_7.index t 0 * 8192 + 1 * r.val = _; rw [i0]; omega
  have hR1 : ((((cfg2.win 7).blk t).view.emb (ix2 r a)) 1).val = a.val := by
    show win2_7.index t 1 * 16 + 1 * a.val = _; rw [i1]; omega
  generalize ((cfg2.win 7).blk t).view.emb (ix2 r a) = Rk at hR0 hR1
  have e0 : ∀ k : Fin 64, (iblk2 V c 0 t : Vec Ideal S8192x64 .f32) (ix2 r k)
      = (V c main_v12_0 : S131072x64.Idx → Elt Ideal .f32) (ix2 (Rk 0) k) :=
    fun k => iblk0_apply V c t (ix2 r k) (ix2 (Rk 0) k) hR0 rfl
  have ea : (Rk 1 : Fin 16) = a := Fin.ext hR1
  show Ideal.logistic _ = G3at _ _ _ _ _ _ _ (Rk 0) (Rk 1)
  unfold G3at
  rw [ea]
  simp only [e0, iblk1_apply, iblk2_apply, iblk3_apply, iblk4_apply, iblk5_apply, iblk6_apply]

/-- An index of the output array is in point `t`'s block iff each coordinate is in the block's range on its axis. -/
theorem mem_blk (t : Fin cfg2.N) (i : S131072x16.Idx) :
    i ∈ ((cfg2.win 7).blk t).view.set ↔ ∀ a : Fin 2, win2_7.index t a * S8192x16.size a ≤ (i a).val
      ∧ (i a).val < win2_7.index t a * S8192x16.size a + S8192x16.size a := by
  show i ∈ ((View.whole main_v22).slice (win2_7.rect t)).set ↔ _
  rw [View.set_slice_whole, Rect.mem_set_unit]
  exact Iff.rfl

/-- Every row of the output lies in the block of the point `row / 8192`. -/
theorem cover3 (i : S131072x16.Idx) : ∃ t : Fin cfg2.N, (cfg2.win 7).flush t = true ∧ i ∈ ((cfg2.win 7).blk t).view.set := by
  have hi0 : (i 0).val < 131072 := (i 0).isLt
  have hi1 : (i 1).val < 16 := (i 1).isLt
  have hN : cfg2.N = 16 := N_2
  let t : Fin cfg2.N := ⟨(i 0).val / 8192, by rw [hN]; omega⟩
  obtain ⟨i0, i1⟩ := out_index t
  refine ⟨t, flush2_7 t, ?_⟩
  rw [mem_blk]
  intro a
  have ht : t.val = (i 0).val / 8192 := rfl
  match a with
  | ⟨0, _⟩ => show win2_7.index t 0 * 8192 ≤ (i 0).val ∧ (i 0).val < win2_7.index t 0 * 8192 + 8192; rw [i0, ht]; omega
  | ⟨1, _⟩ => show win2_7.index t 1 * 16 ≤ (i 1).val ∧ (i 1).val < win2_7.index t 1 * 16 + 16; rw [i1]; omega

/-- THE OUTPUT ARRAY after the launch is `G3` of the arrays as the launch finds them. -/
theorem final3 (c : Dev nD) : (dat2 V c).arrAt 7 cfg2.N
    = G3 (V c main_v12_0) (V c main_v14) (V c main_v18) (V c main_v19) (V c main_v20) (V c main_arg12) (V c main_v21) :=
  (dat2 V c).arrAt_eq_of_cover 7 _ (fun t _ => flushed3 V c t) cover3

end Cert.KernelIdeal.Value3

end
-- ==== Proof.Glue3.lean ====
/-
  Between the launches the program runs a few host operations. This module reads the buffers the THIRD launch is entered
  with: the second hidden layer is the second launch's first output; the mean is its column sums divided by the number of
  rows `131072`, the variance its column sums of squares divided by the same minus the mean squared; scale, shift, output
  weights and bias are the arguments (the one-dimensional ones re-laid as one row). The program's result is the third
  launch's output re-laid as `[256, 512, 16]`.
-/
import proofs.«157847_j6760278524113_2_alg».proof.Proof.Value3

set_option maxRecDepth 16384

noncomputable section

open Idealize.ShloMosaic Idealize.ShloMosaic.TcCoe Idealize.SL.Sem Idealize.ShloMosaic.StableHlo

namespace Cert.KernelIdeal.Glue

open Cert.KernelIdeal Cert.KernelIdeal.Gen Cert.KernelIdeal.Value3

variable (m : (ℓ : Loc nD τ sig) → Buf (Elt Ideal) ℓ) (ρ : Dev nD → PrngReg)

/-- Column sums divided by the number of rows. -/
def meanOf (sum : FVec Ideal S1x64 .f32) : FVec Ideal S1x64 .f32 :=
  Host.divf sum (broadcastInDim S1x64 ![] bcast_S_S1x64 (constant (F := Ideal) S_ .f32 0x48000000#32))

/-- The mean of the squares minus the square of the mean. -/
def varOf (sum sumsq : FVec Ideal S1x64 .f32) : FVec Ideal S1x64 .f32 :=
  subf (meanOf sumsq) (mulf (meanOf sum) (meanOf sum))

theorem V5_arg10 (c : Dev nD) : V5 m ρ c main_arg10 = m ((c : Thread nD τ).loc main_arg10) := by
  show StableHlo.after hostOps2 (W4 m ρ c) (Proc.devRef .tc main_arg10) = _
  after_results
  rw [W4_of_ne m ρ c main_arg10 (by decide)]
  show StableHlo.after hostOps1 (W2 m ρ c) (Proc.devRef .tc main_arg10) = _
  after_results
  rw [W2_of_ne m ρ c main_arg10 (by decide)]
  try (show StableHlo.after hostOps0 (W0 m ρ c) (Proc.devRef .tc main_arg10) = _; after_results)
  try rfl

theorem V5_arg11 (c : Dev nD) : V5 m ρ c main_arg11 = m ((c : Thread nD τ).loc main_arg11) := by
  show StableHlo.after hostOps2 (W4 m ρ c) (Proc.devRef .tc main_arg11) = _
  after_results
  rw [W4_of_ne m ρ c main_arg11 (by decide)]
  show StableHlo.after hostOps1 (W2 m ρ c) (Proc.devRef .tc main_arg11) = _
  after_results
  rw [W2_of_ne m ρ c main_arg11 (by decide)]
  try (show StableHlo.after hostOps0 (W0 m ρ c) (Proc.devRef .tc main_arg11) = _; after_results)
  try rfl

theorem V5_arg12 (c : Dev nD) : V5 m ρ c main_arg12 = m ((c : Thread nD τ).loc main_arg12) := by
  show StableHlo.after hostOps2 (W4 m ρ c) (Proc.devRef .tc main_arg12) = _
  after_results
  rw [W4_of_ne m ρ c main_arg12 (by decide)]
  show StableHlo.after hostOps1 (W2 m ρ c) (Proc.devRef .tc main_arg12) = _
  after_results
  rw [W2_of_ne m ρ c main_arg12 (by decide)]
  try (show StableHlo.after hostOps0 (W0 m ρ c) (Proc.devRef .tc main_arg12) = _; after_results)
  try rfl

theorem V5_arg13 (c : Dev nD) : V5 m ρ c main_arg13 = m ((c : Thread nD τ).loc main_arg13) := by
  show StableHlo.after hostOps2 (W4 m ρ c) (Proc.devRef .tc main_arg13) = _
  after_results
  rw [W4_of_ne m ρ c main_arg13 (by decide)]
  show StableHlo.after hostOps1 (W2 m ρ c) (Proc.devRef .tc main_arg13) = _
  after_results
  rw [W2_of_ne m ρ c main_arg13 (by decide)]
  try (show StableHlo.after hostOps0 (W0 m ρ c) (Proc.devRef .tc main_arg13) = _; after_results)
  try rfl

/-- The third launch reads the second launch's first output as its rows. -/
theorem V5_h2 (c : Dev nD) : V5 m ρ c main_v12_0 = (dat1 (V3 m ρ) c).arrAt 7 cfg1.N := by
  show StableHlo.after hostOps2 (W4 m ρ c) (Proc.devRef .tc main_v12_0) = _
  after_results
  exact W4_arr m ρ c 7

/-- The mean the third launch reads. -/
theorem V5_mean (c : Dev nD) : V5 m ρ c main_v14 = meanOf ((dat1 (V3 m ρ) c).arrAt 8 cfg1.N) := by
  show StableHlo.after hostOps2 (W4 m ρ c) (Proc.devRef .tc main_v14) = _
  after_results
  have h : W4 m ρ c (Proc.devRef .tc main_v12_1) = _ := W4_arr m ρ c 8
  rw [h]
  rfl

/-- The variance the third launch reads. -/
theorem V5_var (c : Dev nD) :
    V5 m ρ c main_v18 = varOf ((dat1 (V3 m ρ) c).arrAt 8 cfg1.N) ((dat1 (V3 m ρ) c).arrAt 9 cfg1.N) := by
  show StableHlo.after hostOps2 (W4 m ρ c) (Proc.devRef .tc main_v18) = _
  after_results
  have h8 : W4 m ρ c (Proc.devRef .tc main_v12_1) = _ := W4_arr m ρ c 8
  have h9 : W4 m ρ c (Proc.devRef .tc main_v12_2) = _ := W4_arr m ρ c 9
  rw [h8, h9]
  rfl

/-- Scale, shift and bias as the third launch reads them: the arguments re-laid as one row. -/
theorem V5_g (c : Dev nD) : V5 m ρ c main_v19
    = (fun i => shapeCast S1x64 (m ((c : Thread nD τ).loc main_arg10) : S64.Idx → Elt Ideal .f32) shapeCasts_S64_S1x64 i) := by
  have ha := V5_arg10 m ρ c
  show StableHlo.after hostOps2 (W4 m ρ c) (Proc.devRef .tc main_v19) = _
  after_results
  rw [← ha]
  show _ = fun i => shapeCast S1x64 (StableHlo.after hostOps2 (W4 m ρ c) (Proc.devRef .tc main_arg10)) shapeCasts_S64_S1x64 i
  after_results
  rfl

theorem V5_beta (c : Dev nD) : V5 m ρ c main_v20
    = (fun i => shapeCast S1x64 (m ((c : Thread nD τ).loc main_arg11) : S64.Idx → Elt Ideal .f32) shapeCasts_S64_S1x64 i) := by
  have ha := V5_arg11 m ρ c
  show StableHlo.after hostOps2 (W4 m ρ c) (Proc.devRef .tc main_v20) = _
  after_results
  rw [← ha]
  show _ = fun i => shapeCast S1x64 (StableHlo.after hostOps2 (W4 m ρ c) (Proc.devRef .tc main_arg11)) shapeCasts_S64_S1x64 i
  after_results
  rfl

theorem V5_bo (c : Dev nD) : V5 m ρ c main_v21
    = (fun i => shapeCast S1x16 (m ((c : Thread nD τ).loc main_arg13) : S16.Idx → Elt Ideal .f32) shapeCasts_S16_S1x16 i) := by
  have ha := V5_arg13 m ρ c
  show StableHlo.after hostOps2 (W4 m ρ c) (Proc.devRef .tc main_v21) = _
  after_results
  rw [← ha]
  show _ = fun i => shapeCast S1x16 (StableHlo.after hostOps2 (W4 m ρ c) (Proc.devRef .tc main_arg13)) shapeCasts_S16_S1x16 i
  after_results
  rfl

/-- THE PROGRAM'S RESULT: the third launch's output array re-laid as `[256, 512, 16]`. -/
theorem result_eq (c : Dev nD) : W7 m ρ c (Proc.devRef .tc main_v23)
    = (fun i => shapeCast S256x512x16 (G3 (V5 m ρ c main_v12_0) (V5 m ρ c main_v14) (V5 m ρ c main_v18) (V5 m ρ c main_v19)
        (V5 m ρ c main_v20) (V5 m ρ c main_arg12) (V5 m ρ c main_v21)) shapeCasts_S131072x16_S256x512x16 i) := by
  show StableHlo.after hostOps3 (W6 m ρ c) (Proc.devRef .tc main_v23) = _
  after_results
  have h : W6 m ρ c (Proc.devRef .tc main_v22) = _ := W6_arr m ρ c 7
  rw [h, final3]
  rfl

end Cert.KernelIdeal.Glue

end
-- ==== Proof.Glue2.lean ====
/-
  The buffers the SECOND launch is entered with: the first hidden layer is the first launch's first output re-laid as
  `[131072, 64]`; the mean and variance are its column totals divided by the number of rows (the variance minus the mean
  squared); scale, shift and bias are arguments re-laid as one row, the weights an argument.
-/
import proofs.«157847_j6760278524113_2_alg».proof.Proof.Glue3

set_option maxRecDepth 16384

noncomputable section

open Idealize.ShloMosaic Idealize.ShloMosaic.TcCoe Idealize.SL.Sem Idealize.ShloMosaic.StableHlo

namespace Cert.KernelIdeal.Glue

open Cert.KernelIdeal Cert.KernelIdeal.Gen

variable (m : (ℓ : Loc nD τ sig) → Buf (Elt Ideal) ℓ) (ρ : Dev nD → PrngReg)

theorem V3_arg6 (c : Dev nD) : V3 m ρ c main_arg6 = m ((c : Thread nD τ).loc main_arg6) := by
  show StableHlo.after hostOps1 (W2 m ρ c) (Proc.devRef .tc main_arg6) = _
  after_results
  rw [W2_of_ne m ρ c main_arg6 (by decide)]
  try (show StableHlo.after hostOps0 (W0 m ρ c) (Proc.devRef .tc main_arg6) = _; after_results)
  try rfl

theorem V3_arg7 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  try (show StableHlo.after hostOps0 (W0 m ρ c) (Proc.devRef .tc main_arg7) = _; after_results)
  try rfl

theorem V3_arg8 (c : Dev nD) : V3 m ρ c main_arg8 = m ((c : Thread nD τ).loc main_arg8) := by
  show StableHlo.after hostOps1 (W2 m ρ c) (Proc.devRef .tc main_arg8) = _
  after_results
  rw [W2_of_ne m ρ c main_arg8 (by decide)]
  try (show StableHlo.after hostOps0 (W0 m ρ c) (Proc.devRef .tc main_arg8) = _; after_results)
  try rfl

theorem V3_arg9 (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  try (show StableHlo.after hostOps0 (W0 m ρ c) (Proc.devRef .tc main_arg9) = _; after_results)
  try rfl

/-- The second launch reads the first launch's first output as `[131072, 64]`. -/
theorem V3_h1 (c : Dev nD) : V3 m ρ c main_v8
    = (fun i => shapeCast S131072x64 ((dat0 (V1 m ρ) c).arrAt 6 cfg0.N) shapeCasts_S256x512x64_S131072x64 i) := by
  show StableHlo.after hostOps1 (W2 m ρ c) (Proc.devRef .tc main_v8) = _
  after_results
  have h : W2 m ρ c (Proc.devRef .tc main_v1_0) = _ := W2_arr m ρ c 6
  rw [h]
  rfl

theorem V3_mean (c : Dev nD) : V3 m ρ c main_v3 = meanOf ((dat0 (V1 m ρ) c).arrAt 7 cfg0.N) := by
  show StableHlo.after hostOps1 (W2 m ρ c) (Proc.devRef .tc main_v3) = _
  after_results
  have h : W2 m ρ c (Proc.devRef .tc main_v1_1) = _ := W2_arr m ρ c 7
  rw [h]
  rfl

theorem V3_var (c : Dev nD) :
    V3 m ρ c main_v7 = varOf ((dat0 (V1 m ρ) c).arrAt 7 cfg0.N) ((dat0 (V1 m ρ) c).arrAt 8 cfg0.N) := by
  show StableHlo.after hostOps1 (W2 m ρ c) (Proc.devRef .tc main_v7) = _
  after_results
  have h7 : W2 m ρ c (Proc.devRef .tc main_v1_1) = _ := W2_arr m ρ c 7
  have h8 : W2 m ρ c (Proc.devRef .tc main_v1_2) = _ := W2_arr m ρ c 8
  rw [h7, h8]
  rfl

theorem V3_g (c : Dev nD) : V3 m ρ c main_v9
    = (fun i => shapeCast S1x64 (m ((c : Thread nD τ).loc main_arg6) : S64.Idx → Elt Ideal .f32) shapeCasts_S64_S1x64 i) := by
  have ha := V3_arg6 m ρ c
  show StableHlo.after hostOps1 (W2 m ρ c) (Proc.devRef .tc main_v9) = _
  after_results
  rw [← ha]
  show _ = fun i => shapeCast S1x64 (StableHlo.after hostOps1 (W2 m ρ c) (Proc.devRef .tc main_arg6)) shapeCasts_S64_S1x64 i
  after_results
  rfl

theorem V3_beta (c : Dev nD) : V3 m ρ c main_v10
    = (fun i => shapeCast S1x64 (m ((c : Thread nD τ).loc main_arg7) : S64.Idx → Elt Ideal .f32) shapeCasts_S64_S1x64 i) := by
  have ha := V3_arg7 m ρ c
  show StableHlo.after hostOps1 (W2 m ρ c) (Proc.devRef .tc main_v10) = _
  after_results
  rw [← ha]
  show _ = fun i => shapeCast S1x64 (StableHlo.after hostOps1 (W2 m ρ c) (Proc.devRef .tc main_arg7)) shapeCasts_S64_S1x64 i
  after_results
  rfl

theorem V3_b2 (c : Dev nD) : V3 m ρ c main_v11
    = (fun i => shapeCast S1x64 (m ((c : Thread nD τ).loc main_arg9) : S64.Idx → Elt Ideal .f32) shapeCasts_S64_S1x64 i) := by
  have ha := V3_arg9 m ρ c
  show StableHlo.after hostOps1 (W2 m ρ c) (Proc.devRef .tc main_v11) = _
  after_results
  rw [← ha]
  show _ = fun i => shapeCast S1x64 (StableHlo.after hostOps1 (W2 m ρ c) (Proc.devRef .tc main_arg9)) shapeCasts_S64_S1x64 i
  after_results
  rfl

end Cert.KernelIdeal.Glue

end
-- ==== Proof.Piece1.lean ====
/-
  What one run of the first kernel's body leaves in its three output buffers, as terms of the blocks it loaded: the
  hidden-layer block is `k0_pay2` of the product `k0_pay7` of the loaded blocks and of the bias row `k0_pay8`; the running
  totals are `k0_pay3` / `k0_pay4` of the same and of the zero splat (first point) or the carried total (later points).
-/
import proofs.«157847_j6760278524113_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Piece1

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- First point: the hidden-layer block. -/
theorem outA6_eq (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : cond0_0 i) (x0 : Vec F S1x512x128 .f32) (x1 : Vec F S1x512x512 .f32) (x2 : Vec F S128x32 .f32) (x3 : Vec F S128x32 .f32) (x4 : Vec F S256x64 .f32) (x5 : Vec F S1x64 .f32) :
    out0_A_6 c i arg1 harg1 arg2 harg2 arg3 harg3 arg4 harg4 arg5 harg5 arg6 harg6 arg7 harg7 arg8 harg8 arg9 harg9 hc0 x0 x1 x2 x3 x4 x5 = k0_pay2 (k0_pay7 x0 x1 x2 x3 x4) (k0_pay8 x5) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  first | rw [View.canon_unit_zero hz3] | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S1x512x128) hz3, View.ld_unit_zero (S := S1x512x512) hz3, View.ld_unit_zero (S := S128x32) hz, View.ld_unit_zero (S := S256x64) hz, View.ld_unit_zero (S := S1x64) hz]

/-- First point: the running sum starts from the zero splat. -/
theorem outA7_eq (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : cond0_0 i) (x0 : Vec F S1x512x128 .f32) (x1 : Vec F S1x512x512 .f32) (x2 : Vec F S128x32 .f32) (x3 : Vec F S128x32 .f32) (x4 : Vec F S256x64 .f32) (x5 : Vec F S1x64 .f32) :
    out0_A_7 c i arg1 harg1 arg2 harg2 arg3 harg3 arg4 harg4 arg5 harg5 arg6 harg6 arg7 harg7 arg8 harg8 arg9 harg9 hc0 x0 x1 x2 x3 x4 x5 = k0_pay3 (k0_pay7 x0 x1 x2 x3 x4) (k0_pay8 x5) (k0_pay5 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  first | rw [View.canon_unit_zero hz3] | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S1x512x128) hz3, View.ld_unit_zero (S := S1x512x512) hz3, View.ld_unit_zero (S := S128x32) hz, View.ld_unit_zero (S := S256x64) hz, View.ld_unit_zero (S := S1x64) hz]

/-- First point: the running sum of squares starts from the zero splat. -/
theorem outA8_eq (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : cond0_0 i) (x0 : Vec F S1x512x128 .f32) (x1 : Vec F S1x512x512 .f32) (x2 : Vec F S128x32 .f32) (x3 : Vec F S128x32 .f32) (x4 : Vec F S256x64 .f32) (x5 : Vec F S1x64 .f32) :
    out0_A_8 c i arg1 harg1 arg2 harg2 arg3 harg3 arg4 harg4 arg5 harg5 arg6 harg6 arg7 harg7 arg8 harg8 arg9 harg9 hc0 x0 x1 x2 x3 x4 x5 = k0_pay4 (k0_pay7 x0 x1 x2 x3 x4) (k0_pay8 x5) (k0_pay6 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  first | rw [View.canon_unit_zero hz3] | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S1x512x128) hz3, View.ld_unit_zero (S := S1x512x512) hz3, View.ld_unit_zero (S := S128x32) hz, View.ld_unit_zero (S := S256x64) hz, View.ld_unit_zero (S := S1x64) hz]

/-- A later point: the hidden-layer block. -/
theorem outB6_eq (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (x0 : Vec F S1x512x128 .f32) (x1 : Vec F S1x512x512 .f32) (x2 : Vec F S128x32 .f32) (x3 : Vec F S128x32 .f32) (x4 : Vec F S256x64 .f32) (x5 : Vec F S1x64 .f32) (xo7 xo8 : Vec F S1x64 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay2 (k0_pay7 x0 x1 x2 x3 x4) (k0_pay8 x5) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  first | rw [View.canon_unit_zero hz3] | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S1x512x128) hz3, View.ld_unit_zero (S := S1x512x512) hz3, View.ld_unit_zero (S := S128x32) hz, View.ld_unit_zero (S := S256x64) hz, View.ld_unit_zero (S := S1x64) hz]

/-- A later point: the running sum over what the point before left. -/
theorem outB7_eq (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (x0 : Vec F S1x512x128 .f32) (x1 : Vec F S1x512x512 .f32) (x2 : Vec F S128x32 .f32) (x3 : Vec F S128x32 .f32) (x4 : Vec F S256x64 .f32) (x5 : Vec F S1x64 .f32) (xo7 xo8 : Vec F S1x64 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay3 (k0_pay7 x0 x1 x2 x3 x4) (k0_pay8 x5) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  first | rw [View.canon_unit_zero hz3] | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S1x512x128) hz3, View.ld_unit_zero (S := S1x512x512) hz3, View.ld_unit_zero (S := S128x32) hz, View.ld_unit_zero (S := S256x64) hz, View.ld_unit_zero (S := S1x64) hz]

/-- A later point: the running sum of squares over what the point before left. -/
theorem outB8_eq (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x32 .f32) (harg3 : arg3.IsWhole) (arg4 : Memref sig .tc .vmem S128x32 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x512x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (x0 : Vec F S1x512x128 .f32) (x1 : Vec F S1x512x512 .f32) (x2 : Vec F S128x32 .f32) (x3 : Vec F S128x32 .f32) (x4 : Vec F S256x64 .f32) (x5 : Vec F S1x64 .f32) (xo7 xo8 : Vec F S1x64 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay4 (k0_pay7 x0 x1 x2 x3 x4) (k0_pay8 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  first | rw [View.canon_unit_zero hz3] | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S1x512x128) hz3, View.ld_unit_zero (S := S1x512x512) hz3, View.ld_unit_zero (S := S128x32) hz, View.ld_unit_zero (S := S256x64) hz, View.ld_unit_zero (S := S1x64) hz]

end Cert.KernelIdeal.Piece1

end
-- ==== Proof.SpecNet.lean ====
/-
  The whole network as plain formulas on the extended reals, entry by entry, over the fourteen argument arrays.

  Per batch `b`: `proj w` is `s_b · w` (queries with `qw`, keys with `kw`); the scores are the squared query–key products times the
  graph weights; each row is divided by its sum plus the word `0x3A83126F` (about 1e-3); the aggregate is the attention-weighted
  sum of the rows of `s_b`; the row `[s_b, agg]` goes through the first linear layer. The `256 × 512` rows are then one table of
  `131072` rows: each of the two hidden layers is normalised column by column with the table's mean and variance, scaled, shifted,
  clamped at zero and multiplied by the next weights; the last product goes through the logistic function.
  The variance has two readings, `colVarSq` (mean of squares minus squared mean) and `colVarDev` (mean of squared deviations):
  the network is stated over either (`var`), and the two agree when the table's entries are real (Proof/LibVariance.lean).
-/
import proofs.«157847_j6760278524113_2_alg».proof.Proof.Spec

noncomputable section

namespace Cert.Spec

open Idealize.ShloMosaic Idealize.ShloMosaic.ValueIdx

abbrev A3 (a b c : Nat) := (⟨3, ![a, b, c]⟩ : Shape).Idx → EReal
abbrev A2 (a b : Nat) := (⟨2, ![a, b]⟩ : Shape).Idx → EReal
abbrev A1 (a : Nat) := (⟨1, ![a]⟩ : Shape).Idx → EReal

/-- The number of rows `131072` and the denominator's guard, as the words both programs carry. -/
abbrev nRows : EReal := Ideal.ofBits .f32 0x48000000#32
abbrev cDen : EReal := Ideal.ofBits .f32 0x3A83126F#32

/-- The fourteen argument arrays, in the programs' order. -/
structure Args where
  s : A3 256 512 128
  g : A3 256 512 512
  qw : A2 128 32
  kw : A2 128 32
  w1 : A2 256 64
  b1 : A1 64
  g1 : A1 64
  be1 : A1 64
  w2 : A2 64 64
  b2 : A1 64
  g2 : A1 64
  be2 : A1 64
  wo : A2 64 16
  bo : A1 16

variable (x : Args)

/-! ## Attention and the first linear layer, per batch -/

def projAt (w : A2 128 32) (b : Fin 256) (n : Fin 512) (m : Fin 32) : EReal := ∑ d : Fin 128, x.s (ix3 b n d) * w (ix2 d m)
def qkAt (b : Fin 256) (n p : Fin 512) : EReal := ∑ m : Fin 32, projAt x x.qw b n m * projAt x x.kw b p m
def scAt (b : Fin 256) (n p : Fin 512) : EReal := qkAt x b n p * qkAt x b n p * x.g (ix3 b n p)
def denAt (b : Fin 256) (n : Fin 512) : EReal := (∑ p : Fin 512, scAt x b n p) + cDen
def attAt (b : Fin 256) (n p : Fin 512) : EReal := Ideal.div (scAt x b n p) (denAt x b n)
def aggAt (b : Fin 256) (n : Fin 512) (d : Fin 128) : EReal := ∑ p : Fin 512, attAt x b n p * x.s (ix3 b p d)
/-- The row `[s_b, agg]` of `256` entries. -/
def catAt (b : Fin 256) (n : Fin 512) (e : Fin 256) : EReal :=
  if h : e.val < 128 then x.s (ix3 b n ⟨e.val, h⟩) else aggAt x b n ⟨e.val - 128, by have := e.isLt; omega⟩
def h1At (b : Fin 256) (n : Fin 512) (j : Fin 64) : EReal := (∑ e : Fin 256, catAt x b n e * x.w1 (ix2 e j)) + x.b1 (ix1 j)
/-- The first hidden layer as one table of `131072` rows: row `R` is row `R % 512` of batch `R / 512`. -/
def h1Row (R : Fin 131072) (j : Fin 64) : EReal :=
  h1At x ⟨R.val / 512, by have := R.isLt; omega⟩ ⟨R.val % 512, Nat.mod_lt _ (by decide)⟩ j

/-! ## Column statistics of a table of `131072` rows, and one normalised layer -/

section Layer
variable (h : Fin 131072 → Fin 64 → EReal)

def colMean (k : Fin 64) : EReal := Ideal.div (∑ R : Fin 131072, h R k) nRows
/-- The variance as the running totals give it. -/
def colVarSq (k : Fin 64) : EReal := Ideal.div (∑ R : Fin 131072, h R k * h R k) nRows - colMean h k * colMean h k
/-- The variance as the mean of the squared deviations. -/
def colVarDev (k : Fin 64) : EReal :=
  Ideal.div (∑ R : Fin 131072, (h R k - colMean h k) * (h R k - colMean h k)) nRows

/-- One layer: normalise with `μ`, `v`, scale, shift, clamp at zero, multiply by `w`, add `bias`. -/
def layerAt {n : Nat} (μ v : Fin 64 → EReal) (gm bt : A1 64) (w : A2 64 n) (bias : A1 n) (R : Fin 131072) (j : Fin n) : EReal :=
  (∑ k : Fin 64, bnRelu (h R k) (μ k) (v k) (gm (ix1 k)) (bt (ix1 k)) * w (ix2 k j)) + bias (ix1 j)

end Layer

/-! ## The network, over a reading `var` of the variance -/

variable (var : (Fin 131072 → Fin 64 → EReal) → Fin 64 → EReal)

def h2Row (R : Fin 131072) (j : Fin 64) : EReal :=
  layerAt (h1Row x) (colMean (h1Row x)) (var (h1Row x)) x.g1 x.be1 x.w2 x.b2 R j
def logitRow (R : Fin 131072) (a : Fin 16) : EReal :=
  layerAt (h2Row x var) (colMean (h2Row x var)) (var (h2Row x var)) x.g2 x.be2 x.wo x.bo R a
/-- THE RESULT at batch `b`, row `n`, column `a`. -/
def outAt (b : Fin 256) (n : Fin 512) (a : Fin 16) : EReal :=
  Ideal.logistic (logitRow x var ⟨512 * b.val + n.val, by have := b.isLt; have := n.isLt; omega⟩ a)

end Cert.Spec

end
-- ==== Proof.LibLayout.lean ====
/-
  Layout operations read at an entry, for the shapes a row-normalising kernel meets.

  A vector `[a]` re-laid as a column `[a, 1]`; a column `[a, 1]` broadcast along the rows of `[a, b]`; the sum of an `[n, m]` array
  along each row; and the two re-layings between a stack `[a, b, c]` and the table `[a·b, c]` of its rows (row `R` of the table is
  row `R % b` of member `R / b`: both orders are row-major).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[n, m]` array along each row, read at row `r`. -/
theorem rowsum_apply {n m : Nat} (src : FVec Ideal ⟨2, ![n, m]⟩ .f32) (h : Shape.Reduces ⟨2, ![n, m]⟩ [1] ⟨1, ![n]⟩)
    (hφ : FKind.Formats .f32) (hacc : (0x00000000#32 : BitVec (FTy.f32).bits) = FKind.add.neutral .f32 hφ) (r : Fin n) :
    multiReduction .add [1] ⟨1, ![n]⟩ src 0x00000000#32 h hφ hacc (ix1 r) = ∑ c : Fin m, src (ix2 r c) := by
  refine (Ideal.multiReduction_add_single src _ h hφ hacc (ix1 r)).trans ?_
  refine Finset.sum_congr rfl fun c _ => congrArg src ?_
  funext ax
  apply Fin.ext
  match ax with
  | ⟨0, _⟩ => rfl
  | ⟨1, _⟩ => rfl

/-- A stack `[a, b, c]` re-laid as the table `[n, c]` of its rows (`n = a · b`) reads, at `(R, j)`, member `R / b`, row `R % b`. -/
theorem shapeCast_abc_nc_apply {a b c n : ℕ} (x : (⟨3, ![a, b, c]⟩ : Shape).Idx → α)
    (h : (⟨3, ![a, b, c]⟩ : Shape).ShapeCasts ⟨2, ![n, c]⟩) (R : Fin n) (j : Fin c) (p : Fin a) (q : Fin b)
    (hR : R.val = p.val * b + q.val) : shapeCast ⟨2, ![n, c]⟩ x h (ix2 R j) = x (ix3 p q j) :=
  shapeCast_apply x h _ _ (by
    rw [Shape.rowMajor_val_three, Shape.rowMajor_val_two]
    show (p.val * b + q.val) * c + j.val = R.val * c + j.val
    rw [hR])

/-- The table `[n, c]` re-laid as the stack `[a, b, c]` reads, at `(p, q, j)`, row `p · b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (j : Fin c) (R : Fin n)
    (hR : R.val = p.val * b + q.val) : shapeCast ⟨3, ![a, b, c]⟩ x h (ix3 p q j) = x (ix2 R j) :=
  shapeCast_apply x h _ _ (by
    rw [Shape.rowMajor_val_three, Shape.rowMajor_val_two]
    show R.val * c + j.val = (p.val * b + q.val) * c + j.val
    rw [hR])

end Cert.Layout

end
-- ==== Proof.LibSums.lean ====
/-
  Sums along rows, and a long sum cut into consecutive blocks.

  `colsum_apply`: a kernel's sum of an `[n, m]` array over its rows (a `vector.multi_reduction <add>` over axis 0 into the neutral
  accumulator), read at column `j` on the extended reals, is `∑ r, x (r, j)`.
  `sum_blocks`: a sum over `a · b` consecutive naturals is the sum over `a` blocks of the sums over the `b` members of each;
  addition on the extended reals is commutative and associative (also at the infinities), so no finiteness is asked.
-/
import Idealize.ShloMosaic.PureOps.Ideal.Laws
import Idealize.ShloMosaic.Lib.ValueIdx

noncomputable section

namespace Cert.Sums

open Idealize.ShloMosaic Idealize.ShloMosaic.ValueIdx

/-- The row sum of an `[n, m]` array, read at column `j`. -/
theorem colsum_apply {n m : Nat} (src : FVec Ideal ⟨2, ![n, m]⟩ .f32) (h : Shape.Reduces ⟨2, ![n, m]⟩ [0] ⟨1, ![m]⟩)
    (hφ : FKind.Formats .f32) (hacc : (0x00000000#32 : BitVec (FTy.f32).bits) = FKind.add.neutral .f32 hφ) (j : Fin m) :
    multiReduction .add [0] ⟨1, ![m]⟩ src 0x00000000#32 h hφ hacc (ix1 j) = ∑ r : Fin n, src (ix2 r j) := by
  refine (Ideal.multiReduction_add_single src _ h hφ hacc (ix1 j)).trans ?_
  refine Finset.sum_congr rfl fun r _ => congrArg src ?_
  funext c
  apply Fin.ext
  match c with
  | ⟨0, _⟩ => rfl
  | ⟨1, _⟩ => rfl

/-- A sum over the first `a · b` naturals, block by block. -/
theorem sum_range_blocks {M : Type*} [AddCommMonoid M] (f : ℕ → M) (b : ℕ) :
    ∀ a : ℕ, ∑ R ∈ Finset.range (a * b), f R = ∑ s ∈ Finset.range a, ∑ r ∈ Finset.range b, f (b * s + r)
  | 0 => by simp
  | a + 1 => by
    rw [Nat.succ_mul, Finset.sum_range_add, sum_range_blocks f b a, Finset.sum_range_succ, Nat.mul_comm a b]

/-- The same with the long sum and the inner sums over `Fin`. -/
theorem sum_blocks {M : Type*} [AddCommMonoid M] (f : ℕ → M) (a b : ℕ) :
    ∑ R : Fin (a * b), f R.val = ∑ s ∈ Finset.range a, ∑ r : Fin b, f (b * s + r.val) := by
  rw [← Finset.sum_range f, sum_range_blocks f b a]
  exact Finset.sum_congr rfl fun s _ => Finset.sum_range fun r => f (b * s + r)

end Cert.Sums

end
-- ==== Proof.Pay1.lean ====
/-
  The first kernel's arithmetic, stage by stage, read at an entry against the network's formulas (Proof/SpecNet.lean).
  A grid point holds one batch `b`: its block of `s` and of the graph weights, and the whole weight arrays. The stages are the
  queries and keys (`s_b` times the two projections), their products, the squared products times the graph weights, each row's sum
  plus the guard, the quotient, the attention-weighted rows of `s_b`, the row `[s_b, agg]`, its product with the first weights and
  the bias. The roundings to the short format on the way into each product are the identity on the extended reals.
-/
import proofs.«157847_j6760278524113_2_alg».proof.Proof.Gen.KernelIdeal.Skeleton
import proofs.«157847_j6760278524113_2_alg».proof.Proof.SpecNet
import proofs.«157847_j6760278524113_2_alg».proof.Proof.LibLayout
import proofs.«157847_j6760278524113_2_alg».proof.Proof.LibSums

noncomputable section

namespace Cert.KernelIdeal.Pay1

open Idealize.ShloMosaic Idealize.ShloMosaic.ValueIdx Cert.KernelIdeal Cert.KernelIdeal.Gen Cert.Spec Cert.Layout Cert.Sums

theorem dotA : dot_S512x128_S128x32_S512x32_1_0_0_1_n_n = DotDims.plain 512 128 32 := rfl
theorem dotB : dot_S512x32_S32x512_S512x512_1_0_0_1_n_n = DotDims.plain 512 32 512 := rfl
theorem dotC : dot_S512x512_S512x128_S512x128_1_0_0_1_n_n = DotDims.plain 512 512 128 := rfl
theorem dotD : dot_S512x256_S256x64_S512x64_1_0_0_1_n_n = DotDims.plain 512 256 64 := rfl

variable (x0 : FVec Ideal S1x512x128 .f32) (x1 : FVec Ideal S1x512x512 .f32) (x2 x3 : FVec Ideal S128x32 .f32)
  (x4 : FVec Ideal S256x64 .f32) (x5 : FVec Ideal S1x64 .f32)

/-! ## The stages, named -/

def stS : FVec Ideal S512x128 .f32 := shapeCast S512x128 x0 shapeCasts_S1x512x128_S512x128
def stG : FVec Ideal S512x512 .f32 := shapeCast S512x512 x1 shapeCasts_S1x512x512_S512x512
def stProj (w : FVec Ideal S128x32 .f32) : FVec Ideal S512x32 .f32 :=
  matmul dot_S512x128_S128x32_S512x32_1_0_0_1_n_n none (truncf .bf16 (stS x0) bitsLt_bf16_f32) (truncf .bf16 w bitsLt_bf16_f32)
    (constant S512x32 .f32 0x00000000#32)
def stQK : FVec Ideal S512x512 .f32 :=
  matmul dot_S512x32_S32x512_S512x512_1_0_0_1_n_n none (truncf .bf16 (stProj x0 x2) bitsLt_bf16_f32)
    (transpose S32x512 [1, 0] (truncf .bf16 (stProj x0 x3) bitsLt_bf16_f32) transposes_S512x32_p1_0_S32x512)
    (constant S512x512 .f32 0x00000000#32)
def stSC : FVec Ideal S512x512 .f32 := mulf (mulf (stQK x0 x2 x3) (stQK x0 x2 x3)) (stG x1)
def stDen : FVec Ideal S512x1 .f32 :=
  addf (shapeCast S512x1 (multiReduction .add [1] S512 (stSC x0 x1 x2 x3) 0x00000000#32 reduces_S512x512_S512 (.inl rfl) rfl)
    shapeCasts_S512_S512x1) (broadcast S512x1 (Scalar.ofBits .f32 0x3A83126F#32))
def stAtt : FVec Ideal S512x512 .f32 :=
  divf (stSC x0 x1 x2 x3) (broadcastTo S512x512 (stDen x0 x1 x2 x3) broadcasts_S512x1_S512x512)
def stAgg : FVec Ideal S512x128 .f32 :=
  matmul dot_S512x512_S512x128_S512x128_1_0_0_1_n_n none (truncf .bf16 (stAtt x0 x1 x2 x3) bitsLt_bf16_f32)
    (truncf .bf16 (stS x0) bitsLt_bf16_f32) (constant S512x128 .f32 0x00000000#32)
def stCat : FVec Ideal S512x256 .f32 :=
  concatenate S512x256 1 [⟨S512x128, stS x0⟩, ⟨S512x128, stAgg x0 x1 x2 x3⟩] concatenates_S512x128_S512x128_S512x256_d1
def stH : FVec Ideal S512x64 .f32 :=
  matmul dot_S512x256_S256x64_S512x64_1_0_0_1_n_n none (truncf .bf16 (stCat x0 x1 x2 x3) bitsLt_bf16_f32)
    (truncf .bf16 x4 bitsLt_bf16_f32) (constant S512x64 .f32 0x00000000#32)

/-- The printed payload is the composition of the stages. -/
theorem pay7_eq : k0_pay7 (F := Ideal) x0 x1 x2 x3 x4 = stH x0 x1 x2 x3 x4 := rfl

/-! ## Each stage at an entry -/

variable (x : Args) (b : Fin 256)
  (h0 : ∀ (n : Fin 512) (d : Fin 128), x0 (ix3 (0 : Fin 1) n d) = x.s (ix3 b n d))
  (h1 : ∀ (n p : Fin 512), x1 (ix3 (0 : Fin 1) n p) = x.g (ix3 b n p))
  (h2 : ∀ i, x2 i = x.qw i) (h3 : ∀ i, x3 i = x.kw i) (h4 : ∀ i, x4 i = x.w1 i)
  (h5 : ∀ j : Fin 64, x5 (ix2 (0 : Fin 1) j) = x.b1 (ix1 j))

include h0 in
theorem stS_apply (n : Fin 512) (d : Fin 128) : stS x0 (ix2 n d) = x.s (ix3 b n d) :=
  (shapeCast_1ab_ab_apply x0 _ n d).trans (h0 n d)

include h1 in
theorem stG_apply (n p : Fin 512) : stG x1 (ix2 n p) = x.g (ix3 b n p) :=
  (shapeCast_1ab_ab_apply x1 _ n p).trans (h1 n p)

include h0 in
theorem stProj_apply (w : FVec Ideal S128x32 .f32) (w' : A2 128 32) (hw : ∀ i, w i = w' i) (n : Fin 512) (m : Fin 32) :
    stProj x0 w (ix2 n m) = projAt x w' b n m := by
  unfold stProj projAt
  refine (matmul_plain_apply _ dotA _ _ n m).trans (Finset.sum_congr rfl fun d _ => ?_)
  show stS x0 (ix2 n d) * w (ix2 d m) = _
  rw [stS_apply x0 x b h0 n d, hw]

include h0 h2 h3 in
theorem stQK_apply (n p : Fin 512) : stQK x0 x2 x3 (ix2 n p) = qkAt x b n p := by
  unfold stQK qkAt
  refine (matmul_plain_apply _ dotB _ _ n p).trans (Finset.sum_congr rfl fun mm _ => ?_)
  show stProj x0 x2 (ix2 n mm) * transpose S32x512 [1, 0] (truncf .bf16 (stProj x0 x3) bitsLt_bf16_f32) transposes_S512x32_p1_0_S32x512 (ix2 mm p) = _
  rw [transpose_ix2_apply]
  show stProj x0 x2 (ix2 n mm) * stProj x0 x3 (ix2 p mm) = _
  rw [stProj_apply x0 x b h0 x2 x.qw h2 n mm, stProj_apply x0 x b h0 x3 x.kw h3 p mm]

include h0 h1 h2 h3 in
theorem stSC_apply (n p : Fin 512) : stSC x0 x1 x2 x3 (ix2 n p) = scAt x b n p := by
  unfold stSC scAt
  show stQK x0 x2 x3 (ix2 n p) * stQK x0 x2 x3 (ix2 n p) * stG x1 (ix2 n p) = _
  rw [stQK_apply x0 x2 x3 x b h0 h2 h3 n p, stG_apply x1 x b h1 n p]

include h0 h1 h2 h3 in
theorem stDen_apply (n : Fin 512) : stDen x0 x1 x2 x3 (ix2 n (0 : Fin 1)) = denAt x b n := by
  unfold stDen denAt
  refine congrArg₂ (· + ·) ?_ rfl
  refine (shapeCast_a_a1_apply _ _ n (0 : Fin 1)).trans ?_
  refine (rowsum_apply (stSC x0 x1 x2 x3) _ _ _ n).trans (Finset.sum_congr rfl fun p _ => ?_)
  exact stSC_apply x0 x1 x2 x3 x b h0 h1 h2 h3 n p

include h0 h1 h2 h3 in
theorem stAtt_apply (n p : Fin 512) : stAtt x0 x1 x2 x3 (ix2 n p) = attAt x b n p := by
  unfold stAtt attAt
  show Ideal.div (stSC x0 x1 x2 x3 (ix2 n p)) (broadcastTo S512x512 (stDen x0 x1 x2 x3) broadcasts_S512x1_S512x512 (ix2 n p)) = _
  rw [broadcastTo_a1_ab_apply, stSC_apply x0 x1 x2 x3 x b h0 h1 h2 h3 n p, stDen_apply x0 x1 x2 x3 x b h0 h1 h2 h3 n]

include h0 h1 h2 h3 in
theorem stAgg_apply (n : Fin 512) (d : Fin 128) : stAgg x0 x1 x2 x3 (ix2 n d) = aggAt x b n d := by
  unfold stAgg aggAt
  refine (matmul_plain_apply _ dotC _ _ n d).trans (Finset.sum_congr rfl fun p _ => ?_)
  show stAtt x0 x1 x2 x3 (ix2 n p) * stS x0 (ix2 p d) = _
  rw [stAtt_apply x0 x1 x2 x3 x b h0 h1 h2 h3 n p, stS_apply x0 x b h0 p d]

include h0 h1 h2 h3 in
theorem stCat_apply (n : Fin 512) (e : Fin 256) : stCat x0 x1 x2 x3 (ix2 n e) = catAt x b n e := by
  unfold stCat catAt
  by_cases he : e.val < 128
  · rw [dif_pos he]
    refine (concatenate_pair_apply_left (t := S512x256) (s₁ := S512x128) (s₂ := S512x128) (1 : Fin 2) (stS x0) (stAgg x0 x1 x2 x3)
      concatenates_S512x128_S512x128_S512x256_d1 (ix2 n e) rfl (ix2 n (⟨e.val, he⟩ : Fin 128)) fun bb => ?_).trans ?_
    · match bb with
      | ⟨0, _⟩ => rfl
      | ⟨1, _⟩ => rfl
    · exact stS_apply x0 x b h0 n ⟨e.val, he⟩
  · rw [dif_neg he]
    have hlt : e.val - 128 < 128 := by have := e.isLt; omega
    refine (concatenate_pair_apply_right (t := S512x256) (s₁ := S512x128) (s₂ := S512x128) (1 : Fin 2) (stS x0) (stAgg x0 x1 x2 x3)
      concatenates_S512x128_S512x128_S512x256_d1 (ix2 n e) rfl rfl (ix2 n (⟨e.val - 128, hlt⟩ : Fin 128)) (fun bb hb => ?_) ?_).trans ?_
    · match bb with
      | ⟨0, _⟩ => rfl
      | ⟨1, _⟩ => exact absurd rfl hb
    · show e.val - 128 + 128 = e.val
      omega
    · exact stAgg_apply x0 x1 x2 x3 x b h0 h1 h2 h3 n ⟨e.val - 128, hlt⟩

include h0 h1 h2 h3 h4 in
theorem stH_apply (n : Fin 512) (j : Fin 64) :
    stH x0 x1 x2 x3 x4 (ix2 n j) = ∑ e : Fin 256, catAt x b n e * x.w1 (ix2 e j) := by
  unfold stH
  refine (matmul_plain_apply _ dotD _ _ n j).trans (Finset.sum_congr rfl fun e _ => ?_)
  show stCat x0 x1 x2 x3 (ix2 n e) * x4 (ix2 e j) = _
  rw [stCat_apply x0 x1 x2 x3 x b h0 h1 h2 h3 n e, h4]

include h0 h1 h2 h3 h4 h5 in
/-- THE FIRST HIDDEN LAYER's block at `(n, j)`: the product plus the bias. -/
theorem pay1_apply (n : Fin 512) (j : Fin 64) :
    k0_pay1 (F := Ideal) (k0_pay7 x0 x1 x2 x3 x4) (k0_pay8 x5) (ix2 n j) = h1At x b n j := by
  rw [pay7_eq]
  unfold k0_pay1 k0_pay8 h1At
  refine congrArg₂ (· + ·) (stH_apply x0 x1 x2 x3 x4 x b h0 h1 h2 h3 h4 n j) ?_
  refine (broadcastTo_1b_ab_apply _ _ n j).trans ?_
  rw [shapeCast_self]
  exact h5 j

end Cert.KernelIdeal.Pay1

end
-- ==== Proof.Value1.lean ====
/-
  The first kernel launch as functions of the arrays it reads. 256 grid points, one per batch; point `t` stages member `t` of
  `s` and of the graph weights and writes member `t` of the first hidden layer, whose entry `(b, n, j)` is `h1At` of the network
  (Proof/SpecNet.lean). The two one-row outputs are reset at the first point and then gather each batch's column sums (of the
  entries, of their squares); written back after the last point they hold zero plus the column totals over all `131072` rows.
-/
import proofs.«157847_j6760278524113_2_alg».proof.Proof.Gen.KernelIdeal.Frame
import proofs.«157847_j6760278524113_2_alg».proof.Proof.Piece1
import proofs.«157847_j6760278524113_2_alg».proof.Proof.Pay1

set_option maxRecDepth 16384

noncomputable section

open Idealize.ShloMosaic Idealize.ShloMosaic.TcCoe Idealize.SL.Sem
open Idealize.ShloMosaic.Pipeline (Dat)

namespace Cert.KernelIdeal.Value1

open Cert.KernelIdeal Cert.KernelIdeal.Gen Cert.KernelIdeal.Pay1 Cert.KernelIdeal.Piece1 Cert.Spec Cert.Sums Cert.Layout Idealize.ShloMosaic.ValueIdx

variable (V : (c : Dev nD) → (b : Ref sig .tc) → Buf (Elt Ideal) ((c : Thread nD τ).loc b))

/-! ## The payloads of the totals and of the three-dimensional store, at an entry -/

theorem pay2_apply (v32 : FVec Ideal S512x64 .f32) (v34 : FVec Ideal S1x64 .f32) (u : Fin 1) (n : Fin 512) (j : Fin 64) :
    k0_pay2 (F := Ideal) v32 v34 (ix3 u n j) = k0_pay1 v32 v34 (ix2 n j) := by
  unfold k0_pay2
  exact shapeCast_ab_1ab_apply _ _ u n j

theorem pay3_apply (v32 : FVec Ideal S512x64 .f32) (v34 acc : FVec Ideal S1x64 .f32) (j : Fin 64) :
    k0_pay3 (F := Ideal) v32 v34 acc (ix2 (0 : Fin 1) j) = acc (ix2 (0 : Fin 1) j) + ∑ n : Fin 512, k0_pay1 v32 v34 (ix2 n j) := by
  unfold k0_pay3
  simp only [shapeCast_self]
  refine congrArg₂ (· + ·) rfl ?_
  refine (shapeCast_a_1a_apply _ _ (0 : Fin 1) j).trans ?_
  exact colsum_apply (k0_pay1 v32 v34) _ _ _ j

theorem pay4_apply (v32 : FVec Ideal S512x64 .f32) (v34 acc : FVec Ideal S1x64 .f32) (j : Fin 64) :
    k0_pay4 (F := Ideal) v32 v34 acc (ix2 (0 : Fin 1) j)
      = acc (ix2 (0 : Fin 1) j) + ∑ n : Fin 512, k0_pay1 v32 v34 (ix2 n j) * k0_pay1 v32 v34 (ix2 n j) := by
  unfold k0_pay4
  simp only [shapeCast_self]
  refine congrArg₂ (· + ·) rfl ?_
  refine (shapeCast_a_1a_apply _ _ (0 : Fin 1) j).trans ?_
  exact colsum_apply (mulf (k0_pay1 v32 v34) (k0_pay1 v32 v34)) _ _ _ j

/-! ## The input blocks -/

/-- Window 0's block at point `t` is member `t` of its stack. -/
theorem iblk0_apply (c : Dev nD) (t : Fin cfg0.N) (y : S1x512x128.Idx) (k : S256x512x128.Idx)
    (hk0 : (k 0).val = t.val + (y 0).val) (hk1 : (k 1).val = (y 1).val) (hk2 : (k 2).val = (y 2).val) :
    (iblk0 V c 0 t : Vec Ideal S1x512x128 .f32) y = (V c main_arg0 : S256x512x128.Idx → Elt Ideal .f32) k := by
  have hi : win0_0.index t 0 = t.val ∧ win0_0.index t 1 = 0 ∧ win0_0.index t 2 = 0 :=
    (by decide +kernel : ∀ t : Fin grid0.N, win0_0.index t 0 = t.val ∧ win0_0.index t 1 = 0 ∧ win0_0.index t 2 = 0) t
  unfold iblk0
  rw [View.read_apply]
  show V c main_arg0 _ = V c main_arg0 _
  refine congrArg (V c main_arg0) (funext fun a => Fin.ext ?_)
  match a with
  | ⟨0, _⟩ => show win0_0.index t 0 * 1 + 1 * (y 0).val = (k 0).val; rw [hi.1, hk0]; omega
  | ⟨1, _⟩ => show win0_0.index t 1 * 512 + 1 * (y 1).val = (k 1).val; rw [hi.2.1, hk1]; omega
  | ⟨2, _⟩ => show win0_0.index t 2 * 128 + 1 * (y 2).val = (k 2).val; rw [hi.2.2, hk2]; omega

/-- Window 1's block at point `t` is member `t` of its stack. -/
theorem iblk1_apply (c : Dev nD) (t : Fin cfg0.N) (y : S1x512x512.Idx) (k : S256x512x512.Idx)
    (hk0 : (k 0).val = t.val + (y 0).val) (hk1 : (k 1).val = (y 1).val) (hk2 : (k 2).val = (y 2).val) :
    (iblk0 V c 1 t : Vec Ideal S1x512x512 .f32) y = (V c main_arg1 : S256x512x512.Idx → Elt Ideal .f32) k := by
  have hi : win0_1.index t 0 = t.val ∧ win0_1.index t 1 = 0 ∧ win0_1.index t 2 = 0 :=
    (by decide +kernel : ∀ t : Fin grid0.N, win0_1.index t 0 = t.val ∧ win0_1.index t 1 = 0 ∧ win0_1.index t 2 = 0) t
  unfold iblk0
  rw [View.read_apply]
  show V c main_arg1 _ = V c main_arg1 _
  refine congrArg (V c main_arg1) (funext fun a => Fin.ext ?_)
  match a with
  | ⟨0, _⟩ => show win0_1.index t 0 * 1 + 1 * (y 0).val = (k 0).val; rw [hi.1, hk0]; omega
  | ⟨1, _⟩ => show win0_1.index t 1 * 512 + 1 * (y 1).val = (k 1).val; rw [hi.2.1, hk1]; omega
  | ⟨2, _⟩ => show win0_1.index t 2 * 512 + 1 * (y 2).val = (k 2).val; rw [hi.2.2, hk2]; omega

theorem iblk2_apply (c : Dev nD) (t : Fin cfg0.N) (y : S128x32.Idx) :
    (iblk0 V c 2 t : Vec Ideal S128x32 .f32) y = (V c main_arg2 : S128x32.Idx → Elt Ideal .f32) y := by
  have hi : win0_2.index t 0 = 0 ∧ win0_2.index t 1 = 0 :=
    (by decide +kernel : ∀ t : Fin grid0.N, win0_2.index t 0 = 0 ∧ win0_2.index t 1 = 0) t
  unfold iblk0
  rw [View.read_apply]
  show V c main_arg2 _ = V c main_arg2 _
  refine congrArg (V c main_arg2) (funext fun a => Fin.ext ?_)
  match a with
  | ⟨0, _⟩ => show win0_2.index t 0 * 128 + 1 * (y 0).val = (y 0).val; rw [hi.1]; omega
  | ⟨1, _⟩ => show win0_2.index t 1 * 32 + 1 * (y 1).val = (y 1).val; rw [hi.2]; omega

theorem iblk3_apply (c : Dev nD) (t : Fin cfg0.N) (y : S128x32.Idx) :
    (iblk0 V c 3 t : Vec Ideal S128x32 .f32) y = (V c main_arg3 : S128x32.Idx → Elt Ideal .f32) y := by
  have hi : win0_3.index t 0 = 0 ∧ win0_3.index t 1 = 0 :=
    (by decide +kernel : ∀ t : Fin grid0.N, win0_3.index t 0 = 0 ∧ win0_3.index t 1 = 0) t
  unfold iblk0
  rw [View.read_apply]
  show V c main_arg3 _ = V c main_arg3 _
  refine congrArg (V c main_arg3) (funext fun a => Fin.ext ?_)
  match a with
  | ⟨0, _⟩ => show win0_3.index t 0 * 128 + 1 * (y 0).val = (y 0).val; rw [hi.1]; omega
  | ⟨1, _⟩ => show win0_3.index t 1 * 32 + 1 * (y 1).val = (y 1).val; rw [hi.2]; omega

theorem iblk4_apply (c : Dev nD) (t : Fin cfg0.N) (y : S256x64.Idx) :
    (iblk0 V c 4 t : Vec Ideal S256x64 .f32) y = (V c main_arg4 : S256x64.Idx → Elt Ideal .f32) y := by
  have hi : win0_4.index t 0 = 0 ∧ win0_4.index t 1 = 0 :=
    (by decide +kernel : ∀ t : Fin grid0.N, win0_4.index t 0 = 0 ∧ win0_4.index t 1 = 0) t
  unfold iblk0
  rw [View.read_apply]
  show V c main_arg4 _ = V c main_arg4 _
  refine congrArg (V c main_arg4) (funext fun a => Fin.ext ?_)
  match a with
  | ⟨0, _⟩ => show win0_4.index t 0 * 256 + 1 * (y 0).val = (y 0).val; rw [hi.1]; omega
  | ⟨1, _⟩ => show win0_4.index t 1 * 64 + 1 * (y 1).val = (y 1).val; rw [hi.2]; omega

theorem iblk5_apply (c : Dev nD) (t : Fin cfg0.N) (y : S1x64.Idx) :
    (iblk0 V c 5 t : Vec Ideal S1x64 .f32) y = (V c main_v0 : S1x64.Idx → Elt Ideal .f32) y := by
  have hi : win0_5.index t 0 = 0 ∧ win0_5.index t 1 = 0 :=
    (by decide +kernel : ∀ t : Fin grid0.N, win0_5.index t 0 = 0 ∧ win0_5.index t 1 = 0) t
  unfold iblk0
  rw [View.read_apply]
  show V c main_v0 _ = V c main_v0 _
  refine congrArg (V c main_v0) (funext fun a => Fin.ext ?_)
  match a with
  | ⟨0, _⟩ => show win0_5.index t 0 * 1 + 1 * (y 0).val = (y 0).val; rw [hi.1]; omega
  | ⟨1, _⟩ => show win0_5.index t 1 * 64 + 1 * (y 1).val = (y 1).val; rw [hi.2]; omega

/-! ## The arrays the launch reads, as the network's arguments -/

/-- The launch's entry contents are the network's arguments `x`: the first five arrays as they are, the bias as one row. -/
structure Reads (c : Dev nD) (x : Args) : Prop where
  s : ∀ i, (V c main_arg0 : S256x512x128.Idx → Elt Ideal .f32) i = x.s i
  g : ∀ i, (V c main_arg1 : S256x512x512.Idx → Elt Ideal .f32) i = x.g i
  qw : ∀ i, (V c main_arg2 : S128x32.Idx → Elt Ideal .f32) i = x.qw i
  kw : ∀ i, (V c main_arg3 : S128x32.Idx → Elt Ideal .f32) i = x.kw i
  w1 : ∀ i, (V c main_arg4 : S256x64.Idx → Elt Ideal .f32) i = x.w1 i
  b1 : ∀ j : Fin 64, (V c main_v0 : S1x64.Idx → Elt Ideal .f32) (ix2 (0 : Fin 1) j) = x.b1 (ix1 j)

variable {V}

/-- The two-dimensional block point `t` computes (before it is re-laid with a leading unit axis). -/
def blk2 (c : Dev nD) (t : Fin cfg0.N) : FVec Ideal S512x64 .f32 :=
  k0_pay1 (F := Ideal) (k0_pay7 (iblk0 V c 0 t) (iblk0 V c 1 t) (iblk0 V c 2 t) (iblk0 V c 3 t) (iblk0 V c 4 t)) (k0_pay8 (iblk0 V c 5 t))

/-- Point `t`'s block is batch `t` of the first hidden layer. -/
theorem blk2_apply (c : Dev nD) (x : Args) (hx : Reads V c x) (t : Fin cfg0.N) (b : Fin 256) (hb : b.val = t.val) (n : Fin 512) (j : Fin 64) :
    blk2 (V := V) c t (ix2 n j) = h1At x b n j := by
  unfold blk2
  refine pay1_apply (iblk0 V c 0 t) (iblk0 V c 1 t) (iblk0 V c 2 t) (iblk0 V c 3 t) (iblk0 V c 4 t) (iblk0 V c 5 t) x b ?_ ?_ ?_ ?_ ?_ ?_ n j
  · intro n d
    exact (iblk0_apply V c t (ix3 (0 : Fin 1) n d) (ix3 b n d) (by show b.val = t.val + 0; omega) rfl rfl).trans (hx.s _)
  · intro n p
    exact (iblk1_apply V c t (ix3 (0 : Fin 1) n p) (ix3 b n p) (by show b.val = t.val + 0; omega) rfl rfl).trans (hx.g _)
  · intro i; exact (iblk2_apply V c t i).trans (hx.qw i)
  · intro i; exact (iblk3_apply V c t i).trans (hx.kw i)
  · intro i; exact (iblk4_apply V c t i).trans (hx.w1 i)
  · intro j; exact (iblk5_apply V c t (ix2 (0 : Fin 1) j)).trans (hx.b1 j)

/-- The pieces every point leaves, over the two-dimensional block. -/
def hb7 (c : Dev nD) (t : Fin cfg0.N) := k0_pay7 (F := Ideal) (iblk0 V c 0 t) (iblk0 V c 1 t) (iblk0 V c 2 t) (iblk0 V c 3 t) (iblk0 V c 4 t)
def hb8 (c : Dev nD) (t : Fin cfg0.N) := k0_pay8 (F := Ideal) (iblk0 V c 5 t)

theorem out6_eq (c : Dev nD) (t : Fin cfg0.N) : (outsAt0 V c t.val t.isLt).1 = k0_pay2 (F := Ideal) (hb7 (V := V) c t) (hb8 (V := V) c t) := by
  by_cases h0 : t.val % 256 = 0
  · rw [outsAt0_A V c t h0]
    dsimp only
    exact outA6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact outB6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

theorem out7_zero (c : Dev nD) (h : 0 < cfg0.N) :
    (outsAt0 V c 0 h).2.1 = k0_pay3 (F := Ideal) (hb7 (V := V) c ⟨0, h⟩) (hb8 (V := V) c ⟨0, h⟩) (k0_pay5 (F := Ideal)) := by
  have e := congrArg (fun p => p.2.1) (outsAt0_A V c ⟨0, h⟩ (Nat.zero_mod _))
  refine e.trans ?_
  exact outA7_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) ((hcond0_0 ⟨0, h⟩).mpr (Nat.zero_mod _)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩)

theorem out7_succ (c : Dev nD) (n : ℕ) (h : n + 1 < cfg0.N) :
    (outsAt0 V c (n + 1) h).2.1 = k0_pay3 (F := Ideal) (hb7 (V := V) c ⟨n + 1, h⟩) (hb8 (V := V) c ⟨n + 1, h⟩) (outsAt0 V c n (Nat.lt_of_succ_lt h)).2.1 := by
  have hN : cfg0.N = 256 := N_0
  have h0 : ¬ (n + 1) % 256 = 0 := by rw [hN] at h; omega
  have e := congrArg (fun p => p.2.1) (outsAt0_B V c ⟨n + 1, h⟩ h0)
  refine e.trans ?_
  exact outB7_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => h0 ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.1 (outsAt0 V c n (Nat.lt_of_succ_lt h)).2.2

theorem out8_zero (c : Dev nD) (h : 0 < cfg0.N) :
    (outsAt0 V c 0 h).2.2 = k0_pay4 (F := Ideal) (hb7 (V := V) c ⟨0, h⟩) (hb8 (V := V) c ⟨0, h⟩) (k0_pay6 (F := Ideal)) := by
  have e := congrArg (fun p => p.2.2) (outsAt0_A V c ⟨0, h⟩ (Nat.zero_mod _))
  refine e.trans ?_
  exact outA8_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) ((hcond0_0 ⟨0, h⟩).mpr (Nat.zero_mod _)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩)

theorem out8_succ (c : Dev nD) (n : ℕ) (h : n + 1 < cfg0.N) :
    (outsAt0 V c (n + 1) h).2.2 = k0_pay4 (F := Ideal) (hb7 (V := V) c ⟨n + 1, h⟩) (hb8 (V := V) c ⟨n + 1, h⟩) (outsAt0 V c n (Nat.lt_of_succ_lt h)).2.2 := by
  have hN : cfg0.N = 256 := N_0
  have h0 : ¬ (n + 1) % 256 = 0 := by rw [hN] at h; omega
  have e := congrArg (fun p => p.2.2) (outsAt0_B V c ⟨n + 1, h⟩ h0)
  refine e.trans ?_
  exact outB8_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => h0 ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.1 (outsAt0 V c n (Nat.lt_of_succ_lt h)).2.2

/-! ## The running totals -/

/-- Row `R` of the first hidden layer for a natural `R` (zero past the last row: never read). -/
def rowN (x : Args) (R : ℕ) (j : Fin 64) : EReal := if h : R < 131072 then h1Row x ⟨R, h⟩ j else 0

/-- Batch `n`'s row `r` is row `512 n + r` of the table. -/
theorem blk2_row (c : Dev nD) (x : Args) (hx : Reads V c x) (n : ℕ) (hn : n < cfg0.N) (r : Fin 512) (j : Fin 64) :
    blk2 (V := V) c ⟨n, hn⟩ (ix2 r j) = rowN x (512 * n + r.val) j := by
  have hN : cfg0.N = 256 := N_0
  have hb : 512 * n + r.val < 131072 := by have := r.isLt; rw [hN] at hn; omega
  unfold rowN
  rw [dif_pos hb]
  unfold h1Row
  have e1 : (512 * n + r.val) / 512 = n := by have := r.isLt; omega
  have e2 : (512 * n + r.val) % 512 = r.val := by have := r.isLt; omega
  rw [blk2_apply c x hx ⟨n, hn⟩ ⟨n, by rw [hN] at hn; exact hn⟩ rfl r j]
  congr 1 <;> exact Fin.ext (by simp only [e1, e2])

theorem sum_upto (c : Dev nD) (x : Args) (hx : Reads V c x) : ∀ (n : ℕ) (hn : n < cfg0.N) (i : S1x64.Idx),
    (outsAt0 V c n hn).2.1 i = Spec.zero + ∑ s ∈ Finset.range (n + 1), ∑ r : Fin 512, rowN x (512 * s + r.val) (i 1)
  | 0, hn, i => by
    obtain ⟨u, j, rfl⟩ : ∃ (u : Fin 1) (j : Fin 64), i = ix2 u j := ⟨i 0, i 1, eq_ix2 i⟩
    obtain rfl : u = 0 := Subsingleton.elim _ _
    rw [out7_zero c hn, pay3_apply, Finset.sum_range_one]
    refine congrArg₂ (· + ·) rfl (Finset.sum_congr rfl fun r _ => ?_)
    exact blk2_row c x hx 0 hn r j
  | n + 1, hn, i => by
    obtain ⟨u, j, rfl⟩ : ∃ (u : Fin 1) (j : Fin 64), i = ix2 u j := ⟨i 0, i 1, eq_ix2 i⟩
    obtain rfl : u = 0 := Subsingleton.elim _ _
    rw [out7_succ c n hn, pay3_apply, sum_upto c x hx n (Nat.lt_of_succ_lt hn) (ix2 0 j), Finset.sum_range_succ _ (n + 1), add_assoc]
    refine congrArg₂ (· + ·) rfl (congrArg₂ (· + ·) rfl (Finset.sum_congr rfl fun r _ => ?_))
    exact blk2_row c x hx (n + 1) hn r j

theorem sumsq_upto (c : Dev nD) (x : Args) (hx : Reads V c x) : ∀ (n : ℕ) (hn : n < cfg0.N) (i : S1x64.Idx),
    (outsAt0 V c n hn).2.2 i = Spec.zero + ∑ s ∈ Finset.range (n + 1), ∑ r : Fin 512,
      rowN x (512 * s + r.val) (i 1) * rowN x (512 * s + r.val) (i 1)
  | 0, hn, i => by
    obtain ⟨u, j, rfl⟩ : ∃ (u : Fin 1) (j : Fin 64), i = ix2 u j := ⟨i 0, i 1, eq_ix2 i⟩
    obtain rfl : u = 0 := Subsingleton.elim _ _
    rw [out8_zero c hn, pay4_apply, Finset.sum_range_one]
    refine congrArg₂ (· + ·) rfl (Finset.sum_congr rfl fun r _ => ?_)
    exact congrArg₂ (· * ·) (blk2_row c x hx 0 hn r j) (blk2_row c x hx 0 hn r j)
  | n + 1, hn, i => by
    obtain ⟨u, j, rfl⟩ : ∃ (u : Fin 1) (j : Fin 64), i = ix2 u j := ⟨i 0, i 1, eq_ix2 i⟩
    obtain rfl : u = 0 := Subsingleton.elim _ _
    rw [out8_succ c n hn, pay4_apply, sumsq_upto c x hx n (Nat.lt_of_succ_lt hn) (ix2 0 j), Finset.sum_range_succ _ (n + 1), add_assoc]
    refine congrArg₂ (· + ·) rfl (congrArg₂ (· + ·) rfl (Finset.sum_congr rfl fun r _ => ?_))
    exact congrArg₂ (· * ·) (blk2_row c x hx (n + 1) hn r j) (blk2_row c x hx (n + 1) hn r j)

/-- The 256 batches' column sums are the column sum over all rows. -/
theorem total_rows (x : Args) (f : EReal → EReal) (j : Fin 64) :
    ∑ s ∈ Finset.range 256, ∑ r : Fin 512, f (rowN x (512 * s + r.val) j) = ∑ R : Fin 131072, f (h1Row x R j) := by
  refine (sum_blocks (fun R => f (rowN x R j)) 256 512).symm.trans ?_
  show ∑ R : Fin 131072, f (rowN x R.val j) = _
  refine Finset.sum_congr rfl fun R _ => ?_
  unfold rowN
  rw [dif_pos R.isLt]

end Cert.KernelIdeal.Value1

end
-- ==== Proof.Value1b.lean ====
/-
  The first launch's three output arrays after the launch: the first hidden layer, entry `(b, n, j)`, is `h1At`; each one-row total,
  written back once after the last batch, is zero plus the column totals over all `131072` rows of the table.
-/
import proofs.«157847_j6760278524113_2_alg».proof.Proof.Value1

set_option maxRecDepth 16384

noncomputable section

open Idealize.ShloMosaic Idealize.ShloMosaic.TcCoe Idealize.SL.Sem
open Idealize.ShloMosaic.Pipeline (Dat)

namespace Cert.KernelIdeal.Value1

open Cert.KernelIdeal Cert.KernelIdeal.Gen Cert.Spec Cert.Sums Idealize.ShloMosaic.ValueIdx

variable {V : (c : Dev nD) → (b : Ref sig .tc) → Buf (Elt Ideal) ((c : Thread nD τ).loc b)}

/-- The first hidden layer as a `[256, 512, 64]` array. -/
def H1arr (x : Args) : S256x512x64.Idx → Elt Ideal .f32 := fun i => h1At x (i 0) (i 1) (i 2)

theorem out_index6 (t : Fin cfg0.N) : win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0) t

/-- WHAT POINT `t` WRITES BACK of the hidden layer is member `t` of `H1arr`. -/
theorem flushed6 (c : Dev nD) (x : Args) (hx : Reads V c x) (t : Fin cfg0.N) :
    (dat0 V c).flushed 6 t = ((cfg0.win 6).blk t).view.read (Elt Ideal) (H1arr x) := by
  show (cfg0.win 6).cut (grid0.coords t) ((dat0 V c).after 6 t) = _
  rw [after0_6, out6_eq]
  funext y
  obtain ⟨u, n, j, rfl⟩ : ∃ (u : Fin 1) (n : Fin 512) (j : Fin 64), y = ix3 u n j := ⟨y 0, y 1, y 2, eq_ix3 y⟩
  rw [View.read_apply]
  obtain ⟨i0, i1, i2⟩ := out_index6 t
  have hu : u.val = 0 := by omega
  have hR0 : ((((cfg0.win 6).blk t).view.emb (ix3 u n j)) 0).val = t.val := by
    show win0_6.index t 0 * 1 + 1 * u.val = _; rw [i0, hu]; omega
  have hR1 : ((((cfg0.win 6).blk t).view.emb (ix3 u n j)) 1).val = n.val := by
    show win0_6.index t 1 * 512 + 1 * n.val = _; rw [i1]; omega
  have hR2 : ((((cfg0.win 6).blk t).view.emb (ix3 u n j)) 2).val = j.val := by
    show win0_6.index t 2 * 64 + 1 * j.val = _; rw [i2]; omega
  generalize ((cfg0.win 6).blk t).view.emb (ix3 u n j) = Rk at hR0 hR1 hR2
  have e1 : (Rk 1 : Fin 512) = n := Fin.ext hR1
  have e2 : (Rk 2 : Fin 64) = j := Fin.ext hR2
  show k0_pay2 (F := Ideal) (hb7 (V := V) c t) (hb8 (V := V) c t) (ix3 u n j) = h1At x (Rk 0) (Rk 1) (Rk 2)
  rw [pay2_apply, e1, e2]
  exact blk2_apply c x hx t (Rk 0) hR0 n j

theorem mem_blk6 (t : Fin cfg0.N) (i : S256x512x64.Idx) :
    i ∈ ((cfg0.win 6).blk t).view.set ↔ ∀ a : Fin 3, win0_6.index t a * S1x512x64.size a ≤ (i a).val
      ∧ (i a).val < win0_6.index t a * S1x512x64.size a + S1x512x64.size a := by
  show i ∈ ((View.whole main_v1_0).slice (win0_6.rect t)).set ↔ _
  rw [View.set_slice_whole, Rect.mem_set_unit]
  exact Iff.rfl

theorem cover6 (i : S256x512x64.Idx) : ∃ t : Fin cfg0.N, (cfg0.win 6).flush t = true ∧ i ∈ ((cfg0.win 6).blk t).view.set := by
  have hi0 : (i 0).val < 256 := (i 0).isLt
  have hi1 : (i 1).val < 512 := (i 1).isLt
  have hi2 : (i 2).val < 64 := (i 2).isLt
  have hN : cfg0.N = 256 := N_0
  let t : Fin cfg0.N := ⟨(i 0).val, by rw [hN]; exact hi0⟩
  obtain ⟨i0, i1, i2⟩ := out_index6 t
  refine ⟨t, flush0_6 t, ?_⟩
  rw [mem_blk6]
  intro a
  have ht : t.val = (i 0).val := rfl
  match a with
  | ⟨0, _⟩ => show win0_6.index t 0 * 1 ≤ (i 0).val ∧ (i 0).val < win0_6.index t 0 * 1 + 1; rw [i0, ht]; omega
  | ⟨1, _⟩ => show win0_6.index t 1 * 512 ≤ (i 1).val ∧ (i 1).val < win0_6.index t 1 * 512 + 512; rw [i1]; omega
  | ⟨2, _⟩ => show win0_6.index t 2 * 64 ≤ (i 2).val ∧ (i 2).val < win0_6.index t 2 * 64 + 64; rw [i2]; omega

/-- THE FIRST HIDDEN LAYER after the launch. -/
theorem final6 (c : Dev nD) (x : Args) (hx : Reads V c x) : (dat0 V c).arrAt 6 cfg0.N = H1arr x :=
  (dat0 V c).arrAt_eq_of_cover 6 _ (fun t _ => flushed6 c x hx t) cover6

/-- The column totals of the table, from the zero word's value. -/
def SUM1 (x : Args) : S1x64.Idx → Elt Ideal .f32 := fun i => Spec.zero + ∑ R : Fin 131072, h1Row x R (i 1)
def SUMSQ1 (x : Args) : S1x64.Idx → Elt Ideal .f32 := fun i => Spec.zero + ∑ R : Fin 131072, h1Row x R (i 1) * h1Row x R (i 1)

/-- The sum row is written back once, after the last batch. -/
theorem flushed7 (c : Dev nD) (x : Args) (hx : Reads V c x) (t : Fin cfg0.N) (hf : (cfg0.win 7).flush t = true) :
    (dat0 V c).flushed 7 t = ((cfg0.win 7).blk t).view.read (Elt Ideal) (SUM1 x) := by
  have hN : cfg0.N = 256 := N_0
  have h255 : t.val = 255 := by have := (flush0_7 t).mp hf; have := t.isLt; omega
  have hi : win0_7.index t 0 = 0 ∧ win0_7.index t 1 = 0 :=
    (by decide +kernel : ∀ t : Fin grid0.N, win0_7.index t 0 = 0 ∧ win0_7.index t 1 = 0) t
  show (cfg0.win 7).cut (grid0.coords t) ((dat0 V c).after 7 t) = _
  rw [after0_7]
  funext y
  rw [View.read_apply]
  have he : ((cfg0.win 7).blk t).view.emb y = y := funext fun a => Fin.ext (by
    match a with
    | ⟨0, _⟩ => show win0_7.index t 0 * 1 + 1 * (y 0).val = (y 0).val; rw [hi.1]; omega
    | ⟨1, _⟩ => show win0_7.index t 1 * 64 + 1 * (y 1).val = (y 1).val; rw [hi.2]; omega)
  rw [he]
  show (outsAt0 V c t.val t.isLt).2.1 y = Spec.zero + _
  rw [sum_upto c x hx t.val t.isLt y]
  refine congrArg₂ (· + ·) rfl ?_
  rw [h255]
  exact total_rows x (fun v => v) (y 1)

theorem mem_blk7 (t : Fin cfg0.N) (i : S1x64.Idx) :
    i ∈ ((cfg0.win 7).blk t).view.set ↔ ∀ a : Fin 2, win0_7.index t a * S1x64.size a ≤ (i a).val
      ∧ (i a).val < win0_7.index t a * S1x64.size a + S1x64.size a := by
  show i ∈ ((View.whole main_v1_1).slice (win0_7.rect t)).set ↔ _
  rw [View.set_slice_whole, Rect.mem_set_unit]
  exact Iff.rfl

theorem cover7 (i : S1x64.Idx) : ∃ t : Fin cfg0.N, (cfg0.win 7).flush t = true ∧ i ∈ ((cfg0.win 7).blk t).view.set := by
  have hN : cfg0.N = 256 := N_0
  have hi0 : (i 0).val < 1 := (i 0).isLt
  have hi1 : (i 1).val < 64 := (i 1).isLt
  let t : Fin cfg0.N := ⟨255, by rw [hN]; decide⟩
  have hi : win0_7.index t 0 = 0 ∧ win0_7.index t 1 = 0 :=
    (by decide +kernel : ∀ t : Fin grid0.N, win0_7.index t 0 = 0 ∧ win0_7.index t 1 = 0) t
  refine ⟨t, (flush0_7 t).mpr rfl, ?_⟩
  rw [mem_blk7]
  intro a
  match a with
  | ⟨0, _⟩ => show win0_7.index t 0 * 1 ≤ (i 0).val ∧ (i 0).val < win0_7.index t 0 * 1 + 1; rw [hi.1]; omega
  | ⟨1, _⟩ => show win0_7.index t 1 * 64 ≤ (i 1).val ∧ (i 1).val < win0_7.index t 1 * 64 + 64; rw [hi.2]; omega

theorem final7 (c : Dev nD) (x : Args) (hx : Reads V c x) : (dat0 V c).arrAt 7 cfg0.N = (SUM1 x) :=
  (dat0 V c).arrAt_eq_of_cover 7 _ (fun t hf => flushed7 c x hx t hf) cover7

/-- The sum-of-squares row is written back once, after the last batch. -/
theorem flushed8 (c : Dev nD) (x : Args) (hx : Reads V c x) (t : Fin cfg0.N) (hf : (cfg0.win 8).flush t = true) :
    (dat0 V c).flushed 8 t = ((cfg0.win 8).blk t).view.read (Elt Ideal) (SUMSQ1 x) := by
  have hN : cfg0.N = 256 := N_0
  have h255 : t.val = 255 := by have := (flush0_8 t).mp hf; have := t.isLt; omega
  have hi : win0_8.index t 0 = 0 ∧ win0_8.index t 1 = 0 :=
    (by decide +kernel : ∀ t : Fin grid0.N, win0_8.index t 0 = 0 ∧ win0_8.index t 1 = 0) t
  show (cfg0.win 8).cut (grid0.coords t) ((dat0 V c).after 8 t) = _
  rw [after0_8]
  funext y
  rw [View.read_apply]
  have he : ((cfg0.win 8).blk t).view.emb y = y := funext fun a => Fin.ext (by
    match a with
    | ⟨0, _⟩ => show win0_8.index t 0 * 1 + 1 * (y 0).val = (y 0).val; rw [hi.1]; omega
    | ⟨1, _⟩ => show win0_8.index t 1 * 64 + 1 * (y 1).val = (y 1).val; rw [hi.2]; omega)
  rw [he]
  show (outsAt0 V c t.val t.isLt).2.2 y = Spec.zero + _
  rw [sumsq_upto c x hx t.val t.isLt y]
  refine congrArg₂ (· + ·) rfl ?_
  rw [h255]
  exact total_rows x (fun v => v * v) (y 1)

theorem mem_blk8 (t : Fin cfg0.N) (i : S1x64.Idx) :
    i ∈ ((cfg0.win 8).blk t).view.set ↔ ∀ a : Fin 2, win0_8.index t a * S1x64.size a ≤ (i a).val
      ∧ (i a).val < win0_8.index t a * S1x64.size a + S1x64.size a := by
  show i ∈ ((View.whole main_v1_2).slice (win0_8.rect t)).set ↔ _
  rw [View.set_slice_whole, Rect.mem_set_unit]
  exact Iff.rfl

theorem cover8 (i : S1x64.Idx) : ∃ t : Fin cfg0.N, (cfg0.win 8).flush t = true ∧ i ∈ ((cfg0.win 8).blk t).view.set := by
  have hN : cfg0.N = 256 := N_0
  have hi0 : (i 0).val < 1 := (i 0).isLt
  have hi1 : (i 1).val < 64 := (i 1).isLt
  let t : Fin cfg0.N := ⟨255, by rw [hN]; decide⟩
  have hi : win0_8.index t 0 = 0 ∧ win0_8.index t 1 = 0 :=
    (by decide +kernel : ∀ t : Fin grid0.N, win0_8.index t 0 = 0 ∧ win0_8.index t 1 = 0) t
  refine ⟨t, (flush0_8 t).mpr rfl, ?_⟩
  rw [mem_blk8]
  intro a
  match a with
  | ⟨0, _⟩ => show win0_8.index t 0 * 1 ≤ (i 0).val ∧ (i 0).val < win0_8.index t 0 * 1 + 1; rw [hi.1]; omega
  | ⟨1, _⟩ => show win0_8.index t 1 * 64 ≤ (i 1).val ∧ (i 1).val < win0_8.index t 1 * 64 + 64; rw [hi.2]; omega

theorem final8 (c : Dev nD) (x : Args) (hx : Reads V c x) : (dat0 V c).arrAt 8 cfg0.N = (SUMSQ1 x) :=
  (dat0 V c).arrAt_eq_of_cover 8 _ (fun t hf => flushed8 c x hx t hf) cover8

end Cert.KernelIdeal.Value1

end
-- ==== Proof.Glue1.lean ====
/-
  The buffers the FIRST launch is entered with are the program's arguments; the bias is re-laid as one row first. So the launch
  reads the network's arguments (Proof/Value1.lean `Reads`).
-/
import proofs.«157847_j6760278524113_2_alg».proof.Proof.Glue2
import proofs.«157847_j6760278524113_2_alg».proof.Proof.Value1b

set_option maxRecDepth 16384

noncomputable section

open Idealize.ShloMosaic Idealize.ShloMosaic.TcCoe Idealize.SL.Sem Idealize.ShloMosaic.StableHlo

namespace Cert.KernelIdeal.Glue

open Cert.KernelIdeal Cert.KernelIdeal.Gen Cert.Spec Idealize.ShloMosaic.ValueIdx

variable (m : (ℓ : Loc nD τ sig) → Buf (Elt Ideal) ℓ) (ρ : Dev nD → PrngReg)

/-- The network's arguments as the kernel's launch memory holds them on core `c`. -/
def kerArgs (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12), m ((c : Thread nD τ).loc main_arg13)⟩

theorem V1_arg0 (c : Dev nD) : V1 m ρ c main_arg0 = m ((c : Thread nD τ).loc main_arg0) := by
  try (show StableHlo.after hostOps0 (W0 m ρ c) (Proc.devRef .tc main_arg0) = _; after_results)
  try rfl

theorem V1_arg1 (c : Dev nD) : V1 m ρ c main_arg1 = m ((c : Thread nD τ).loc main_arg1) := by
  try (show StableHlo.after hostOps0 (W0 m ρ c) (Proc.devRef .tc main_arg1) = _; after_results)
  try rfl

theorem V1_arg2 (c : Dev nD) : V1 m ρ c main_arg2 = m ((c : Thread nD τ).loc main_arg2) := by
  try (show StableHlo.after hostOps0 (W0 m ρ c) (Proc.devRef .tc main_arg2) = _; after_results)
  try rfl

theorem V1_arg3 (c : Dev nD) : V1 m ρ c main_arg3 = m ((c : Thread nD τ).loc main_arg3) := by
  try (show StableHlo.after hostOps0 (W0 m ρ c) (Proc.devRef .tc main_arg3) = _; after_results)
  try rfl

theorem V1_arg4 (c : Dev nD) : V1 m ρ c main_arg4 = m ((c : Thread nD τ).loc main_arg4) := by
  try (show StableHlo.after hostOps0 (W0 m ρ c) (Proc.devRef .tc main_arg4) = _; after_results)
  try rfl

theorem V1_b1 (c : Dev nD) : V1 m ρ c main_v0
    = (fun i => shapeCast S1x64 (m ((c : Thread nD τ).loc main_arg5) : S64.Idx → Elt Ideal .f32) shapeCasts_S64_S1x64 i) := by
  show StableHlo.after hostOps0 (W0 m ρ c) (Proc.devRef .tc main_v0) = _
  after_results
  rfl

/-- The first launch reads the network's arguments. -/
theorem reads1 (c : Dev nD) : Value1.Reads (V1 m ρ) c (kerArgs m c) where
  s i := congrFun (V1_arg0 m ρ c) i
  g i := congrFun (V1_arg1 m ρ c) i
  qw i := congrFun (V1_arg2 m ρ c) i
  kw i := congrFun (V1_arg3 m ρ c) i
  w1 i := congrFun (V1_arg4 m ρ c) i
  b1 j := by
    rw [V1_b1 m ρ c]
    exact shapeCast_a_1a_apply _ _ (0 : Fin 1) j

end Cert.KernelIdeal.Glue

end
-- ==== Proof.Piece2.lean ====
/-
  What one run of the second kernel's body leaves in its three output buffers, as terms of the blocks it loaded.
  At the first grid point the two running-total buffers are reset to zero before the body adds to them; at every later point
  the body adds to what the point before left. In both cases the hidden-layer block is the same function `k1_pay5` of the
  loaded blocks; the totals are `k1_pay1` / `k1_pay2` (the carried total plus the block's column sums, of the entries or of
  their squares) of that block and of the zero splat (first point) or the carried total (later points).
-/
import proofs.«157847_j6760278524113_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Piece2

open Cert.KernelIdeal Cert.KernelIdeal.Gen

variable {F : FTy → Type} [FloatOps F]

theorem hz : (![0, 0] : Fin 2 → Nat) = fun _ => 0 := funext fun a => by fin_cases a <;> rfl

/-- First point: the hidden-layer block. -/
theorem outA7_eq (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) :
    out1_A_7 c i arg1 harg1 arg2 harg2 arg3 harg3 arg4 harg4 arg5 harg5 arg6 harg6 arg7 harg7 arg8 harg8 arg9 harg9 arg10 harg10 hc0 x0 x1 x2 x3 x4 x5 x6 = k1_pay5 x0 x1 x2 x3 x4 x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  try sl_unfold_words
  first | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S8192x64) hz, View.ld_unit_zero (S := S1x64) hz, View.ld_unit_zero (S := S64x64) hz]

/-- First point: the running sum starts from the zero splat. -/
theorem outA8_eq (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) :
    out1_A_8 c i arg1 harg1 arg2 harg2 arg3 harg3 arg4 harg4 arg5 harg5 arg6 harg6 arg7 harg7 arg8 harg8 arg9 harg9 arg10 harg10 hc0 x0 x1 x2 x3 x4 x5 x6 = k1_pay1 (k1_pay5 x0 x1 x2 x3 x4 x5 x6) (k1_pay3 (F := F)) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  try sl_unfold_words
  first | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S8192x64) hz, View.ld_unit_zero (S := S1x64) hz, View.ld_unit_zero (S := S64x64) hz]

/-- First point: the running sum of squares starts from the zero splat. -/
theorem outA9_eq (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) :
    out1_A_9 c i arg1 harg1 arg2 harg2 arg3 harg3 arg4 harg4 arg5 harg5 arg6 harg6 arg7 harg7 arg8 harg8 arg9 harg9 arg10 harg10 hc0 x0 x1 x2 x3 x4 x5 x6 = k1_pay2 (k1_pay5 x0 x1 x2 x3 x4 x5 x6) (k1_pay4 (F := F)) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  try sl_unfold_words
  first | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S8192x64) hz, View.ld_unit_zero (S := S1x64) hz, View.ld_unit_zero (S := S64x64) hz]

/-- A later point: the hidden-layer block. -/
theorem outB7_eq (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : ¬cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) (xo8 xo9 : Vec F S1x64 .f32) :
    out1_B_7 c i arg1 harg1 arg2 harg2 arg3 harg3 arg4 harg4 arg5 harg5 arg6 harg6 arg7 harg7 arg8 harg8 arg9 harg9 arg10 harg10 hc0 x0 x1 x2 x3 x4 x5 x6 xo8 xo9 = k1_pay5 x0 x1 x2 x3 x4 x5 x6 := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  try sl_unfold_words
  first | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S8192x64) hz, View.ld_unit_zero (S := S1x64) hz, View.ld_unit_zero (S := S64x64) hz]

/-- A later point: the running sum over what the point before left. -/
theorem outB8_eq (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : ¬cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) (xo8 xo9 : Vec F S1x64 .f32) :
    out1_B_8 c i arg1 harg1 arg2 harg2 arg3 harg3 arg4 harg4 arg5 harg5 arg6 harg6 arg7 harg7 arg8 harg8 arg9 harg9 arg10 harg10 hc0 x0 x1 x2 x3 x4 x5 x6 xo8 xo9 = k1_pay1 (k1_pay5 x0 x1 x2 x3 x4 x5 x6) xo8 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  try sl_unfold_words
  first | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S8192x64) hz, View.ld_unit_zero (S := S1x64) hz, View.ld_unit_zero (S := S64x64) hz]

/-- A later point: the running sum of squares over what the point before left. -/
theorem outB9_eq (c : Dev nD) (i : grid1.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S8192x64 .f32) (harg8 : arg8.IsWhole) (arg9 : Memref sig .tc .vmem S1x64 .f32) (harg9 : arg9.IsWhole) (arg10 : Memref sig .tc .vmem S1x64 .f32) (harg10 : arg10.IsWhole) (hc0 : ¬cond1_0 i) (x0 : Vec F S8192x64 .f32) (x1 : Vec F S1x64 .f32) (x2 : Vec F S1x64 .f32) (x3 : Vec F S1x64 .f32) (x4 : Vec F S1x64 .f32) (x5 : Vec F S64x64 .f32) (x6 : Vec F S1x64 .f32) (xo8 xo9 : Vec F S1x64 .f32) :
    out1_B_9 c i arg1 harg1 arg2 harg2 arg3 harg3 arg4 harg4 arg5 harg5 arg6 harg6 arg7 harg7 arg8 harg8 arg9 harg9 arg10 harg10 hc0 x0 x1 x2 x3 x4 x5 x6 xo8 xo9 = k1_pay2 (k1_pay5 x0 x1 x2 x3 x4 x5 x6) xo9 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  try sl_unfold_words
  first | rw [View.canon_unit_zero hz] | rw [View.canon_cons_unit_zero hz]
  try rw [View.readCov_unit_zero (S := S1x64) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S8192x64) hz, View.ld_unit_zero (S := S1x64) hz, View.ld_unit_zero (S := S64x64) hz]

end Cert.KernelIdeal.Piece2

end
-- ==== Proof.Pay2.lean ====
/-
  The second kernel's arithmetic read at an entry. The hidden-layer block at `(r, j)` is
  `∑ k, bnRelu (h1 r k) (μ k) (v k) (g k) (β k) · w2 k j + b2 j`; the running totals at column `j` are the carried total plus
  the block's column sum, of the entries (`k1_pay1`) or of their squares (`k1_pay2`); the reset values are the zero word's.
-/
import proofs.«157847_j6760278524113_2_alg».proof.Proof.Gen.KernelIdeal.Skeleton
import proofs.«157847_j6760278524113_2_alg».proof.Proof.Spec
import proofs.«157847_j6760278524113_2_alg».proof.Proof.LibSums
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Spec Cert.Sums

theorem dot2_plain : dot_S8192x64_S64x64_S8192x64_1_0_0_1_n_n = DotDims.plain 8192 64 64 := rfl

/-- The second kernel's hidden-layer block at `(r, j)`. -/
theorem pay2h_apply (x0 : FVec Ideal S8192x64 .f32) (x1 x2 x3 x4 : FVec Ideal S1x64 .f32) (x5 : FVec Ideal S64x64 .f32)
    (x6 : FVec Ideal S1x64 .f32) (r : Fin 8192) (j : Fin 64) :
    k1_pay5 (F := Ideal) x0 x1 x2 x3 x4 x5 x6 (ix2 r j)
      = (∑ k : Fin 64, bnRelu (x0 (ix2 r k)) (x1 (ix2 (0 : Fin 1) k)) (x2 (ix2 (0 : Fin 1) k)) (x3 (ix2 (0 : Fin 1) k))
          (x4 (ix2 (0 : Fin 1) k)) * x5 (ix2 k j)) + x6 (ix2 (0 : Fin 1) j) := by
  unfold k1_pay5
  simp only [shapeCast_self]
  refine congrArg₂ (· + ·) ?_ ?_
  · refine (matmul_plain_apply _ dot2_plain _ _ r j).trans ?_
    refine Finset.sum_congr rfl fun k _ => ?_
    refine congrArg₂ (· * ·) ?_ rfl
    show max ((x0 (ix2 r k) - broadcastTo S8192x64 x1 broadcasts_S1x64_S8192x64 (ix2 r k))
        * broadcastTo S8192x64 (rsqrt (addf x2 (broadcast S1x64 (Scalar.ofBits .f32 0x3727C5AC#32)))) broadcasts_S1x64_S8192x64 (ix2 r k)
        * broadcastTo S8192x64 x3 broadcasts_S1x64_S8192x64 (ix2 r k)
        + broadcastTo S8192x64 x4 broadcasts_S1x64_S8192x64 (ix2 r k)) (Ideal.ofBits .f32 0x00000000#32) = _
    rw [broadcastTo_1b_ab_apply, broadcastTo_1b_ab_apply, broadcastTo_1b_ab_apply, broadcastTo_1b_ab_apply]
    rfl
  · exact broadcastTo_1b_ab_apply x6 broadcasts_S1x64_S8192x64 r j

/-- The running sum after a point: the carried total plus the block's column sum. -/
theorem pay2s_apply (h : FVec Ideal S8192x64 .f32) (acc : FVec Ideal S1x64 .f32) (j : Fin 64) :
    k1_pay1 (F := Ideal) h acc (ix2 (0 : Fin 1) j) = acc (ix2 (0 : Fin 1) j) + ∑ r : Fin 8192, h (ix2 r j) := by
  unfold k1_pay1
  simp only [shapeCast_self]
  refine congrArg₂ (· + ·) rfl ?_
  refine (shapeCast_a_1a_apply _ _ (0 : Fin 1) j).trans ?_
  exact colsum_apply h _ _ _ j

/-- The running sum of squares after a point: the carried total plus the column sum of the block's squares. -/
theorem pay2q_apply (h : FVec Ideal S8192x64 .f32) (acc : FVec Ideal S1x64 .f32) (j : Fin 64) :
    k1_pay2 (F := Ideal) h acc (ix2 (0 : Fin 1) j) = acc (ix2 (0 : Fin 1) j) + ∑ r : Fin 8192, h (ix2 r j) * h (ix2 r j) := by
  unfold k1_pay2
  simp only [shapeCast_self]
  refine congrArg₂ (· + ·) rfl ?_
  refine (shapeCast_a_1a_apply _ _ (0 : Fin 1) j).trans ?_
  exact colsum_apply (mulf h h) _ _ _ j

/-- The reset values: the zero word's value at every entry. -/
theorem pay2z_apply (i : S1x64.Idx) : k1_pay3 (F := Ideal) i = Spec.zero := rfl
theorem pay2z'_apply (i : S1x64.Idx) : k1_pay4 (F := Ideal) i = Spec.zero := rfl

end Cert.KernelIdeal.Pay

end
-- ==== Proof.Value2.lean ====
/-
  The second kernel launch as functions of the arrays it reads. Sixteen grid points; point `t` stages rows `8192 t …` of the
  first hidden layer and writes rows `8192 t …` of the second, whose entry `(R, j)` is
  `∑ k, bnRelu (h1 R k) (μ k) (v k) (g k) (β k) · w2 k j + b2 j` (`H2`). The two one-row outputs are carried from point to point:
  reset to zero at the first point, then each point adds its block's column sums (of the entries, of their squares); they are
  written back after the last point, so they end at zero plus the sums over all sixteen blocks — regrouped, over all 131072 rows.
-/
import proofs.«157847_j6760278524113_2_alg».proof.Proof.Gen.KernelIdeal.Frame
import proofs.«157847_j6760278524113_2_alg».proof.Proof.Piece2
import proofs.«157847_j6760278524113_2_alg».proof.Proof.Pay2

set_option maxRecDepth 16384

noncomputable section

open Idealize.ShloMosaic Idealize.ShloMosaic.TcCoe Idealize.SL.Sem
open Idealize.ShloMosaic.Pipeline (Dat)

namespace Cert.KernelIdeal.Value2

open Cert.KernelIdeal Cert.KernelIdeal.Gen Cert.KernelIdeal.Pay Cert.KernelIdeal.Piece2 Cert.Spec Cert.Sums Idealize.ShloMosaic.ValueIdx

variable (V : (c : Dev nD) → (b : Ref sig .tc) → Buf (Elt Ideal) ((c : Thread nD τ).loc b))

/-- Entry `(R, j)` of the second hidden layer, from the whole arrays. -/
def H2at (h1 : S131072x64.Idx → Elt Ideal .f32) (μ v g β : S1x64.Idx → Elt Ideal .f32) (w2 : S64x64.Idx → Elt Ideal .f32)
    (b2 : S1x64.Idx → Elt Ideal .f32) (R : Fin 131072) (j : Fin 64) : EReal :=
  (∑ k : Fin 64, bnRelu (h1 (ix2 R k)) (μ (ix2 (0 : Fin 1) k)) (v (ix2 (0 : Fin 1) k)) (g (ix2 (0 : Fin 1) k))
    (β (ix2 (0 : Fin 1) k)) * w2 (ix2 k j)) + b2 (ix2 (0 : Fin 1) j)

/-- The second hidden layer as one function of the arrays the launch reads. -/
def H2 (h1 : S131072x64.Idx → Elt Ideal .f32) (μ v g β : S1x64.Idx → Elt Ideal .f32) (w2 : S64x64.Idx → Elt Ideal .f32)
    (b2 : S1x64.Idx → Elt Ideal .f32) : S131072x64.Idx → Elt Ideal .f32 := fun i => H2at h1 μ v g β w2 b2 (i 0) (i 1)

/-- The column totals over all rows, from the zero word's value: of the entries, and of their squares. -/
def SUM2 (h1 : S131072x64.Idx → Elt Ideal .f32) (μ v g β : S1x64.Idx → Elt Ideal .f32) (w2 : S64x64.Idx → Elt Ideal .f32)
    (b2 : S1x64.Idx → Elt Ideal .f32) : S1x64.Idx → Elt Ideal .f32 :=
  fun i => Spec.zero + ∑ R : Fin 131072, H2at h1 μ v g β w2 b2 R (i 1)
def SUMSQ2 (h1 : S131072x64.Idx → Elt Ideal .f32) (μ v g β : S1x64.Idx → Elt Ideal .f32) (w2 : S64x64.Idx → Elt Ideal .f32)
    (b2 : S1x64.Idx → Elt Ideal .f32) : S1x64.Idx → Elt Ideal .f32 :=
  fun i => Spec.zero + ∑ R : Fin 131072, H2at h1 μ v g β w2 b2 R (i 1) * H2at h1 μ v g β w2 b2 R (i 1)

/-! ## The input blocks -/

/-- The first window's block at point `t` is rows `8192 t …` of the first hidden layer. -/
theorem iblk0_apply (c : Dev nD) (t : Fin cfg1.N) (x : S8192x64.Idx) (k : S131072x64.Idx)
    (hk0 : (k 0).val = 8192 * t.val + (x 0).val) (hk1 : (k 1).val = (x 1).val) :
    (iblk1 V c 0 t : Vec Ideal S8192x64 .f32) x = (V c main_v8 : S131072x64.Idx → Elt Ideal .f32) k := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_v8 _ = V c main_v8 _
  refine congrArg (V c main_v8) (funext fun a => Fin.ext ?_)
  match a with
  | ⟨0, _⟩ => show win1_0.index t 0 * 8192 + 1 * (x 0).val = (k 0).val; rw [hi.1, hk0]; omega
  | ⟨1, _⟩ => show win1_0.index t 1 * 64 + 1 * (x 1).val = (k 1).val; rw [hi.2, hk1]; omega

theorem iblk1_apply (c : Dev nD) (t : Fin cfg1.N) (x : S1x64.Idx) :
    (iblk1 V c 1 t : Vec Ideal S1x64 .f32) x = (V c main_v3 : S1x64.Idx → Elt Ideal .f32) x := by
  have hi : win1_1.index t 0 = 0 ∧ win1_1.index t 1 = 0 :=
    (by decide +kernel : ∀ t : Fin grid1.N, win1_1.index t 0 = 0 ∧ win1_1.index t 1 = 0) t
  unfold iblk1
  rw [View.read_apply]
  show V c main_v3 _ = V c main_v3 _
  refine congrArg (V c main_v3) (funext fun a => Fin.ext ?_)
  match a with
  | ⟨0, _⟩ => show win1_1.index t 0 * 1 + 1 * (x 0).val = (x 0).val; rw [hi.1]; omega
  | ⟨1, _⟩ => show win1_1.index t 1 * 64 + 1 * (x 1).val = (x 1).val; rw [hi.2]; omega

theorem iblk2_apply (c : Dev nD) (t : Fin cfg1.N) (x : S1x64.Idx) :
    (iblk1 V c 2 t : Vec Ideal S1x64 .f32) x = (V c main_v7 : S1x64.Idx → Elt Ideal .f32) x := by
  have hi : win1_2.index t 0 = 0 ∧ win1_2.index t 1 = 0 :=
    (by decide +kernel : ∀ t : Fin grid1.N, win1_2.index t 0 = 0 ∧ win1_2.index t 1 = 0) t
  unfold iblk1
  rw [View.read_apply]
  show V c main_v7 _ = V c main_v7 _
  refine congrArg (V c main_v7) (funext fun a => Fin.ext ?_)
  match a with
  | ⟨0, _⟩ => show win1_2.index t 0 * 1 + 1 * (x 0).val = (x 0).val; rw [hi.1]; omega
  | ⟨1, _⟩ => show win1_2.index t 1 * 64 + 1 * (x 1).val = (x 1).val; rw [hi.2]; omega

theorem iblk3_apply (c : Dev nD) (t : Fin cfg1.N) (x : S1x64.Idx) :
    (iblk1 V c 3 t : Vec Ideal S1x64 .f32) x = (V c main_v9 : S1x64.Idx → Elt Ideal .f32) x := by
  have hi : win1_3.index t 0 = 0 ∧ win1_3.index t 1 = 0 :=
    (by decide +kernel : ∀ t : Fin grid1.N, win1_3.index t 0 = 0 ∧ win1_3.index t 1 = 0) t
  unfold iblk1
  rw [View.read_apply]
  show V c main_v9 _ = V c main_v9 _
  refine congrArg (V c main_v9) (funext fun a => Fin.ext ?_)
  match a with
  | ⟨0, _⟩ => show win1_3.index t 0 * 1 + 1 * (x 0).val = (x 0).val; rw [hi.1]; omega
  | ⟨1, _⟩ => show win1_3.index t 1 * 64 + 1 * (x 1).val = (x 1).val; rw [hi.2]; omega

theorem iblk4_apply (c : Dev nD) (t : Fin cfg1.N) (x : S1x64.Idx) :
    (iblk1 V c 4 t : Vec Ideal S1x64 .f32) x = (V c main_v10 : S1x64.Idx → Elt Ideal .f32) x := by
  have hi : win1_4.index t 0 = 0 ∧ win1_4.index t 1 = 0 :=
    (by decide +kernel : ∀ t : Fin grid1.N, win1_4.index t 0 = 0 ∧ win1_4.index t 1 = 0) t
  unfold iblk1
  rw [View.read_apply]
  show V c main_v10 _ = V c main_v10 _
  refine congrArg (V c main_v10) (funext fun a => Fin.ext ?_)
  match a with
  | ⟨0, _⟩ => show win1_4.index t 0 * 1 + 1 * (x 0).val = (x 0).val; rw [hi.1]; omega
  | ⟨1, _⟩ => show win1_4.index t 1 * 64 + 1 * (x 1).val = (x 1).val; rw [hi.2]; omega

theorem iblk5_apply (c : Dev nD) (t : Fin cfg1.N) (x : S64x64.Idx) :
    (iblk1 V c 5 t : Vec Ideal S64x64 .f32) x = (V c main_arg8 : S64x64.Idx → Elt Ideal .f32) x := by
  have hi : win1_5.index t 0 = 0 ∧ win1_5.index t 1 = 0 :=
    (by decide +kernel : ∀ t : Fin grid1.N, win1_5.index t 0 = 0 ∧ win1_5.index t 1 = 0) t
  unfold iblk1
  rw [View.read_apply]
  show V c main_arg8 _ = V c main_arg8 _
  refine congrArg (V c main_arg8) (funext fun a => Fin.ext ?_)
  match a with
  | ⟨0, _⟩ => show win1_5.index t 0 * 64 + 1 * (x 0).val = (x 0).val; rw [hi.1]; omega
  | ⟨1, _⟩ => show win1_5.index t 1 * 64 + 1 * (x 1).val = (x 1).val; rw [hi.2]; omega

theorem iblk6_apply (c : Dev nD) (t : Fin cfg1.N) (x : S1x64.Idx) :
    (iblk1 V c 6 t : Vec Ideal S1x64 .f32) x = (V c main_v11 : S1x64.Idx → Elt Ideal .f32) x := by
  have hi : win1_6.index t 0 = 0 ∧ win1_6.index t 1 = 0 :=
    (by decide +kernel : ∀ t : Fin grid1.N, win1_6.index t 0 = 0 ∧ win1_6.index t 1 = 0) t
  unfold iblk1
  rw [View.read_apply]
  show V c main_v11 _ = V c main_v11 _
  refine congrArg (V c main_v11) (funext fun a => Fin.ext ?_)
  match a with
  | ⟨0, _⟩ => show win1_6.index t 0 * 1 + 1 * (x 0).val = (x 0).val; rw [hi.1]; omega
  | ⟨1, _⟩ => show win1_6.index t 1 * 64 + 1 * (x 1).val = (x 1).val; rw [hi.2]; omega

/-! ## What each point leaves -/

/-- The hidden-layer block point `t` computes. -/
def blkH (c : Dev nD) (t : Fin cfg1.N) : Vec Ideal S8192x64 .f32 := k1_pay5 (iblk1 V c 0 t) (iblk1 V c 1 t) (iblk1 V c 2 t) (iblk1 V c 3 t) (iblk1 V c 4 t) (iblk1 V c 5 t) (iblk1 V c 6 t)

/-- Row `r` of point `t`'s block is row `8192 t + r` of `H2`. -/
theorem blkH_apply (c : Dev nD) (t : Fin cfg1.N) (r : Fin 8192) (j : Fin 64) (R : Fin 131072) (hR : R.val = 8192 * t.val + r.val) :
    blkH V c t (ix2 r j) = H2at (V c main_v8) (V c main_v3) (V c main_v7) (V c main_v9) (V c main_v10) (V c main_arg8) (V c main_v11) R j := by
  unfold blkH
  refine (pay2h_apply (iblk1 V c 0 t) (iblk1 V c 1 t) (iblk1 V c 2 t) (iblk1 V c 3 t) (iblk1 V c 4 t) (iblk1 V c 5 t) (iblk1 V c 6 t) r j).trans ?_
  have e0 : ∀ k : Fin 64, (iblk1 V c 0 t : Vec Ideal S8192x64 .f32) (ix2 r k)
      = (V c main_v8 : S131072x64.Idx → Elt Ideal .f32) (ix2 R k) :=
    fun k => iblk0_apply V c t (ix2 r k) (ix2 R k) hR rfl
  unfold H2at
  simp only [e0, iblk1_apply, iblk2_apply, iblk3_apply, iblk4_apply, iblk5_apply, iblk6_apply]

/-- After every point the first output's buffer holds that point's block. -/
theorem out7_eq (c : Dev nD) (t : Fin cfg1.N) : (outsAt1 V c t.val t.isLt).1 = blkH V c t := by
  by_cases h0 : t.val % 16 = 0
  · rw [outsAt1_A V c t h0]
    dsimp only
    exact outA7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)
  · rw [outsAt1_B V c t h0]
    dsimp only
    exact outB7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

/-- The running sum after the first point. -/
theorem out8_zero (c : Dev nD) (h : 0 < cfg1.N) :
    (outsAt1 V c 0 h).2.1 = k1_pay1 (F := Ideal) (blkH V c ⟨0, h⟩) (k1_pay3 (F := Ideal)) := by
  have e := congrArg (fun p => p.2.1) (outsAt1_A V c ⟨0, h⟩ (Nat.zero_mod _))
  refine e.trans ?_
  exact outA8_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) ((hcond1_0 ⟨0, h⟩).mpr (Nat.zero_mod _)) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩)

/-- The running sum after a later point: over what the point before left. -/
theorem out8_succ (c : Dev nD) (n : ℕ) (h : n + 1 < cfg1.N) :
    (outsAt1 V c (n + 1) h).2.1 = k1_pay1 (F := Ideal) (blkH V c ⟨n + 1, h⟩) (outsAt1 V c n (Nat.lt_of_succ_lt h)).2.1 := by
  have hN : cfg1.N = 16 := N_1
  have h0 : ¬ (n + 1) % 16 = 0 := by rw [hN] at h; omega
  have e := congrArg (fun p => p.2.1) (outsAt1_B V c ⟨n + 1, h⟩ h0)
  refine e.trans ?_
  exact outB8_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c n (Nat.lt_of_succ_lt h)).2.1 (outsAt1 V c n (Nat.lt_of_succ_lt h)).2.2

/-- The running sum of squares, likewise. -/
theorem out9_zero (c : Dev nD) (h : 0 < cfg1.N) :
    (outsAt1 V c 0 h).2.2 = k1_pay2 (F := Ideal) (blkH V c ⟨0, h⟩) (k1_pay4 (F := Ideal)) := by
  have e := congrArg (fun p => p.2.2) (outsAt1_A V c ⟨0, h⟩ (Nat.zero_mod _))
  refine e.trans ?_
  exact outA9_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) ((hcond1_0 ⟨0, h⟩).mpr (Nat.zero_mod _)) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩)

theorem out9_succ (c : Dev nD) (n : ℕ) (h : n + 1 < cfg1.N) :
    (outsAt1 V c (n + 1) h).2.2 = k1_pay2 (F := Ideal) (blkH V c ⟨n + 1, h⟩) (outsAt1 V c n (Nat.lt_of_succ_lt h)).2.2 := by
  have hN : cfg1.N = 16 := N_1
  have h0 : ¬ (n + 1) % 16 = 0 := by rw [hN] at h; omega
  have e := congrArg (fun p => p.2.2) (outsAt1_B V c ⟨n + 1, h⟩ h0)
  refine e.trans ?_
  exact outB9_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c n (Nat.lt_of_succ_lt h)).2.1 (outsAt1 V c n (Nat.lt_of_succ_lt h)).2.2

/-! ## The running totals -/

/-- Row `R` of `H2` for a natural `R` (zero past the last row: never read). -/
def rowN (c : Dev nD) (R : ℕ) (j : Fin 64) : EReal :=
  if h : R < 131072 then H2at (V c main_v8) (V c main_v3) (V c main_v7) (V c main_v9) (V c main_v10) (V c main_arg8) (V c main_v11) ⟨R, h⟩ j else 0

/-- Point `n`'s block row `r` is row `8192 n + r`. -/
theorem blkH_row (c : Dev nD) (n : ℕ) (hn : n < cfg1.N) (r : Fin 8192) (j : Fin 64) :
    blkH V c ⟨n, hn⟩ (ix2 r j) = rowN V c (8192 * n + r.val) j := by
  have hN : cfg1.N = 16 := N_1
  have hb : 8192 * n + r.val < 131072 := by have := r.isLt; rw [hN] at hn; omega
  unfold rowN
  rw [dif_pos hb]
  exact blkH_apply V c ⟨n, hn⟩ r j ⟨8192 * n + r.val, hb⟩ rfl

/-- After point `n` the running sum is zero plus the column sums of blocks `0 … n`. -/
theorem sum_upto (c : Dev nD) : ∀ (n : ℕ) (hn : n < cfg1.N) (i : S1x64.Idx),
    (outsAt1 V c n hn).2.1 i = Spec.zero + ∑ s ∈ Finset.range (n + 1), ∑ r : Fin 8192, rowN V c (8192 * s + r.val) (i 1)
  | 0, hn, i => by
    obtain ⟨u, j, rfl⟩ : ∃ (u : Fin 1) (j : Fin 64), i = ix2 u j := ⟨i 0, i 1, eq_ix2 i⟩
    obtain rfl : u = 0 := Subsingleton.elim _ _
    rw [out8_zero V c hn, pay2s_apply, Finset.sum_range_one]
    refine congrArg₂ (· + ·) rfl (Finset.sum_congr rfl fun r _ => ?_)
    exact blkH_row V c 0 hn r j
  | n + 1, hn, i => by
    obtain ⟨u, j, rfl⟩ : ∃ (u : Fin 1) (j : Fin 64), i = ix2 u j := ⟨i 0, i 1, eq_ix2 i⟩
    obtain rfl : u = 0 := Subsingleton.elim _ _
    rw [out8_succ V c n hn, pay2s_apply, sum_upto c n (Nat.lt_of_succ_lt hn) (ix2 0 j), Finset.sum_range_succ _ (n + 1), add_assoc]
    refine congrArg₂ (· + ·) rfl (congrArg₂ (· + ·) rfl (Finset.sum_congr rfl fun r _ => ?_))
    exact blkH_row V c (n + 1) hn r j

/-- After point `n` the running sum of squares is zero plus the column sums of the squares of blocks `0 … n`. -/
theorem sumsq_upto (c : Dev nD) : ∀ (n : ℕ) (hn : n < cfg1.N) (i : S1x64.Idx),
    (outsAt1 V c n hn).2.2 i = Spec.zero + ∑ s ∈ Finset.range (n + 1), ∑ r : Fin 8192,
      rowN V c (8192 * s + r.val) (i 1) * rowN V c (8192 * s + r.val) (i 1)
  | 0, hn, i => by
    obtain ⟨u, j, rfl⟩ : ∃ (u : Fin 1) (j : Fin 64), i = ix2 u j := ⟨i 0, i 1, eq_ix2 i⟩
    obtain rfl : u = 0 := Subsingleton.elim _ _
    rw [out9_zero V c hn, pay2q_apply, Finset.sum_range_one]
    refine congrArg₂ (· + ·) rfl (Finset.sum_congr rfl fun r _ => ?_)
    rw [blkH_row V c 0 hn r j]
  | n + 1, hn, i => by
    obtain ⟨u, j, rfl⟩ : ∃ (u : Fin 1) (j : Fin 64), i = ix2 u j := ⟨i 0, i 1, eq_ix2 i⟩
    obtain rfl : u = 0 := Subsingleton.elim _ _
    rw [out9_succ V c n hn, pay2q_apply, sumsq_upto c n (Nat.lt_of_succ_lt hn) (ix2 0 j), Finset.sum_range_succ _ (n + 1), add_assoc]
    refine congrArg₂ (· + ·) rfl (congrArg₂ (· + ·) rfl (Finset.sum_congr rfl fun r _ => ?_))
    rw [blkH_row V c (n + 1) hn r j]

/-- The sixteen blocks' column sums are the column sum over all rows. -/
theorem total_rows (c : Dev nD) (f : EReal → EReal) (j : Fin 64) :
    ∑ s ∈ Finset.range 16, ∑ r : Fin 8192, f (rowN V c (8192 * s + r.val) j)
      = ∑ R : Fin 131072, f (H2at (V c main_v8) (V c main_v3) (V c main_v7) (V c main_v9) (V c main_v10) (V c main_arg8) (V c main_v11) R j) := by
  refine (sum_blocks (fun R => f (rowN V c R j)) 16 8192).symm.trans ?_
  show ∑ R : Fin 131072, f (rowN V c R.val j) = _
  refine Finset.sum_congr rfl fun R _ => ?_
  unfold rowN
  rw [dif_pos R.isLt]

end Cert.KernelIdeal.Value2

end
-- ==== Proof.Value2b.lean ====
/-
  The second launch's three output arrays after the launch: the hidden layer is `H2` (every point writes its rows back and the
  sixteen blocks tile the rows); each one-row total is written back once, after the last point, holding zero plus the column
  totals over all 131072 rows.
-/
import proofs.«157847_j6760278524113_2_alg».proof.Proof.Value2

set_option maxRecDepth 16384

noncomputable section

open Idealize.ShloMosaic Idealize.ShloMosaic.TcCoe Idealize.SL.Sem
open Idealize.ShloMosaic.Pipeline (Dat)

namespace Cert.KernelIdeal.Value2

open Cert.KernelIdeal Cert.KernelIdeal.Gen Cert.Spec Cert.Sums Idealize.ShloMosaic.ValueIdx

variable (V : (c : Dev nD) → (b : Ref sig .tc) → Buf (Elt Ideal) ((c : Thread nD τ).loc b))

theorem out_index7 (t : Fin cfg1.N) : win1_7.index t 0 = t.val ∧ win1_7.index t 1 = 0 :=
  (by decide +kernel : ∀ t : Fin grid1.N, win1_7.index t 0 = t.val ∧ win1_7.index t 1 = 0) t

/-- WHAT POINT `t` WRITES BACK of the hidden layer is block `t` of `H2`. -/
theorem flushed7 (c : Dev nD) (t : Fin cfg1.N) :
    (dat1 V c).flushed 7 t = ((cfg1.win 7).blk t).view.read (Elt Ideal) (H2 (V c main_v8) (V c main_v3) (V c main_v7) (V c main_v9) (V c main_v10) (V c main_arg8) (V c main_v11)) := by
  show (cfg1.win 7).cut (grid1.coords t) ((dat1 V c).after 7 t) = _
  rw [after1_7, out7_eq]
  funext y
  obtain ⟨r, j, rfl⟩ : ∃ (r : Fin 8192) (j : Fin 64), y = ix2 r j := ⟨y 0, y 1, eq_ix2 y⟩
  rw [View.read_apply]
  obtain ⟨i0, i1⟩ := out_index7 t
  have hR0 : ((((cfg1.win 7).blk t).view.emb (ix2 r j)) 0).val = 8192 * t.val + r.val := by
    show win1_7.index t 0 * 8192 + 1 * r.val = _; rw [i0]; omega
  have hR1 : ((((cfg1.win 7).blk t).view.emb (ix2 r j)) 1).val = j.val := by
    show win1_7.index t 1 * 64 + 1 * j.val = _; rw [i1]; omega
  generalize ((cfg1.win 7).blk t).view.emb (ix2 r j) = Rk at hR0 hR1
  have ea : (Rk 1 : Fin 64) = j := Fin.ext hR1
  show blkH V c t (ix2 r j) = H2at (V c main_v8) (V c main_v3) (V c main_v7) (V c main_v9) (V c main_v10) (V c main_arg8) (V c main_v11) (Rk 0) (Rk 1)
  rw [ea]
  exact blkH_apply V c t r j (Rk 0) hR0

theorem mem_blk7 (t : Fin cfg1.N) (i : S131072x64.Idx) :
    i ∈ ((cfg1.win 7).blk t).view.set ↔ ∀ a : Fin 2, win1_7.index t a * S8192x64.size a ≤ (i a).val
      ∧ (i a).val < win1_7.index t a * S8192x64.size a + S8192x64.size a := by
  show i ∈ ((View.whole main_v12_0).slice (win1_7.rect t)).set ↔ _
  rw [View.set_slice_whole, Rect.mem_set_unit]
  exact Iff.rfl

theorem cover7 (i : S131072x64.Idx) : ∃ t : Fin cfg1.N, (cfg1.win 7).flush t = true ∧ i ∈ ((cfg1.win 7).blk t).view.set := by
  have hi0 : (i 0).val < 131072 := (i 0).isLt
  have hi1 : (i 1).val < 64 := (i 1).isLt
  have hN : cfg1.N = 16 := N_1
  let t : Fin cfg1.N := ⟨(i 0).val / 8192, by rw [hN]; omega⟩
  obtain ⟨i0, i1⟩ := out_index7 t
  refine ⟨t, flush1_7 t, ?_⟩
  rw [mem_blk7]
  intro a
  have ht : t.val = (i 0).val / 8192 := rfl
  match a with
  | ⟨0, _⟩ => show win1_7.index t 0 * 8192 ≤ (i 0).val ∧ (i 0).val < win1_7.index t 0 * 8192 + 8192; rw [i0, ht]; omega
  | ⟨1, _⟩ => show win1_7.index t 1 * 64 ≤ (i 1).val ∧ (i 1).val < win1_7.index t 1 * 64 + 64; rw [i1]; omega

/-- THE HIDDEN LAYER after the launch is `H2` of the arrays as the launch finds them. -/
theorem final7 (c : Dev nD) : (dat1 V c).arrAt 7 cfg1.N = H2 (V c main_v8) (V c main_v3) (V c main_v7) (V c main_v9) (V c main_v10) (V c main_arg8) (V c main_v11) :=
  (dat1 V c).arrAt_eq_of_cover 7 _ (fun t _ => flushed7 V c t) cover7

/-- The sum row is written back once, after the last point: it then holds the totals over all rows. -/
theorem flushed8 (c : Dev nD) (t : Fin cfg1.N) (hf : (cfg1.win 8).flush t = true) :
    (dat1 V c).flushed 8 t = ((cfg1.win 8).blk t).view.read (Elt Ideal) (SUM2 (V c main_v8) (V c main_v3) (V c main_v7) (V c main_v9) (V c main_v10) (V c main_arg8) (V c main_v11)) := by
  have hN : cfg1.N = 16 := N_1
  have h15 : t.val = 15 := by have := (flush1_8 t).mp hf; have := t.isLt; omega
  have hi : win1_8.index t 0 = 0 ∧ win1_8.index t 1 = 0 :=
    (by decide +kernel : ∀ t : Fin grid1.N, win1_8.index t 0 = 0 ∧ win1_8.index t 1 = 0) t
  show (cfg1.win 8).cut (grid1.coords t) ((dat1 V c).after 8 t) = _
  rw [after1_8]
  funext y
  rw [View.read_apply]
  have he : ((cfg1.win 8).blk t).view.emb y = y := funext fun a => Fin.ext (by
    match a with
    | ⟨0, _⟩ => show win1_8.index t 0 * 1 + 1 * (y 0).val = (y 0).val; rw [hi.1]; omega
    | ⟨1, _⟩ => show win1_8.index t 1 * 64 + 1 * (y 1).val = (y 1).val; rw [hi.2]; omega)
  rw [he]
  show (outsAt1 V c t.val t.isLt).2.1 y = SUM2 (V c main_v8) (V c main_v3) (V c main_v7) (V c main_v9) (V c main_v10) (V c main_arg8) (V c main_v11) y
  rw [sum_upto V c t.val t.isLt y]
  unfold SUM2
  refine congrArg₂ (· + ·) rfl ?_
  rw [h15]
  exact total_rows V c (fun x => x) (y 1)

theorem mem_blk8 (t : Fin cfg1.N) (i : S1x64.Idx) :
    i ∈ ((cfg1.win 8).blk t).view.set ↔ ∀ a : Fin 2, win1_8.index t a * S1x64.size a ≤ (i a).val
      ∧ (i a).val < win1_8.index t a * S1x64.size a + S1x64.size a := by
  show i ∈ ((View.whole main_v12_1).slice (win1_8.rect t)).set ↔ _
  rw [View.set_slice_whole, Rect.mem_set_unit]
  exact Iff.rfl

theorem cover8 (i : S1x64.Idx) : ∃ t : Fin cfg1.N, (cfg1.win 8).flush t = true ∧ i ∈ ((cfg1.win 8).blk t).view.set := by
  have hN : cfg1.N = 16 := N_1
  have hi0 : (i 0).val < 1 := (i 0).isLt
  have hi1 : (i 1).val < 64 := (i 1).isLt
  let t : Fin cfg1.N := ⟨15, by rw [hN]; decide⟩
  have hi : win1_8.index t 0 = 0 ∧ win1_8.index t 1 = 0 :=
    (by decide +kernel : ∀ t : Fin grid1.N, win1_8.index t 0 = 0 ∧ win1_8.index t 1 = 0) t
  refine ⟨t, (flush1_8 t).mpr rfl, ?_⟩
  rw [mem_blk8]
  intro a
  match a with
  | ⟨0, _⟩ => show win1_8.index t 0 * 1 ≤ (i 0).val ∧ (i 0).val < win1_8.index t 0 * 1 + 1; rw [hi.1]; omega
  | ⟨1, _⟩ => show win1_8.index t 1 * 64 ≤ (i 1).val ∧ (i 1).val < win1_8.index t 1 * 64 + 64; rw [hi.2]; omega

/-- THE SUM ROW after the launch. -/
theorem final8 (c : Dev nD) : (dat1 V c).arrAt 8 cfg1.N = SUM2 (V c main_v8) (V c main_v3) (V c main_v7) (V c main_v9) (V c main_v10) (V c main_arg8) (V c main_v11) :=
  (dat1 V c).arrAt_eq_of_cover 8 _ (fun t hf => flushed8 V c t hf) cover8

/-- The sum of squares row is written back once, after the last point: it then holds the totals over all rows. -/
theorem flushed9 (c : Dev nD) (t : Fin cfg1.N) (hf : (cfg1.win 9).flush t = true) :
    (dat1 V c).flushed 9 t = ((cfg1.win 9).blk t).view.read (Elt Ideal) (SUMSQ2 (V c main_v8) (V c main_v3) (V c main_v7) (V c main_v9) (V c main_v10) (V c main_arg8) (V c main_v11)) := by
  have hN : cfg1.N = 16 := N_1
  have h15 : t.val = 15 := by have := (flush1_9 t).mp hf; have := t.isLt; omega
  have hi : win1_9.index t 0 = 0 ∧ win1_9.index t 1 = 0 :=
    (by decide +kernel : ∀ t : Fin grid1.N, win1_9.index t 0 = 0 ∧ win1_9.index t 1 = 0) t
  show (cfg1.win 9).cut (grid1.coords t) ((dat1 V c).after 9 t) = _
  rw [after1_9]
  funext y
  rw [View.read_apply]
  have he : ((cfg1.win 9).blk t).view.emb y = y := funext fun a => Fin.ext (by
    match a with
    | ⟨0, _⟩ => show win1_9.index t 0 * 1 + 1 * (y 0).val = (y 0).val; rw [hi.1]; omega
    | ⟨1, _⟩ => show win1_9.index t 1 * 64 + 1 * (y 1).val = (y 1).val; rw [hi.2]; omega)
  rw [he]
  show (outsAt1 V c t.val t.isLt).2.2 y = SUMSQ2 (V c main_v8) (V c main_v3) (V c main_v7) (V c main_v9) (V c main_v10) (V c main_arg8) (V c main_v11) y
  rw [sumsq_upto V c t.val t.isLt y]
  unfold SUMSQ2
  refine congrArg₂ (· + ·) rfl ?_
  rw [h15]
  exact total_rows V c (fun x => x * x) (y 1)

theorem mem_blk9 (t : Fin cfg1.N) (i : S1x64.Idx) :
    i ∈ ((cfg1.win 9).blk t).view.set ↔ ∀ a : Fin 2, win1_9.index t a * S1x64.size a ≤ (i a).val
      ∧ (i a).val < win1_9.index t a * S1x64.size a + S1x64.size a := by
  show i ∈ ((View.whole main_v12_2).slice (win1_9.rect t)).set ↔ _
  rw [View.set_slice_whole, Rect.mem_set_unit]
  exact Iff.rfl

theorem cover9 (i : S1x64.Idx) : ∃ t : Fin cfg1.N, (cfg1.win 9).flush t = true ∧ i ∈ ((cfg1.win 9).blk t).view.set := by
  have hN : cfg1.N = 16 := N_1
  have hi0 : (i 0).val < 1 := (i 0).isLt
  have hi1 : (i 1).val < 64 := (i 1).isLt
  let t : Fin cfg1.N := ⟨15, by rw [hN]; decide⟩
  have hi : win1_9.index t 0 = 0 ∧ win1_9.index t 1 = 0 :=
    (by decide +kernel : ∀ t : Fin grid1.N, win1_9.index t 0 = 0 ∧ win1_9.index t 1 = 0) t
  refine ⟨t, (flush1_9 t).mpr rfl, ?_⟩
  rw [mem_blk9]
  intro a
  match a with
  | ⟨0, _⟩ => show win1_9.index t 0 * 1 ≤ (i 0).val ∧ (i 0).val < win1_9.index t 0 * 1 + 1; rw [hi.1]; omega
  | ⟨1, _⟩ => show win1_9.index t 1 * 64 ≤ (i 1).val ∧ (i 1).val < win1_9.index t 1 * 64 + 64; rw [hi.2]; omega

/-- THE SUM OF SQUARES ROW after the launch. -/
theorem final9 (c : Dev nD) : (dat1 V c).arrAt 9 cfg1.N = SUMSQ2 (V c main_v8) (V c main_v3) (V c main_v7) (V c main_v9) (V c main_v10) (V c main_arg8) (V c main_v11) :=
  (dat1 V c).arrAt_eq_of_cover 9 _ (fun t hf => flushed9 V c t hf) cover9

end Cert.KernelIdeal.Value2

end
-- ==== Proof.KernelNet.lean ====
/-
  The kernel's result, entry by entry, is the network of Proof/SpecNet.lean with the variance read as the mean of the squares
  minus the squared mean (`colVarSq`). The three launches are chained through the host operations between them: the first
  launch's outputs are the first hidden layer (one table of `131072` rows once re-laid) and its column totals; the second launch is
  entered with that table, its mean and variance, and leaves the second hidden layer and its totals; the third is entered with
  those and leaves the logistic of the last product. At every boundary the totals carry a leading zero word, whose value is `0`.
-/
import proofs.«157847_j6760278524113_2_alg».proof.Proof.Glue1
import proofs.«157847_j6760278524113_2_alg».proof.Proof.Value2b

set_option maxRecDepth 16384

noncomputable section

open Idealize.ShloMosaic Idealize.ShloMosaic.TcCoe Idealize.SL.Sem Idealize.ShloMosaic.StableHlo

namespace Cert.KernelIdeal.Net

open Cert.KernelIdeal Cert.KernelIdeal.Gen Cert.KernelIdeal.Glue Cert.Spec Cert.Layout Idealize.ShloMosaic.ValueIdx

variable (m : (ℓ : Loc nD τ sig) → Buf (Elt Ideal) ℓ) (ρ : Dev nD → PrngReg)

theorem zero_add' (a : EReal) : Spec.zero + a = a := by
  show Ideal.ofBits .f32 0x00000000#32 + a = a
  rw [Ideal.ofBits_zero_f32, zero_add]

theorem meanOf_apply (s : FVec Ideal S1x64 .f32) (k : Fin 64) :
    meanOf s (ix2 (0 : Fin 1) k) = Ideal.div (s (ix2 (0 : Fin 1) k)) nRows := rfl

theorem varOf_apply (s q : FVec Ideal S1x64 .f32) (k : Fin 64) :
    varOf s q (ix2 (0 : Fin 1) k) = Ideal.div (q (ix2 (0 : Fin 1) k)) nRows
      - Ideal.div (s (ix2 (0 : Fin 1) k)) nRows * Ideal.div (s (ix2 (0 : Fin 1) k)) nRows := rfl

/-- A layer over arrays is the network's layer over the same entries. -/
theorem H2at_eq (h1 : S131072x64.Idx → Elt Ideal .f32) (μ v g β : S1x64.Idx → Elt Ideal .f32) (w : S64x64.Idx → Elt Ideal .f32)
    (b2 : S1x64.Idx → Elt Ideal .f32) (h' : Fin 131072 → Fin 64 → EReal) (μ' v' : Fin 64 → EReal) (g' β' : A1 64) (w' : A2 64 64) (b2' : A1 64)
    (hh : ∀ R k, h1 (ix2 R k) = h' R k) (hμ : ∀ k, μ (ix2 (0 : Fin 1) k) = μ' k) (hv : ∀ k, v (ix2 (0 : Fin 1) k) = v' k)
    (hg : ∀ k, g (ix2 (0 : Fin 1) k) = g' (ix1 k)) (hβ : ∀ k, β (ix2 (0 : Fin 1) k) = β' (ix1 k)) (hw : ∀ i, w i = w' i)
    (hb : ∀ j, b2 (ix2 (0 : Fin 1) j) = b2' (ix1 j)) (R : Fin 131072) (j : Fin 64) :
    Value2.H2at h1 μ v g β w b2 R j = layerAt h' μ' v' g' β' w' b2' R j := by
  unfold Value2.H2at layerAt
  simp only [hh, hμ, hv, hg, hβ, hw, hb]

theorem G3at_eq (h2 : S131072x64.Idx → Elt Ideal .f32) (μ v g β : S1x64.Idx → Elt Ideal .f32) (w : S64x16.Idx → Elt Ideal .f32)
    (bo : S1x16.Idx → Elt Ideal .f32) (h' : Fin 131072 → Fin 64 → EReal) (μ' v' : Fin 64 → EReal) (g' β' : A1 64) (w' : A2 64 16) (bo' : A1 16)
    (hh : ∀ R k, h2 (ix2 R k) = h' R k) (hμ : ∀ k, μ (ix2 (0 : Fin 1) k) = μ' k) (hv : ∀ k, v (ix2 (0 : Fin 1) k) = v' k)
    (hg : ∀ k, g (ix2 (0 : Fin 1) k) = g' (ix1 k)) (hβ : ∀ k, β (ix2 (0 : Fin 1) k) = β' (ix1 k)) (hw : ∀ i, w i = w' i)
    (hb : ∀ j, bo (ix2 (0 : Fin 1) j) = bo' (ix1 j)) (R : Fin 131072) (a : Fin 16) :
    Value3.G3at h2 μ v g β w bo R a = Ideal.logistic (layerAt h' μ' v' g' β' w' bo' R a) := by
  unfold Value3.G3at layerAt
  simp only [hh, hμ, hv, hg, hβ, hw, hb]

/-! ## The second launch's entry contents -/

section L1
variable (c : Dev nD)

theorem in2_h1 (R : Fin 131072) (k : Fin 64) :
    (V3 m ρ c main_v8 : S131072x64.Idx → Elt Ideal .f32) (ix2 R k) = h1Row (kerArgs m c) R k := by
  rw [V3_h1 m ρ c, Value1.final6 c (kerArgs m c) (reads1 m ρ c)]
  refine (shapeCast_abc_nc_apply (Value1.H1arr (kerArgs m c)) _ R k ⟨R.val / 512, by have := R.isLt; omega⟩
    ⟨R.val % 512, Nat.mod_lt _ (by decide)⟩ ?_).trans rfl
  show R.val = R.val / 512 * 512 + R.val % 512
  omega

theorem in2_mean (k : Fin 64) :
    (V3 m ρ c main_v3 : S1x64.Idx → Elt Ideal .f32) (ix2 (0 : Fin 1) k) = colMean (h1Row (kerArgs m c)) k := by
  rw [V3_mean m ρ c, Value1.final7 c (kerArgs m c) (reads1 m ρ c), meanOf_apply]
  unfold colMean Value1.SUM1
  rw [zero_add']

theorem in2_var (k : Fin 64) :
    (V3 m ρ c main_v7 : S1x64.Idx → Elt Ideal .f32) (ix2 (0 : Fin 1) k) = colVarSq (h1Row (kerArgs m c)) k := by
  rw [V3_var m ρ c, Value1.final7 c (kerArgs m c) (reads1 m ρ c), Value1.final8 c (kerArgs m c) (reads1 m ρ c), varOf_apply]
  unfold colVarSq colMean Value1.SUM1 Value1.SUMSQ1
  rw [zero_add', zero_add']

theorem in2_g (k : Fin 64) : (V3 m ρ c main_v9 : S1x64.Idx → Elt Ideal .f32) (ix2 (0 : Fin 1) k) = (kerArgs m c).g1 (ix1 k) := by
  rw [V3_g m ρ c]; exact shapeCast_a_1a_apply _ _ (0 : Fin 1) k
theorem in2_beta (k : Fin 64) : (V3 m ρ c main_v10 : S1x64.Idx → Elt Ideal .f32) (ix2 (0 : Fin 1) k) = (kerArgs m c).be1 (ix1 k) := by
  rw [V3_beta m ρ c]; exact shapeCast_a_1a_apply _ _ (0 : Fin 1) k
theorem in2_b2 (j : Fin 64) : (V3 m ρ c main_v11 : S1x64.Idx → Elt Ideal .f32) (ix2 (0 : Fin 1) j) = (kerArgs m c).b2 (ix1 j) := by
  rw [V3_b2 m ρ c]; exact shapeCast_a_1a_apply _ _ (0 : Fin 1) j
theorem in2_w2 (i : S64x64.Idx) : (V3 m ρ c main_arg8 : S64x64.Idx → Elt Ideal .f32) i = (kerArgs m c).w2 i :=
  congrFun (V3_arg8 m ρ c) i

/-- Row `R` of what the second launch computes is the network's second hidden layer. -/
theorem h2_entry (R : Fin 131072) (j : Fin 64) :
    Value2.H2at (V3 m ρ c main_v8) (V3 m ρ c main_v3) (V3 m ρ c main_v7) (V3 m ρ c main_v9) (V3 m ρ c main_v10) (V3 m ρ c main_arg8)
      (V3 m ρ c main_v11) R j = h2Row (kerArgs m c) colVarSq R j :=
  H2at_eq _ _ _ _ _ _ _ _ _ _ _ _ _ _ (in2_h1 m ρ c) (in2_mean m ρ c) (in2_var m ρ c) (in2_g m ρ c) (in2_beta m ρ c) (in2_w2 m ρ c)
    (in2_b2 m ρ c) R j

end L1

/-! ## The third launch's entry contents -/

section L2
variable (c : Dev nD)

theorem in3_h2 (R : Fin 131072) (k : Fin 64) :
    (V5 m ρ c main_v12_0 : S131072x64.Idx → Elt Ideal .f32) (ix2 R k) = h2Row (kerArgs m c) colVarSq R k := by
  rw [V5_h2 m ρ c, Value2.final7 (V3 m ρ) c]
  exact h2_entry m ρ c R k

theorem in3_mean (k : Fin 64) :
    (V5 m ρ c main_v14 : S1x64.Idx → Elt Ideal .f32) (ix2 (0 : Fin 1) k) = colMean (h2Row (kerArgs m c) colVarSq) k := by
  rw [V5_mean m ρ c, Value2.final8 (V3 m ρ) c, meanOf_apply]
  unfold colMean Value2.SUM2
  rw [zero_add']
  exact congrArg (Ideal.div · nRows) (Finset.sum_congr rfl fun R _ => h2_entry m ρ c R k)

theorem in3_var (k : Fin 64) :
    (V5 m ρ c main_v18 : S1x64.Idx → Elt Ideal .f32) (ix2 (0 : Fin 1) k) = colVarSq (h2Row (kerArgs m c) colVarSq) k := by
  rw [V5_var m ρ c, Value2.final8 (V3 m ρ) c, Value2.final9 (V3 m ρ) c, varOf_apply]
  unfold colVarSq colMean Value2.SUM2 Value2.SUMSQ2
  rw [zero_add', zero_add']
  simp only [h2_entry m ρ c]
  rfl

theorem in3_g (k : Fin 64) : (V5 m ρ c main_v19 : S1x64.Idx → Elt Ideal .f32) (ix2 (0 : Fin 1) k) = (kerArgs m c).g2 (ix1 k) := by
  rw [V5_g m ρ c]; exact shapeCast_a_1a_apply _ _ (0 : Fin 1) k
theorem in3_beta (k : Fin 64) : (V5 m ρ c main_v20 : S1x64.Idx → Elt Ideal .f32) (ix2 (0 : Fin 1) k) = (kerArgs m c).be2 (ix1 k) := by
  rw [V5_beta m ρ c]; exact shapeCast_a_1a_apply _ _ (0 : Fin 1) k
theorem in3_bo (a : Fin 16) : (V5 m ρ c main_v21 : S1x16.Idx → Elt Ideal .f32) (ix2 (0 : Fin 1) a) = (kerArgs m c).bo (ix1 a) := by
  rw [V5_bo m ρ c]; exact shapeCast_a_1a_apply _ _ (0 : Fin 1) a
theorem in3_wo (i : S64x16.Idx) : (V5 m ρ c main_arg12 : S64x16.Idx → Elt Ideal .f32) i = (kerArgs m c).wo i :=
  congrFun (V5_arg12 m ρ c) i

/-- THE KERNEL'S RESULT at `(b, n, a)` is the network's output with the variance from the running totals. -/
theorem result_apply (b : Fin 256) (n : Fin 512) (a : Fin 16) :
    (W7 m ρ c (Proc.devRef .tc main_v23) : S256x512x16.Idx → Elt Ideal .f32) (ix3 b n a) = outAt (kerArgs m c) colVarSq b n a := by
  rw [result_eq m ρ c]
  have hR : 512 * b.val + n.val < 131072 := by have := b.isLt; have := n.isLt; omega
  refine (shapeCast_nc_abc_apply _ _ b n a ⟨512 * b.val + n.val, hR⟩ (by show 512 * b.val + n.val = b.val * 512 + n.val; omega)).trans ?_
  show Value3.G3at _ _ _ _ _ _ _ (⟨512 * b.val + n.val, hR⟩ : Fin 131072) a = _
  unfold outAt logitRow
  exact G3at_eq _ _ _ _ _ _ _ _ _ _ _ _ _ _ (in3_h2 m ρ c) (in3_mean m ρ c) (in3_var m ρ c) (in3_g m ρ c) (in3_beta m ρ c) (in3_wo m ρ c)
    (in3_bo m ρ c) _ a

end L2

end Cert.KernelIdeal.Net

end
-- ==== Proof.LibFinite.lean ====
/-
  Finite entries: which operations keep every entry a real number.

  An extended real is finite when it is the image of a real number.  Sums, products, differences, maxima and finite sums
  of finite values are finite; the exponential of a finite value is a positive real, a finite sum of positive reals over a
  non-empty index set is a positive real, the logarithm of a positive real is finite, and a quotient of a finite value by
  a positive real is finite.  For whole arrays: an array read at computed indices (a broadcast, a gather), a pointwise
  combination, a matrix product and an accumulating scatter of arrays with finite entries all have finite entries.
  Last, the identity that needs finiteness: for finite `x`, `m`, `l`, `x - (l + m) = (x - m) - l`.
-/
import Idealize.ShloMosaic.PureOps.Ideal.Laws
import Idealize.ShloMosaic.PureOps.Contract
import Idealize.ShloMosaic.PureOps.Vector

noncomputable section

namespace Cert.Fin

open Idealize.ShloMosaic

/-- The value is a real number. -/
def IsReal (a : EReal) : Prop := ∃ r : ℝ, a = (r : EReal)

/-- The value is a positive real number. -/
def IsPos (a : EReal) : Prop := ∃ r : ℝ, 0 < r ∧ a = (r : EReal)

theorem IsPos.isReal {a : EReal} (h : IsPos a) : IsReal a := let ⟨r, _, e⟩ := h; ⟨r, e⟩

theorem isReal_of_ne {a : EReal} (ht : a ≠ ⊤) (hb : a ≠ ⊥) : IsReal a := ⟨a.toReal, (EReal.coe_toReal ht hb).symm⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem isReal_zero : IsReal 0 := ⟨0, EReal.coe_zero.symm⟩
theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_cases a b with ⟨e, _⟩ | ⟨e, _⟩ <;> rw [e] <;> assumption

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsPos.add {a b : EReal} (ha : IsPos a) (hb : IsPos b) : IsPos (a + b) := by
  obtain ⟨r, hr, rfl⟩ := ha; obtain ⟨s, hs, rfl⟩ := hb; exact ⟨r + s, add_pos hr hs, (EReal.coe_add r s).symm⟩

/-- A sum of positive reals over `Fin (n + 1)` is a positive real. -/
theorem isPos_sum_fin : ∀ (n : ℕ) (f : Fin (n + 1) → EReal), (∀ i, IsPos (f i)) → IsPos (∑ i, f i)
  | 0, f, h => by rw [Fin.sum_univ_one]; exact h 0
  | n + 1, f, h => by
    rw [Fin.sum_univ_succ]
    exact (h 0).add (isPos_sum_fin n (fun i => f i.succ) fun i => h i.succ)

theorem isPos_exp {a : EReal} (ha : IsReal a) : IsPos (Ideal.exp a) := by
  obtain ⟨r, rfl⟩ := ha; exact ⟨Real.exp r, Real.exp_pos r, rfl⟩

theorem isReal_log {a : EReal} (ha : IsPos a) : IsReal (Ideal.log a) := by
  obtain ⟨r, hr, rfl⟩ := ha
  refine ⟨Real.log r, ?_⟩
  rw [Ideal.log_coe, if_neg (not_le.mpr hr)]

theorem isReal_div {a b : EReal} (ha : IsReal a) (hb : IsPos b) : IsReal (Ideal.div a b) := by
  obtain ⟨s, hs, rfl⟩ := hb
  rw [Ideal.div_coe (ne_of_gt hs)]
  exact ha.mul (isReal_coe _)

/-- For finite `x`, `m`, `l`: `x - (l + m) = (x - m) - l`. -/
theorem sub_add_eq_sub_sub_swap {x m l : EReal} (hx : IsReal x) (hm : IsReal m) (hl : IsReal l) : x - (l + m) = (x - m) - l := by
  obtain ⟨a, rfl⟩ := hx; obtain ⟨b, rfl⟩ := hm; obtain ⟨c, rfl⟩ := hl
  rw [← EReal.coe_add, ← EReal.coe_sub, ← EReal.coe_sub, ← EReal.coe_sub]
  exact congrArg _ (by ring)

/-- The largest of finitely many finite values, folded from minus infinity over a non-empty index set, is finite. -/
theorem isReal_fold_max (n : ℕ) (f : Fin (n + 1) → EReal) (h : ∀ i, IsReal (f i)) :
    IsReal ((Finset.univ : Finset (Fin (n + 1))).fold max ⊥ f) := by
  refine isReal_of_ne (ne_of_lt ?_) (ne_of_gt ?_)
  · rw [Finset.fold_max_lt]
    exact ⟨bot_lt_top, fun i _ => lt_top_iff_ne_top.mpr (h i).ne_top⟩
  · rw [Finset.lt_fold_max]
    exact Or.inr ⟨0, Finset.mem_univ _, bot_lt_iff_ne_bot.mpr (h 0).ne_bot⟩

/-! ## Whole arrays -/

/-- Every entry of the array is a real number. -/
def AllReal {s : Shape} (v : s.Idx → EReal) : Prop := ∀ i, IsReal (v i)

variable {s t u si : Shape}

/-- An array read at computed indices. -/
theorem AllReal.comp {v : s.Idx → EReal} (h : AllReal v) (g : t.Idx → s.Idx) : AllReal fun j => v (g j) := fun j => h (g j)

theorem allReal_broadcastInDim (dims : Fin s.rank → Fin t.rank) (hb : s.BroadcastsInDim t dims) {v : s.Idx → EReal} (h : AllReal v) :
    AllReal (broadcastInDim t dims hb v) := fun j => h _

theorem allReal_gather {w : ℕ} (d : GatherDims s si t) {v : s.Idx → EReal} (h : AllReal v) (idx : IVec si w) :
    AllReal (Host.gather d v idx) := fun j => h _

theorem allReal_mulf {a b : FVec Ideal s .f32} (ha : AllReal a) (hb : AllReal b) : AllReal (mulf a b) := fun i => (ha i).mul (hb i)
theorem allReal_addf {a b : FVec Ideal s .f32} (ha : AllReal a) (hb : AllReal b) : AllReal (addf a b) := fun i => (ha i).add (hb i)
theorem allReal_maximumf {a b : FVec Ideal s .f32} (ha : AllReal a) (hb : AllReal b) : AllReal (maximumf a b) := fun i => (ha i).max (hb i)

theorem allReal_dotGeneral {sl sr so : Shape} (d : DotDims sl sr so) (prec : Option ContractPrecision)
    {x : FVec Ideal sl .f32} {w : FVec Ideal sr .f32} (hx : AllReal x) (hw : AllReal w) :
    AllReal (Host.dotGeneral (F := Ideal) d prec x w) := fun j => by
  show IsReal (FloatOps.dotGeneral d prec .single x w j)
  rw [Ideal.dotGeneral_apply]
  exact isReal_sum _ _ fun k _ => (hx _).mul (hw _)

theorem allReal_scatterAdd {w : ℕ} (d : ScatterDims s si u) {x : FVec Ideal s .f32} {upd : FVec Ideal u .f32} (idx : IVec si w)
    (hx : AllReal x) (hu : AllReal upd) : AllReal (Host.scatterAdd (F := Ideal) d x idx upd) := fun i => by
  show IsReal (Ideal.hostScatterAdd d x idx upd i)
  unfold Ideal.hostScatterAdd
  exact (hx i).add (isReal_sum _ _ fun j _ => hu j)

end Cert.Fin

end
-- ==== Proof.LibVariance.lean ====
/-
  The variance of finitely many real numbers, two ways, on the extended reals.

  For real numbers `r i` over a finite index type of `n` elements, with mean `μ = (∑ r) / n`:
  the mean of the squares minus the square of the mean is the mean of the squared deviations,
    `(∑ r²) / n − μ · μ = (∑ (r − μ)²) / n`.
  Over the reals this is the expansion `∑ (r − μ)² = ∑ r² − 2 μ ∑ r + n μ²` with `∑ r = n μ`.  On the extended reals the
  identity is FALSE at an infinite entry (the left side is `⊤ − ⊤ = ⊥`, the right side `⊤`); for entries that are images of
  reals every operation is the real one, the quotient by the real `n ≠ 0` is the product with `1 / n`, and the identity
  is the real one under the coercion.  Both sides are then the image of a non-negative real.
-/
import Idealize.ShloMosaic.PureOps.Ideal.Laws

noncomputable section

namespace Cert.Variance

open Idealize.ShloMosaic

variable {ι : Type} [Fintype ι]

/-- The coercion of a finite real sum is the sum of the coercions. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: mean of squares minus squared mean is the mean of squared deviations. -/
theorem real_identity (r : ι → ℝ) (n : ℝ) (hn : n ≠ 0) (hc : (Fintype.card ι : ℝ) = n) :
    (∑ i, r i * r i) / n - (∑ i, r i) / n * ((∑ i, r i) / n)
      = (∑ i, (r i - (∑ j, r j) / n) * (r i - (∑ j, r j) / n)) / n := by
  have hexp : ∀ μ : ℝ, (∑ i, (r i - μ) * (r i - μ)) = (∑ i, r i * r i) - 2 * μ * (∑ i, r i) + n * (μ * μ) := by
    intro μ
    have h1 : ∀ i, (r i - μ) * (r i - μ) = r i * r i - 2 * μ * r i + μ * μ := fun i => by ring
    simp only [h1, Finset.sum_add_distrib, Finset.sum_sub_distrib, ← Finset.mul_sum, Finset.sum_const,
      Finset.card_univ, nsmul_eq_mul, hc]
    ring
  rw [hexp]
  field_simp
  ring

/-- The mean of squared deviations of real numbers is a non-negative real. -/
theorem real_nonneg (r : ι → ℝ) (n : ℝ) (hn : 0 < n) (μ : ℝ) : 0 ≤ (∑ i, (r i - μ) * (r i - μ)) / n :=
  div_nonneg (Finset.sum_nonneg fun i _ => mul_self_nonneg _) hn.le

/-- The quotient of a real by a non-zero real, on the extended reals, is the real quotient. -/
theorem div_coe_coe (a n : ℝ) (hn : n ≠ 0) : Ideal.div (a : EReal) (n : EReal) = ((a / n : ℝ) : EReal) := by
  rw [Ideal.div_coe hn, ← EReal.coe_mul]
  exact congrArg _ (by field_simp)

/-- The mean of real entries on the extended reals is the real mean. -/
theorem mean_coe (r : ι → ℝ) (n : ℝ) (hn : n ≠ 0) :
    Ideal.div (∑ i, (r i : EReal)) (n : EReal) = (((∑ i, r i) / n : ℝ) : EReal) := by
  rw [← coe_sum, div_coe_coe _ _ hn]

/-- The mean of squared deviations from a real centre, on the extended reals, is the real one. -/
theorem dev_coe (r : ι → ℝ) (n : ℝ) (hn : n ≠ 0) (μ : ℝ) :
    Ideal.div (∑ i, ((r i : EReal) - (μ : EReal)) * ((r i : EReal) - (μ : EReal))) (n : EReal)
      = (((∑ i, (r i - μ) * (r i - μ)) / n : ℝ) : EReal) := by
  have h : ∀ i, ((r i : EReal) - (μ : EReal)) * ((r i : EReal) - (μ : EReal)) = (((r i - μ) * (r i - μ) : ℝ) : EReal) := fun i => by
    rw [← EReal.coe_sub, ← EReal.coe_mul]
  simp only [h]
  rw [← coe_sum, div_coe_coe _ _ hn]

/-- The mean of the squares minus the square of the mean, on the extended reals, is the real one. -/
theorem sq_coe (r : ι → ℝ) (n : ℝ) (hn : n ≠ 0) :
    Ideal.div (∑ i, (r i : EReal) * (r i : EReal)) (n : EReal)
        - Ideal.div (∑ i, (r i : EReal)) (n : EReal) * Ideal.div (∑ i, (r i : EReal)) (n : EReal)
      = (((∑ i, r i * r i) / n - (∑ i, r i) / n * ((∑ i, r i) / n) : ℝ) : EReal) := by
  have h : ∀ i, (r i : EReal) * (r i : EReal) = ((r i * r i : ℝ) : EReal) := fun i => (EReal.coe_mul _ _).symm
  simp only [h]
  rw [mean_coe r n hn, ← coe_sum, div_coe_coe _ _ hn, ← EReal.coe_mul, ← EReal.coe_sub]

/-- THE IDENTITY on the extended reals, for entries that are reals: the running-sums form of the variance is the
    deviations form, both the image of one non-negative real. -/
theorem identity (r : ι → ℝ) (n : ℝ) (hn : 0 < n) (hc : (Fintype.card ι : ℝ) = n) :
    Ideal.div (∑ i, (r i : EReal) * (r i : EReal)) (n : EReal)
        - Ideal.div (∑ i, (r i : EReal)) (n : EReal) * Ideal.div (∑ i, (r i : EReal)) (n : EReal)
      = Ideal.div (∑ i, ((r i : EReal) - Ideal.div (∑ j, (r j : EReal)) (n : EReal))
          * ((r i : EReal) - Ideal.div (∑ j, (r j : EReal)) (n : EReal))) (n : EReal) := by
  rw [sq_coe r n hn.ne', mean_coe r n hn.ne', dev_coe r n hn.ne']
  exact congrArg _ (real_identity r n hn.ne' hc)

/-- The deviations form is the image of a non-negative real. -/
theorem dev_nonneg (r : ι → ℝ) (n : ℝ) (hn : 0 < n) :
    ∃ v : ℝ, 0 ≤ v ∧ Ideal.div (∑ i, ((r i : EReal) - Ideal.div (∑ j, (r j : EReal)) (n : EReal))
          * ((r i : EReal) - Ideal.div (∑ j, (r j : EReal)) (n : EReal))) (n : EReal) = (v : EReal) := by
  rw [mean_coe r n hn.ne', dev_coe r n hn.ne']
  exact ⟨_, real_nonneg r n hn _, rfl⟩

end Cert.Variance

end
-- ==== Proof.Bridge.lean ====
/-
  The network under its two readings of the variance is ONE function when every argument entry is a real number and the graph
  weights are non-negative.

  Real arguments give real queries, keys and scores; the scores are squares times non-negative weights, so each row's sum plus
  the positive guard is a positive real and the quotient is real; so the first hidden layer is a table of reals. For a table of
  reals the two variances are the same non-negative real (Proof/LibVariance.lean), the variance plus the positive guard is a
  positive real whose inverse square root is real, and the normalised, clamped, multiplied layer is again a table of reals:
  the argument repeats for the second layer, and the outputs agree.
-/
import proofs.«157847_j6760278524113_2_alg».proof.Proof.SpecNet
import proofs.«157847_j6760278524113_2_alg».proof.Proof.LibFinite
import proofs.«157847_j6760278524113_2_alg».proof.Proof.LibVariance

noncomputable section

namespace Cert.Bridge

open Idealize.ShloMosaic Idealize.ShloMosaic.ValueIdx Cert.Spec Cert.Fin

/-! ## The words' values -/

theorem nRows_eq : nRows = ((131072 : ℝ) : EReal) := by
  show Ideal.ofBits .f32 0x48000000#32 = _
  simp [Ideal.ofBits, Ideal.ieee, -EReal.coe_mul]; norm_num

theorem cDen_pos : IsPos cDen :=
  ⟨8589935 / 8589934592, by norm_num, by
    show Ideal.ofBits .f32 0x3A83126F#32 = _
    simp [Ideal.ofBits, Ideal.ieee, -EReal.coe_mul]; norm_num⟩

theorem eps_pos : IsPos Spec.eps :=
  ⟨10995116 / 1099511627776, by norm_num, by
    show Ideal.ofBits .f32 0x3727C5AC#32 = _
    simp [Ideal.ofBits, Ideal.ieee, -EReal.coe_mul]; norm_num⟩

theorem zero_eq : Spec.zero = 0 := Ideal.ofBits_zero_f32

/-! ## Non-negative reals -/

/-- The value is a non-negative real number. -/
def IsNN (a : EReal) : Prop := ∃ r : ℝ, 0 ≤ r ∧ a = (r : EReal)

theorem IsNN.isReal {a : EReal} (h : IsNN a) : IsReal a := let ⟨r, _, e⟩ := h; ⟨r, e⟩
theorem isNN_zero : IsNN 0 := ⟨0, le_refl _, EReal.coe_zero.symm⟩
theorem IsNN.add {a b : EReal} (ha : IsNN a) (hb : IsNN b) : IsNN (a + b) := by
  obtain ⟨r, hr, rfl⟩ := ha; obtain ⟨s, hs, rfl⟩ := hb; exact ⟨r + s, add_nonneg hr hs, (EReal.coe_add r s).symm⟩
theorem IsNN.mul {a b : EReal} (ha : IsNN a) (hb : IsNN b) : IsNN (a * b) := by
  obtain ⟨r, hr, rfl⟩ := ha; obtain ⟨s, hs, rfl⟩ := hb; exact ⟨r * s, mul_nonneg hr hs, (EReal.coe_mul r s).symm⟩
theorem isNN_mul_self {a : EReal} (ha : IsReal a) : IsNN (a * a) := by
  obtain ⟨r, rfl⟩ := ha; exact ⟨r * r, mul_self_nonneg r, (EReal.coe_mul r r).symm⟩
theorem isNN_sum {ι : Type} (s : Finset ι) (f : ι → EReal) (h : ∀ i ∈ s, IsNN (f i)) : IsNN (∑ i ∈ s, f i) := by
  classical
  induction s using Finset.induction_on with
  | empty => rw [Finset.sum_empty]; exact isNN_zero
  | insert a s ha ih =>
    rw [Finset.sum_insert ha]
    exact (h a (Finset.mem_insert_self a s)).add (ih fun i hi => h i (Finset.mem_insert_of_mem hi))
theorem IsNN.add_pos {a b : EReal} (ha : IsNN a) (hb : IsPos b) : IsPos (a + b) := by
  obtain ⟨r, hr, rfl⟩ := ha; obtain ⟨s, hs, rfl⟩ := hb; exact ⟨r + s, add_pos_of_nonneg_of_pos hr hs, (EReal.coe_add r s).symm⟩

/-- The inverse square root of a positive real is a real. -/
theorem isReal_rsqrt {a : EReal} (ha : IsPos a) : IsReal (Ideal.rsqrt a) := by
  obtain ⟨r, hr, rfl⟩ := ha
  rw [Ideal.rsqrt_coe, if_neg (not_lt.mpr hr.le), if_neg (ne_of_gt hr)]
  exact isReal_coe _

/-! ## The arguments -/

/-- Every argument entry is a real number, and the graph weights are non-negative. -/
structure RealArgs (x : Args) : Prop where
  s : ∀ i, IsReal (x.s i)
  g : ∀ i, IsReal (x.g i)
  qw : ∀ i, IsReal (x.qw i)
  kw : ∀ i, IsReal (x.kw i)
  w1 : ∀ i, IsReal (x.w1 i)
  b1 : ∀ i, IsReal (x.b1 i)
  g1 : ∀ i, IsReal (x.g1 i)
  be1 : ∀ i, IsReal (x.be1 i)
  w2 : ∀ i, IsReal (x.w2 i)
  b2 : ∀ i, IsReal (x.b2 i)
  g2 : ∀ i, IsReal (x.g2 i)
  be2 : ∀ i, IsReal (x.be2 i)
  wo : ∀ i, IsReal (x.wo i)
  bo : ∀ i, IsReal (x.bo i)
  gnn : ∀ i, IsNN (x.g i)

variable {x : Args} (hx : RealArgs x)

/-! ## The first hidden layer is a table of reals -/

include hx in
theorem proj_real (w : A2 128 32) (hw : ∀ i, IsReal (w i)) (b : Fin 256) (n : Fin 512) (m : Fin 32) : IsReal (projAt x w b n m) :=
  isReal_sum _ _ fun d _ => (hx.s _).mul (hw _)

include hx in
theorem qk_real (b : Fin 256) (n p : Fin 512) : IsReal (qkAt x b n p) :=
  isReal_sum _ _ fun m _ => (proj_real hx x.qw hx.qw b n m).mul (proj_real hx x.kw hx.kw b p m)

include hx in
theorem sc_nn (b : Fin 256) (n p : Fin 512) : IsNN (scAt x b n p) :=
  (isNN_mul_self (qk_real hx b n p)).mul (hx.gnn _)

include hx in
theorem den_pos (b : Fin 256) (n : Fin 512) : IsPos (denAt x b n) :=
  (isNN_sum _ _ fun p _ => sc_nn hx b n p).add_pos cDen_pos

include hx in
theorem att_real (b : Fin 256) (n p : Fin 512) : IsReal (attAt x b n p) :=
  isReal_div (sc_nn hx b n p).isReal (den_pos hx b n)

include hx in
theorem agg_real (b : Fin 256) (n : Fin 512) (d : Fin 128) : IsReal (aggAt x b n d) :=
  isReal_sum _ _ fun p _ => (att_real hx b n p).mul (hx.s _)

include hx in
theorem cat_real (b : Fin 256) (n : Fin 512) (e : Fin 256) : IsReal (catAt x b n e) := by
  unfold catAt
  split
  · exact hx.s _
  · exact agg_real hx b n _

include hx in
theorem h1_real (b : Fin 256) (n : Fin 512) (j : Fin 64) : IsReal (h1At x b n j) :=
  (isReal_sum _ _ fun e _ => (cat_real hx b n e).mul (hx.w1 _)).add (hx.b1 _)

include hx in
theorem h1Row_real (R : Fin 131072) (j : Fin 64) : IsReal (h1Row x R j) := h1_real hx _ _ j

/-! ## Column statistics of a table of reals -/

section Stats
variable (h : Fin 131072 → Fin 64 → EReal) (hr : ∀ R k, IsReal (h R k))

theorem card_rows : ((Fintype.card (Fin 131072) : ℕ) : ℝ) = 131072 := by rw [Fintype.card_fin]; norm_num

include hr in
theorem colMean_real (k : Fin 64) : IsReal (colMean h k) := by
  choose r hrr using fun R => hr R k
  unfold colMean
  simp only [hrr]
  rw [nRows_eq, Variance.mean_coe r 131072 (by norm_num)]
  exact isReal_coe _

include hr in
/-- The two readings of the variance agree on a table of reals. -/
theorem var_eq (k : Fin 64) : colVarSq h k = colVarDev h k := by
  choose r hrr using fun R => hr R k
  unfold colVarSq colVarDev colMean
  simp only [hrr]
  rw [nRows_eq]
  exact Variance.identity r 131072 (by norm_num) card_rows

include hr in
theorem colVarDev_nn (k : Fin 64) : IsNN (colVarDev h k) := by
  choose r hrr using fun R => hr R k
  unfold colVarDev colMean
  simp only [hrr]
  rw [nRows_eq]
  exact Variance.dev_nonneg r 131072 (by norm_num)

end Stats

/-! ## One layer keeps a table of reals real -/

theorem bnRelu_real {a μ v g β : EReal} (ha : IsReal a) (hμ : IsReal μ) (hv : IsNN v) (hg : IsReal g) (hβ : IsReal β) :
    IsReal (bnRelu a μ v g β) := by
  unfold bnRelu
  refine IsReal.max ((((ha.sub hμ).mul (isReal_rsqrt (hv.add_pos eps_pos))).mul hg).add hβ) ?_
  rw [zero_eq]; exact isReal_zero

theorem layer_real {n : Nat} (h : Fin 131072 → Fin 64 → EReal) (hr : ∀ R k, IsReal (h R k)) (μ v : Fin 64 → EReal)
    (hμ : ∀ k, IsReal (μ k)) (hv : ∀ k, IsNN (v k)) (gm bt : A1 64) (hg : ∀ i, IsReal (gm i)) (hb : ∀ i, IsReal (bt i))
    (w : A2 64 n) (hw : ∀ i, IsReal (w i)) (bias : A1 n) (hbias : ∀ i, IsReal (bias i)) (R : Fin 131072) (j : Fin n) :
    IsReal (layerAt h μ v gm bt w bias R j) :=
  (isReal_sum _ _ fun k _ => (bnRelu_real (hr R k) (hμ k) (hv k) (hg _) (hb _)).mul (hw _)).add (hbias _)

/-! ## The two networks agree -/

include hx in
theorem h2Row_eq : h2Row x colVarSq = h2Row x colVarDev := by
  funext R j
  unfold h2Row
  rw [show colVarSq (h1Row x) = colVarDev (h1Row x) from funext fun k => var_eq (h1Row x) (h1Row_real hx) k]

include hx in
theorem h2Row_real (R : Fin 131072) (j : Fin 64) : IsReal (h2Row x colVarDev R j) :=
  layer_real (h1Row x) (h1Row_real hx) _ _ (colMean_real _ (h1Row_real hx)) (colVarDev_nn _ (h1Row_real hx)) x.g1 x.be1 hx.g1 hx.be1
    x.w2 hx.w2 x.b2 hx.b2 R j

include hx in
/-- THE BRIDGE: with real arguments and non-negative graph weights the network is the same under both readings. -/
theorem outAt_eq (b : Fin 256) (n : Fin 512) (a : Fin 16) : outAt x colVarSq b n a = outAt x colVarDev b n a := by
  unfold outAt logitRow
  rw [h2Row_eq hx,
    show colVarSq (h2Row x colVarDev) = colVarDev (h2Row x colVarDev) from funext fun k => var_eq _ (h2Row_real hx) k]

end Cert.Bridge

end
-- ==== Proof.PreDecode.lean ====
/-
  What the precondition says of the arguments. The printed predicate is a conjunction of fifteen `jnp.all`s: for each of the
  fourteen arrays, `|a| < +∞` at every entry, and, for the graph weights, `g ≥ 0` at every entry. A conjunction that is one has
  every conjunct one; an `all` that is one has every entry one; an extended real whose absolute value is below `+∞` is neither
  infinity, so it is the image of a real number.
-/
import proofs.«157847_j6760278524113_2_alg».proof.Proof.Gen.Pre_finite_inputs
import proofs.«157847_j6760278524113_2_alg».proof.Proof.LibFinite
import Idealize.ShloMosaic.Lib.ReduceAll
import Idealize.ShloMosaic.Lib.ValueIdx

noncomputable section

namespace Cert.PreDecode

open Idealize.ShloMosaic Cert.Fin Cert.Pre_finite_inputs Cert.Pre_finite_inputs.Gen

instance : Subsingleton S_.Idx := ⟨fun a b => funext fun d => d.elim0⟩

theorem ofBits_inf : Ideal.ofBits .f32 0x7F800000#32 = ⊤ := by simp [Ideal.ofBits, Ideal.ieee]

/-- `jnp.all(|a| < +∞)` being one makes every entry of `a` a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : IsReal (a i) := by
  have h := Host.reduce_andi_all _ _ hr hu ValueIdx.ix0 e i
  have h' : Ideal.cmp .olt (max (a i) (-(a i))) (Ideal.ofBits .f32 0x7F800000#32) = 1#1 := h
  rw [ofBits_inf] at h'
  have hlt : max (a i) (-(a i)) < ⊤ := by
    by_contra hn
    unfold Ideal.cmp at h'
    simp [hn] at h'
  refine isReal_of_ne (ne_of_lt (lt_of_le_of_lt (le_max_left _ _) hlt)) ?_
  intro hbot
  rw [hbot] at hlt
  simp at hlt

/-- `jnp.all(a ≥ 0)` being one makes every entry of `a` non-negative. -/
theorem nonneg_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .oge a (broadcastInDim s ![] hb (constant (F := Ideal) S_ .f32 0x00000000#32)))
      (constantI S_ 1 1#1) hr hu ValueIdx.ix0 = 1#1) (i : s.Idx) : 0 ≤ a i := by
  have h := Host.reduce_andi_all _ _ hr hu ValueIdx.ix0 e i
  have h' : Ideal.cmp .oge (a i) (Ideal.ofBits .f32 0x00000000#32) = 1#1 := h
  rw [Ideal.ofBits_zero_f32] at h'
  by_contra hn
  unfold Ideal.cmp at h'
  simp [hn] at h'

/-- THE PRECONDITION DECODED. -/
theorem decode (a0 : FVec Ideal S256x512x128 .f32) (a1 : FVec Ideal S256x512x512 .f32) (a2 a3 : FVec Ideal S128x32 .f32)
    (a4 : FVec Ideal S256x64 .f32) (a5 a6 a7 : FVec Ideal S64 .f32) (a8 : FVec Ideal S64x64 .f32) (a9 a10 a11 : FVec Ideal S64 .f32)
    (a12 : FVec Ideal S64x16 .f32) (a13 : FVec Ideal S16 .f32)
    (h : fn (F := Ideal) a0 a1 a2 a3 a4 a5 a6 a7 a8 a9 a10 a11 a12 a13 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i)) ∧ (∀ i, 0 ≤ a1 i) := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩ := h0
  exact ⟨real_of_all a0 _ _ _ c0, real_of_all a1 _ _ _ c1, real_of_all a2 _ _ _ c2, real_of_all a3 _ _ _ c3,
    real_of_all a4 _ _ _ c4, real_of_all a5 _ _ _ c5, real_of_all a6 _ _ _ c6, real_of_all a7 _ _ _ c7, real_of_all a8 _ _ _ c8,
    real_of_all a9 _ _ _ c9, real_of_all a10 _ _ _ c10, real_of_all a11 _ _ _ c11, real_of_all a12 _ _ _ c12,
    real_of_all a13 _ _ _ c13, nonneg_of_all a1 _ _ _ c14⟩

end Cert.PreDecode

end
-- ==== Proof.RefRun.lean ====
/-
  The reference's @main as one straight line of host operations, and its run.

  @main calls three module-local functions: the column variance (twice; it calls the select helper), and the clamp at
  zero (twice). A call means the callee's body on the operands, so the line lists the callee's operations in place,
  over the buffers the call's record names: 131 operations in all, each writing a buffer of its own. Every weakly fair
  execution from a memory with zero counters terminates and leaves each buffer at the operations' fold over the launch
  contents; no operation writes an argument buffer, so the fourteen arguments end as they started.
-/
import proofs.«157847_j6760278524113_2_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem
open Cert.ReferenceIdeal Cert.ReferenceIdeal.Gen

variable {F : FTy → Type} [FloatOps F]

/-- @main's operations in order, each call replaced by its callee's operations over the call's buffers. -/
abbrev ops : List (HloOp τ sig (Elt F)) :=
  [ StableHlo.binary main_arg0 main_arg2 main_v0 ((fun l r => Host.dotGeneral dot_S256x512x128_S128x32_S256x512x32_2_0_01_1_n_n none l r) : (⟨S256x512x128, .f32⟩ : BufTy).Contents (Elt F) → (⟨S128x32, .f32⟩ : BufTy).Contents (Elt F) → (⟨S256x512x32, .f32⟩ : BufTy).Contents (Elt F)),
    StableHlo.binary main_arg0 main_arg3 main_v1 ((fun l r => Host.dotGeneral dot_S256x512x128_S128x32_S256x512x32_2_0_01_1_n_n none l r) : (⟨S256x512x128, .f32⟩ : BufTy).Contents (Elt F) → (⟨S128x32, .f32⟩ : BufTy).Contents (Elt F) → (⟨S256x512x32, .f32⟩ : BufTy).Contents (Elt F)),
    StableHlo.binary main_v0 main_v1 main_v2 ((fun l r => Host.dotGeneral dot_S256x512x32_S256x512x32_S256x512x512_2_2_1_1_0_0 none l r) : (⟨S256x512x32, .f32⟩ : BufTy).Contents (Elt F) → (⟨S256x512x32, .f32⟩ : BufTy).Contents (Elt F) → (⟨S256x512x512, .f32⟩ : BufTy).Contents (Elt F)),
    StableHlo.binary main_v2 main_v2 main_v3 (mulf : (⟨S256x512x512, .f32⟩ : BufTy).Contents (Elt F) → (⟨S256x512x512, .f32⟩ : BufTy).Contents (Elt F) → (⟨S256x512x512, .f32⟩ : BufTy).Contents (Elt F)),
    StableHlo.binary main_v3 main_arg1 main_v4 (mulf : (⟨S256x512x512, .f32⟩ : BufTy).Contents (Elt F) → (⟨S256x512x512, .f32⟩ : BufTy).Contents (Elt F) → (⟨S256x512x512, .f32⟩ : BufTy).Contents (Elt F)),
    StableHlo.nullary main_cst (constant S_ .f32 0x00000000#32),
    StableHlo.binary main_v4 main_cst main_v5 ((fun x v => Host.reduceAdd x v reducesTo_S256x512x512_S256x512_d2 h_S_) : (⟨S256x512x512, .f32⟩ : BufTy).Contents (Elt F) → (⟨S_, .f32⟩ : BufTy).Contents (Elt F) → (⟨S256x512, .f32⟩ : BufTy).Contents (Elt F)),
    StableHlo.unary main_v5 main_v6 (broadcastInDim S256x512x1 ![0, 1] bcast_S256x512_S256x512x1_0_1 : (⟨S256x512, .f32⟩ : BufTy).Contents (Elt F) → (⟨S256x512x1, .f32⟩ : BufTy).Contents (Elt F)),
    StableHlo.nullary main_cst_0 (constant S_ .f32 0x3A83126F#32),
    StableHlo.unary main_cst_0 main_v7 (broadcastInDim S256x512x1 ![] bcast_S_S256x512x1 : (⟨S_, .f32⟩ : BufTy).Contents (Elt F) → (⟨S256x512x1, .f32⟩ : BufTy).Contents (Elt F)),
    StableHlo.binary main_v6 main_v7 main_v8 (addf : (⟨S256x512x1, .f32⟩ : BufTy).Contents (Elt F) → (⟨S256x512x1, .f32⟩ : BufTy).Contents (Elt F) → (⟨S256x512x1, .f32⟩ : BufTy).Contents (Elt F)),
    StableHlo.unary main_v8 main_v9 (broadcastInDim S256x512x512 ![0, 1, 2] bcast_S256x512x1_S256x512x512_0_1_2 : (⟨S256x512x1, .f32⟩ : BufTy).Contents (Elt F) → (⟨S256x512x512, .f32⟩ : BufTy).Contents (Elt F)),
    StableHlo.binary main_v4 main_v9 main_v10 (Host.divf : (⟨S256x512x512, .f32⟩ : BufTy).Contents (Elt F) → (⟨S256x512x512, .f32⟩ : BufTy).Contents (Elt F) → (⟨S256x512x512, .f32⟩ : BufTy).Contents (Elt F)),
    StableHlo.binary main_v10 main_arg0 main_v11 ((fun l r => Host.dotGeneral dot_S256x512x512_S256x512x128_S256x512x128_2_1_1_2_0_0 none l r) : (⟨S256x512x512, .f32⟩ : BufTy).Contents (Elt F) → (⟨S256x512x128, .f32⟩ : BufTy).Contents (Elt F) → (⟨S256x512x128, .f32⟩ : BufTy).Contents (Elt F)),
    StableHlo.binary main_arg0 main_v11 main_v12 ((fun a b => concatenate S256x512x256 2 [⟨S256x512x128, a⟩, ⟨S256x512x128, b⟩] concatenates_S256x512x128_S256x512x128_S256x512x256_d2) : (⟨S256x512x128, .f32⟩ : BufTy).Contents (Elt F) → (⟨S256x512x128, .f32⟩ : BufTy).Contents (Elt F) → (⟨S256x512x256, .f32⟩ : BufTy).Contents (Elt F)),
    StableHlo.reshape main_v12 main_v13 rfl shapeCasts_S256x512x256_S131072x256,
    StableHlo.binary main_v13 main_arg4 main_v14 ((fun l r => Host.dotGeneral dot_S131072x256_S256x64_S131072x64_1_0_0_1_n_n none l r) : (⟨S131072x256, .f32⟩ : BufTy).Contents (Elt F) → (⟨S256x64, .f32⟩ : BufTy).Contents (Elt F) → (⟨S131072x64, .f32⟩ : BufTy).Contents (Elt F)),
    StableHlo.unary main_arg5 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S131072x64 ![0, 1] bcast_S1x64_S131072x64_0_1 : (⟨S1x64, .f32⟩ : BufTy).Contents (Elt F) → (⟨S131072x64, .f32⟩ : BufTy).Contents (Elt F)),
    StableHlo.binary main_v14 main_v16 main_v17 (addf : (⟨S131072x64, .f32⟩ : BufTy).Contents (Elt F) → (⟨S131072x64, .f32⟩ : BufTy).Contents (Elt F) → (⟨S131072x64, .f32⟩ : BufTy).Contents (Elt F)),
    StableHlo.nullary main_cst_1 (constant S_ .f32 0x00000000#32),
    StableHlo.binary main_v17 main_cst_1 main_v18 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.nullary main_cst_2 (constant S_ .f32 0x48000000#32),
    StableHlo.unary main_cst_2 main_v19 (broadcastInDim S64 ![] bcast_S_S64 : (⟨S_, .f32⟩ : BufTy).Contents (Elt F) → (⟨S64, .f32⟩ : BufTy).Contents (Elt F)),
    StableHlo.binary main_v18 main_v19 main_v20 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v17 : TRef sig ⟨S131072x64, .f32⟩) main_call0.cst main_call0.v0 (fun x v => Host.reduceAdd x v reducesTo_S131072x64_S64_d0 h_S_),
    StableHlo.TRef.unary main_call0.v0 main_call0.v1 (broadcastInDim S1x64 ![1] bcast_S64_S1x64_1),
    StableHlo.TRef.nullary main_call0.cst_0 (constant S_ .f32 0x48000000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S131072x64 ![0, 1] bcast_S1x64_S131072x64_0_1),
    StableHlo.TRef.binary (.of main_v17 : TRef sig ⟨S131072x64, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x48000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S131072x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v20 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S131072x64 ![0, 1] bcast_S1x64_S131072x64_0_1 : (⟨S1x64, .f32⟩ : BufTy).Contents (Elt F) → (⟨S131072x64, .f32⟩ : BufTy).Contents (Elt F)),
    StableHlo.binary main_v17 main_v23 main_v24 (subf : (⟨S131072x64, .f32⟩ : BufTy).Contents (Elt F) → (⟨S131072x64, .f32⟩ : BufTy).Contents (Elt F) → (⟨S131072x64, .f32⟩ : BufTy).Contents (Elt F)),
    StableHlo.nullary main_cst_3 (constant S_ .f32 0x3727C5AC#32),
    StableHlo.unary main_cst_3 main_v25 (broadcastInDim S64 ![] bcast_S_S64 : (⟨S_, .f32⟩ : BufTy).Contents (Elt F) → (⟨S64, .f32⟩ : BufTy).Contents (Elt F)),
    StableHlo.binary main_v21 main_v25 main_v26 (addf : (⟨S64, .f32⟩ : BufTy).Contents (Elt F) → (⟨S64, .f32⟩ : BufTy).Contents (Elt F) → (⟨S64, .f32⟩ : BufTy).Contents (Elt F)),
    StableHlo.unary main_v26 main_v27 (Host.rsqrt : (⟨S64, .f32⟩ : BufTy).Contents (Elt F) → (⟨S64, .f32⟩ : BufTy).Contents (Elt F)),
    StableHlo.unary main_v27 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S131072x64 ![0, 1] bcast_S1x64_S131072x64_0_1 : (⟨S1x64, .f32⟩ : BufTy).Contents (Elt F) → (⟨S131072x64, .f32⟩ : BufTy).Contents (Elt F)),
    StableHlo.binary main_v24 main_v29 main_v30 (mulf : (⟨S131072x64, .f32⟩ : BufTy).Contents (Elt F) → (⟨S131072x64, .f32⟩ : BufTy).Contents (Elt F) → (⟨S131072x64, .f32⟩ : BufTy).Contents (Elt F)),
    StableHlo.unary main_arg6 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S131072x64 ![0, 1] bcast_S1x64_S131072x64_0_1 : (⟨S1x64, .f32⟩ : BufTy).Contents (Elt F) → (⟨S131072x64, .f32⟩ : BufTy).Contents (Elt F)),
    StableHlo.binary main_v30 main_v32 main_v33 (mulf : (⟨S131072x64, .f32⟩ : BufTy).Contents (Elt F) → (⟨S131072x64, .f32⟩ : BufTy).Contents (Elt F) → (⟨S131072x64, .f32⟩ : BufTy).Contents (Elt F)),
    StableHlo.unary main_arg7 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S131072x64 ![0, 1] bcast_S1x64_S131072x64_0_1 : (⟨S1x64, .f32⟩ : BufTy).Contents (Elt F) → (⟨S131072x64, .f32⟩ : BufTy).Contents (Elt F)),
    StableHlo.binary main_v33 main_v35 main_v36 (addf : (⟨S131072x64, .f32⟩ : BufTy).Contents (Elt F) → (⟨S131072x64, .f32⟩ : BufTy).Contents (Elt F) → (⟨S131072x64, .f32⟩ : BufTy).Contents (Elt F)),
    StableHlo.TRef.nullary main_call1.cst (constant S_ .f32 0x00000000#32),
    StableHlo.TRef.unary main_call1.cst main_call1.v0 (broadcastInDim S131072x64 ![] bcast_S_S131072x64),
    StableHlo.TRef.binary (.of main_v36 : TRef sig ⟨S131072x64, .f32⟩) main_call1.v0 main_call1.v1 maximumf,
    StableHlo.binary main_v37 main_arg8 main_v38 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.unary main_arg9 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S131072x64 ![0, 1] bcast_S1x64_S131072x64_0_1 : (⟨S1x64, .f32⟩ : BufTy).Contents (Elt F) → (⟨S131072x64, .f32⟩ : BufTy).Contents (Elt F)),
    StableHlo.binary main_v38 main_v40 main_v41 (addf : (⟨S131072x64, .f32⟩ : BufTy).Contents (Elt F) → (⟨S131072x64, .f32⟩ : BufTy).Contents (Elt F) → (⟨S131072x64, .f32⟩ : BufTy).Contents (Elt F)),
    StableHlo.nullary main_cst_4 (constant S_ .f32 0x00000000#32),
    StableHlo.binary main_v41 main_cst_4 main_v42 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.nullary main_cst_5 (constant S_ .f32 0x48000000#32),
    StableHlo.unary main_cst_5 main_v43 (broadcastInDim S64 ![] bcast_S_S64 : (⟨S_, .f32⟩ : BufTy).Contents (Elt F) → (⟨S64, .f32⟩ : BufTy).Contents (Elt F)),
    StableHlo.binary main_v42 main_v43 main_v44 (Host.divf : (⟨S64, .f32⟩ : BufTy).Contents (Elt F) → (⟨S64, .f32⟩ : BufTy).Contents (Elt F) → (⟨S64, .f32⟩ : BufTy).Contents (Elt F)),
    StableHlo.nullary main_c_6 (constantI S_ 32 0#32),
    StableHlo.TRef.nullary main_call2.cst (constant S_ .f32 0x00000000#32),
    StableHlo.TRef.binary (.of main_v41 : TRef sig ⟨S131072x64, .f32⟩) main_call2.cst main_call2.v0 (fun x v => Host.reduceAdd x v reducesTo_S131072x64_S64_d0 h_S_),
    StableHlo.TRef.unary main_call2.v0 main_call2.v1 (broadcastInDim S1x64 ![1] bcast_S64_S1x64_1),
    StableHlo.TRef.nullary main_call2.cst_0 (constant S_ .f32 0x48000000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S131072x64 ![0, 1] bcast_S1x64_S131072x64_0_1),
    StableHlo.TRef.binary (.of main_v41 : TRef sig ⟨S131072x64, .f32⟩) main_call2.v4 main_call2.v5 subf,
    StableHlo.TRef.binary main_call2.v5 main_call2.v5 main_call2.v6 mulf,
    StableHlo.TRef.unary (.of main_c_6 : TRef sig ⟨S_, .i32⟩) main_call2.v7 (sitofp .f32),
    StableHlo.TRef.nullary main_call2.cst_1 (constant S_ .f32 0x48000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S131072x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v44 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S131072x64 ![0, 1] bcast_S1x64_S131072x64_0_1 : (⟨S1x64, .f32⟩ : BufTy).Contents (Elt F) → (⟨S131072x64, .f32⟩ : BufTy).Contents (Elt F)),
    StableHlo.binary main_v41 main_v47 main_v48 (subf : (⟨S131072x64, .f32⟩ : BufTy).Contents (Elt F) → (⟨S131072x64, .f32⟩ : BufTy).Contents (Elt F) → (⟨S131072x64, .f32⟩ : BufTy).Contents (Elt F)),
    StableHlo.nullary main_cst_7 (constant S_ .f32 0x3727C5AC#32),
    StableHlo.unary main_cst_7 main_v49 (broadcastInDim S64 ![] bcast_S_S64 : (⟨S_, .f32⟩ : BufTy).Contents (Elt F) → (⟨S64, .f32⟩ : BufTy).Contents (Elt F)),
    StableHlo.binary main_v45 main_v49 main_v50 (addf : (⟨S64, .f32⟩ : BufTy).Contents (Elt F) → (⟨S64, .f32⟩ : BufTy).Contents (Elt F) → (⟨S64, .f32⟩ : BufTy).Contents (Elt F)),
    StableHlo.unary main_v50 main_v51 (Host.rsqrt : (⟨S64, .f32⟩ : BufTy).Contents (Elt F) → (⟨S64, .f32⟩ : BufTy).Contents (Elt F)),
    StableHlo.unary main_v51 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S131072x64 ![0, 1] bcast_S1x64_S131072x64_0_1 : (⟨S1x64, .f32⟩ : BufTy).Contents (Elt F) → (⟨S131072x64, .f32⟩ : BufTy).Contents (Elt F)),
    StableHlo.binary main_v48 main_v53 main_v54 (mulf : (⟨S131072x64, .f32⟩ : BufTy).Contents (Elt F) → (⟨S131072x64, .f32⟩ : BufTy).Contents (Elt F) → (⟨S131072x64, .f32⟩ : BufTy).Contents (Elt F)),
    StableHlo.unary main_arg10 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S131072x64 ![0, 1] bcast_S1x64_S131072x64_0_1 : (⟨S1x64, .f32⟩ : BufTy).Contents (Elt F) → (⟨S131072x64, .f32⟩ : BufTy).Contents (Elt F)),
    StableHlo.binary main_v54 main_v56 main_v57 (mulf : (⟨S131072x64, .f32⟩ : BufTy).Contents (Elt F) → (⟨S131072x64, .f32⟩ : BufTy).Contents (Elt F) → (⟨S131072x64, .f32⟩ : BufTy).Contents (Elt F)),
    StableHlo.unary main_arg11 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S131072x64 ![0, 1] bcast_S1x64_S131072x64_0_1 : (⟨S1x64, .f32⟩ : BufTy).Contents (Elt F) → (⟨S131072x64, .f32⟩ : BufTy).Contents (Elt F)),
    StableHlo.binary main_v57 main_v59 main_v60 (addf : (⟨S131072x64, .f32⟩ : BufTy).Contents (Elt F) → (⟨S131072x64, .f32⟩ : BufTy).Contents (Elt F) → (⟨S131072x64, .f32⟩ : BufTy).Contents (Elt F)),
    StableHlo.TRef.nullary main_call3.cst (constant S_ .f32 0x00000000#32),
    StableHlo.TRef.unary main_call3.cst main_call3.v0 (broadcastInDim S131072x64 ![] bcast_S_S131072x64),
    StableHlo.TRef.binary (.of main_v60 : TRef sig ⟨S131072x64, .f32⟩) main_call3.v0 main_call3.v1 maximumf,
    StableHlo.binary main_v61 main_arg12 main_v62 ((fun l r => Host.dotGeneral dot_S131072x64_S64x16_S131072x16_1_0_0_1_n_n none l r) : (⟨S131072x64, .f32⟩ : BufTy).Contents (Elt F) → (⟨S64x16, .f32⟩ : BufTy).Contents (Elt F) → (⟨S131072x16, .f32⟩ : BufTy).Contents (Elt F)),
    StableHlo.unary main_arg13 main_v63 (broadcastInDim S1x16 ![1] bcast_S16_S1x16_1 : (⟨S16, .f32⟩ : BufTy).Contents (Elt F) → (⟨S1x16, .f32⟩ : BufTy).Contents (Elt F)),
    StableHlo.unary main_v63 main_v64 (broadcastInDim S131072x16 ![0, 1] bcast_S1x16_S131072x16_0_1 : (⟨S1x16, .f32⟩ : BufTy).Contents (Elt F) → (⟨S131072x16, .f32⟩ : BufTy).Contents (Elt F)),
    StableHlo.binary main_v62 main_v64 main_v65 (addf : (⟨S131072x16, .f32⟩ : BufTy).Contents (Elt F) → (⟨S131072x16, .f32⟩ : BufTy).Contents (Elt F) → (⟨S131072x16, .f32⟩ : BufTy).Contents (Elt F)),
    StableHlo.unary main_v65 main_v66 (Host.negf : (⟨S131072x16, .f32⟩ : BufTy).Contents (Elt F) → (⟨S131072x16, .f32⟩ : BufTy).Contents (Elt F)),
    StableHlo.unary main_v66 main_v67 (Host.exp : (⟨S131072x16, .f32⟩ : BufTy).Contents (Elt F) → (⟨S131072x16, .f32⟩ : BufTy).Contents (Elt F)),
    StableHlo.nullary main_cst_8 (constant S_ .f32 0x3F800000#32),
    StableHlo.unary main_cst_8 main_v68 (broadcastInDim S131072x16 ![] bcast_S_S131072x16 : (⟨S_, .f32⟩ : BufTy).Contents (Elt F) → (⟨S131072x16, .f32⟩ : BufTy).Contents (Elt F)),
    StableHlo.binary main_v68 main_v67 main_v69 (addf : (⟨S131072x16, .f32⟩ : BufTy).Contents (Elt F) → (⟨S131072x16, .f32⟩ : BufTy).Contents (Elt F) → (⟨S131072x16, .f32⟩ : BufTy).Contents (Elt F)),
    StableHlo.nullary main_cst_9 (constant S_ .f32 0x3F800000#32),
    StableHlo.unary main_cst_9 main_v70 (broadcastInDim S131072x16 ![] bcast_S_S131072x16 : (⟨S_, .f32⟩ : BufTy).Contents (Elt F) → (⟨S131072x16, .f32⟩ : BufTy).Contents (Elt F)),
    StableHlo.binary main_v70 main_v69 main_v71 (Host.divf : (⟨S131072x16, .f32⟩ : BufTy).Contents (Elt F) → (⟨S131072x16, .f32⟩ : BufTy).Contents (Elt F) → (⟨S131072x16, .f32⟩ : BufTy).Contents (Elt F)),
    StableHlo.reshape main_v71 main_v72 rfl shapeCasts_S131072x16_S256x512x16 ]

set_option maxRecDepth 4096 in
set_option maxHeartbeats 4000000 in
/-- @main is that straight line: its two windows and the three functions unfolded, sequencing reassociated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., reshape_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation writes an argument buffer: each argument ends as it started. -/

theorem arg_eq0 (V : Valuation τ sig (Elt F)) :
    after ops V (main_arg0 : DevRef τ sig) = V (main_arg0 : DevRef τ sig) := by
  after_results_simp

theorem arg_eq1 (V : Valuation τ sig (Elt F)) :
    after ops V (main_arg1 : DevRef τ sig) = V (main_arg1 : DevRef τ sig) := by
  after_results_simp

theorem arg_eq2 (V : Valuation τ sig (Elt F)) :
    after ops V (main_arg2 : DevRef τ sig) = V (main_arg2 : DevRef τ sig) := by
  after_results_simp

theorem arg_eq3 (V : Valuation τ sig (Elt F)) :
    after ops V (main_arg3 : DevRef τ sig) = V (main_arg3 : DevRef τ sig) := by
  after_results_simp

theorem arg_eq4 (V : Valuation τ sig (Elt F)) :
    after ops V (main_arg4 : DevRef τ sig) = V (main_arg4 : DevRef τ sig) := by
  after_results_simp

theorem arg_eq5 (V : Valuation τ sig (Elt F)) :
    after ops V (main_arg5 : DevRef τ sig) = V (main_arg5 : DevRef τ sig) := by
  after_results_simp

theorem arg_eq6 (V : Valuation τ sig (Elt F)) :
    after ops V (main_arg6 : DevRef τ sig) = V (main_arg6 : DevRef τ sig) := by
  after_results_simp

theorem arg_eq7 (V : Valuation τ sig (Elt F)) :
    after ops V (main_arg7 : DevRef τ sig) = V (main_arg7 : DevRef τ sig) := by
  after_results_simp

theorem arg_eq8 (V : Valuation τ sig (Elt F)) :
    after ops V (main_arg8 : DevRef τ sig) = V (main_arg8 : DevRef τ sig) := by
  after_results_simp

theorem arg_eq9 (V : Valuation τ sig (Elt F)) :
    after ops V (main_arg9 : DevRef τ sig) = V (main_arg9 : DevRef τ sig) := by
  after_results_simp

theorem arg_eq10 (V : Valuation τ sig (Elt F)) :
    after ops V (main_arg10 : DevRef τ sig) = V (main_arg10 : DevRef τ sig) := by
  after_results_simp

theorem arg_eq11 (V : Valuation τ sig (Elt F)) :
    after ops V (main_arg11 : DevRef τ sig) = V (main_arg11 : DevRef τ sig) := by
  after_results_simp

theorem arg_eq12 (V : Valuation τ sig (Elt F)) :
    after ops V (main_arg12 : DevRef τ sig) = V (main_arg12 : DevRef τ sig) := by
  after_results_simp

theorem arg_eq13 (V : Valuation τ sig (Elt F)) :
    after ops V (main_arg13 : DevRef τ sig) = V (main_arg13 : DevRef τ sig) := by
  after_results_simp

end Cert.ReferenceIdeal.RefRun

end
-- ==== Proof.RefVals.lean ====
/-
  The reference's values, one definition per host operation: each buffer's final contents as the operation's function of
  its operands' final contents, down to the fourteen argument buffers read from a valuation `V`.
-/
import proofs.«157847_j6760278524113_2_alg».proof.Proof.Gen.ReferenceIdeal
import Idealize.ShloMosaic.Lib.StableHlo.Run

noncomputable section

namespace Cert.ReferenceIdeal.RefVals

open Idealize.ShloMosaic Idealize.ShloMosaic.TcCoe Idealize.ShloMosaic.StableHlo Idealize.SL.Sem
open Cert.ReferenceIdeal Cert.ReferenceIdeal.Gen

variable {F : FTy → Type} [FloatOps F]

def val_main_arg0 (V : Valuation τ sig (Elt F)) : FVec F S256x512x128 .f32 := V (main_arg0 : DevRef τ sig)
def val_main_arg1 (V : Valuation τ sig (Elt F)) : FVec F S256x512x512 .f32 := V (main_arg1 : DevRef τ sig)
def val_main_arg2 (V : Valuation τ sig (Elt F)) : FVec F S128x32 .f32 := V (main_arg2 : DevRef τ sig)
def val_main_arg3 (V : Valuation τ sig (Elt F)) : FVec F S128x32 .f32 := V (main_arg3 : DevRef τ sig)
def val_main_arg4 (V : Valuation τ sig (Elt F)) : FVec F S256x64 .f32 := V (main_arg4 : DevRef τ sig)
def val_main_arg5 (V : Valuation τ sig (Elt F)) : FVec F S64 .f32 := V (main_arg5 : DevRef τ sig)
def val_main_arg6 (V : Valuation τ sig (Elt F)) : FVec F S64 .f32 := V (main_arg6 : DevRef τ sig)
def val_main_arg7 (V : Valuation τ sig (Elt F)) : FVec F S64 .f32 := V (main_arg7 : DevRef τ sig)
def val_main_arg8 (V : Valuation τ sig (Elt F)) : FVec F S64x64 .f32 := V (main_arg8 : DevRef τ sig)
def val_main_arg9 (V : Valuation τ sig (Elt F)) : FVec F S64 .f32 := V (main_arg9 : DevRef τ sig)
def val_main_arg10 (V : Valuation τ sig (Elt F)) : FVec F S64 .f32 := V (main_arg10 : DevRef τ sig)
def val_main_arg11 (V : Valuation τ sig (Elt F)) : FVec F S64 .f32 := V (main_arg11 : DevRef τ sig)
def val_main_arg12 (V : Valuation τ sig (Elt F)) : FVec F S64x16 .f32 := V (main_arg12 : DevRef τ sig)
def val_main_arg13 (V : Valuation τ sig (Elt F)) : FVec F S16 .f32 := V (main_arg13 : DevRef τ sig)

def val_main_v0 (V : Valuation τ sig (Elt F)) : FVec F S256x512x32 .f32 := Host.dotGeneral dot_S256x512x128_S128x32_S256x512x32_2_0_01_1_n_n none (val_main_arg0 V) (val_main_arg2 V)
def val_main_v1 (V : Valuation τ sig (Elt F)) : FVec F S256x512x32 .f32 := Host.dotGeneral dot_S256x512x128_S128x32_S256x512x32_2_0_01_1_n_n none (val_main_arg0 V) (val_main_arg3 V)
def val_main_v2 (V : Valuation τ sig (Elt F)) : FVec F S256x512x512 .f32 := Host.dotGeneral dot_S256x512x32_S256x512x32_S256x512x512_2_2_1_1_0_0 none (val_main_v0 V) (val_main_v1 V)
def val_main_v3 (V : Valuation τ sig (Elt F)) : FVec F S256x512x512 .f32 := mulf (val_main_v2 V) (val_main_v2 V)
def val_main_v4 (V : Valuation τ sig (Elt F)) : FVec F S256x512x512 .f32 := mulf (val_main_v3 V) (val_main_arg1 V)
def val_main_cst (V : Valuation τ sig (Elt F)) : FVec F S_ .f32 := constant S_ .f32 0x00000000#32
def val_main_v5 (V : Valuation τ sig (Elt F)) : FVec F S256x512 .f32 := Host.reduceAdd (val_main_v4 V) (val_main_cst V) reducesTo_S256x512x512_S256x512_d2 h_S_
def val_main_v6 (V : Valuation τ sig (Elt F)) : FVec F S256x512x1 .f32 := (broadcastInDim S256x512x1 ![0, 1] bcast_S256x512_S256x512x1_0_1) (val_main_v5 V)
def val_main_cst_0 (V : Valuation τ sig (Elt F)) : FVec F S_ .f32 := constant S_ .f32 0x3A83126F#32
def val_main_v7 (V : Valuation τ sig (Elt F)) : FVec F S256x512x1 .f32 := (broadcastInDim S256x512x1 ![] bcast_S_S256x512x1) (val_main_cst_0 V)
def val_main_v8 (V : Valuation τ sig (Elt F)) : FVec F S256x512x1 .f32 := addf (val_main_v6 V) (val_main_v7 V)
def val_main_v9 (V : Valuation τ sig (Elt F)) : FVec F S256x512x512 .f32 := (broadcastInDim S256x512x512 ![0, 1, 2] bcast_S256x512x1_S256x512x512_0_1_2) (val_main_v8 V)
def val_main_v10 (V : Valuation τ sig (Elt F)) : FVec F S256x512x512 .f32 := Host.divf (val_main_v4 V) (val_main_v9 V)
def val_main_v11 (V : Valuation τ sig (Elt F)) : FVec F S256x512x128 .f32 := Host.dotGeneral dot_S256x512x512_S256x512x128_S256x512x128_2_1_1_2_0_0 none (val_main_v10 V) (val_main_arg0 V)
def val_main_v12 (V : Valuation τ sig (Elt F)) : FVec F S256x512x256 .f32 := concatenate S256x512x256 2 [⟨S256x512x128, (val_main_arg0 V)⟩, ⟨S256x512x128, (val_main_v11 V)⟩] concatenates_S256x512x128_S256x512x128_S256x512x256_d2
def val_main_v13 (V : Valuation τ sig (Elt F)) : FVec F S131072x256 .f32 := shapeCast S131072x256 (val_main_v12 V) shapeCasts_S256x512x256_S131072x256
def val_main_v14 (V : Valuation τ sig (Elt F)) : FVec F S131072x64 .f32 := Host.dotGeneral dot_S131072x256_S256x64_S131072x64_1_0_0_1_n_n none (val_main_v13 V) (val_main_arg4 V)
def val_main_v15 (V : Valuation τ sig (Elt F)) : FVec F S1x64 .f32 := (broadcastInDim S1x64 ![1] bcast_S64_S1x64_1) (val_main_arg5 V)
def val_main_v16 (V : Valuation τ sig (Elt F)) : FVec F S131072x64 .f32 := (broadcastInDim S131072x64 ![0, 1] bcast_S1x64_S131072x64_0_1) (val_main_v15 V)
def val_main_v17 (V : Valuation τ sig (Elt F)) : FVec F S131072x64 .f32 := addf (val_main_v14 V) (val_main_v16 V)
def val_main_cst_1 (V : Valuation τ sig (Elt F)) : FVec F S_ .f32 := constant S_ .f32 0x00000000#32
def val_main_v18 (V : Valuation τ sig (Elt F)) : FVec F S64 .f32 := Host.reduceAdd (val_main_v17 V) (val_main_cst_1 V) reducesTo_S131072x64_S64_d0 h_S_
def val_main_cst_2 (V : Valuation τ sig (Elt F)) : FVec F S_ .f32 := constant S_ .f32 0x48000000#32
def val_main_v19 (V : Valuation τ sig (Elt F)) : FVec F S64 .f32 := (broadcastInDim S64 ![] bcast_S_S64) (val_main_cst_2 V)
def val_main_v20 (V : Valuation τ sig (Elt F)) : FVec F S64 .f32 := Host.divf (val_main_v18 V) (val_main_v19 V)
def val_main_c (V : Valuation τ sig (Elt F)) : IVec S_ 32 := constantI S_ 32 0#32
def val_main_call0_cst (V : Valuation τ sig (Elt F)) : FVec F S_ .f32 := constant S_ .f32 0x00000000#32
def val_main_call0_v0 (V : Valuation τ sig (Elt F)) : FVec F S64 .f32 := Host.reduceAdd (val_main_v17 V) (val_main_call0_cst V) reducesTo_S131072x64_S64_d0 h_S_
def val_main_call0_v1 (V : Valuation τ sig (Elt F)) : FVec F S1x64 .f32 := (broadcastInDim S1x64 ![1] bcast_S64_S1x64_1) (val_main_call0_v0 V)
def val_main_call0_cst_0 (V : Valuation τ sig (Elt F)) : FVec F S_ .f32 := constant S_ .f32 0x48000000#32
def val_main_call0_v2 (V : Valuation τ sig (Elt F)) : FVec F S1x64 .f32 := (broadcastInDim S1x64 ![] bcast_S_S1x64) (val_main_call0_cst_0 V)
def val_main_call0_v3 (V : Valuation τ sig (Elt F)) : FVec F S1x64 .f32 := Host.divf (val_main_call0_v1 V) (val_main_call0_v2 V)
def val_main_call0_v4 (V : Valuation τ sig (Elt F)) : FVec F S131072x64 .f32 := (broadcastInDim S131072x64 ![0, 1] bcast_S1x64_S131072x64_0_1) (val_main_call0_v3 V)
def val_main_call0_v5 (V : Valuation τ sig (Elt F)) : FVec F S131072x64 .f32 := subf (val_main_v17 V) (val_main_call0_v4 V)
def val_main_call0_v6 (V : Valuation τ sig (Elt F)) : FVec F S131072x64 .f32 := mulf (val_main_call0_v5 V) (val_main_call0_v5 V)
def val_main_call0_v7 (V : Valuation τ sig (Elt F)) : FVec F S_ .f32 := (sitofp .f32) (val_main_c V)
def val_main_call0_cst_1 (V : Valuation τ sig (Elt F)) : FVec F S_ .f32 := constant S_ .f32 0x48000000#32
def val_main_call0_v8 (V : Valuation τ sig (Elt F)) : FVec F S_ .f32 := subf (val_main_call0_cst_1 V) (val_main_call0_v7 V)
def val_main_call0_cst_2 (V : Valuation τ sig (Elt F)) : FVec F S_ .f32 := constant S_ .f32 0x00000000#32
def val_main_call0_v9 (V : Valuation τ sig (Elt F)) : FVec F S64 .f32 := Host.reduceAdd (val_main_call0_v6 V) (val_main_call0_cst_2 V) reducesTo_S131072x64_S64_d0 h_S_
def val_main_call0_v10 (V : Valuation τ sig (Elt F)) : FVec F S64 .f32 := (broadcastInDim S64 ![] bcast_S_S64) (val_main_call0_v8 V)
def val_main_call0_v11 (V : Valuation τ sig (Elt F)) : FVec F S64 .f32 := Host.divf (val_main_call0_v9 V) (val_main_call0_v10 V)
def val_main_call0_cst_3 (V : Valuation τ sig (Elt F)) : FVec F S_ .f32 := constant S_ .f32 0x00000000#32
def val_main_call0_v12 (V : Valuation τ sig (Elt F)) : IVec S_ 1 := (cmpf .ogt) (val_main_call0_v8 V) (val_main_call0_cst_3 V)
def val_main_call0_cst_4 (V : Valuation τ sig (Elt F)) : FVec F S_ .f32 := constant S_ .f32 0x7FC00000#32
def val_main_call0_call0_v0 (V : Valuation τ sig (Elt F)) : FVec F S_ .f32 := (val_main_call0_cst_4 V)
def val_main_call0_call0_v1 (V : Valuation τ sig (Elt F)) : FVec F S64 .f32 := (broadcastInDim S64 ![] bcast_S_S64) (val_main_call0_call0_v0 V)
def val_main_v21 (V : Valuation τ sig (Elt F)) : FVec F S64 .f32 := select (broadcastInDim S64 ![] bcast_S_S64 (val_main_call0_v12 V)) (val_main_call0_v11 V) (val_main_call0_call0_v1 V)
def val_main_v22 (V : Valuation τ sig (Elt F)) : FVec F S1x64 .f32 := (broadcastInDim S1x64 ![1] bcast_S64_S1x64_1) (val_main_v20 V)
def val_main_v23 (V : Valuation τ sig (Elt F)) : FVec F S131072x64 .f32 := (broadcastInDim S131072x64 ![0, 1] bcast_S1x64_S131072x64_0_1) (val_main_v22 V)
def val_main_v24 (V : Valuation τ sig (Elt F)) : FVec F S131072x64 .f32 := subf (val_main_v17 V) (val_main_v23 V)
def val_main_cst_3 (V : Valuation τ sig (Elt F)) : FVec F S_ .f32 := constant S_ .f32 0x3727C5AC#32
def val_main_v25 (V : Valuation τ sig (Elt F)) : FVec F S64 .f32 := (broadcastInDim S64 ![] bcast_S_S64) (val_main_cst_3 V)
def val_main_v26 (V : Valuation τ sig (Elt F)) : FVec F S64 .f32 := addf (val_main_v21 V) (val_main_v25 V)
def val_main_v27 (V : Valuation τ sig (Elt F)) : FVec F S64 .f32 := Host.rsqrt (val_main_v26 V)
def val_main_v28 (V : Valuation τ sig (Elt F)) : FVec F S1x64 .f32 := (broadcastInDim S1x64 ![1] bcast_S64_S1x64_1) (val_main_v27 V)
def val_main_v29 (V : Valuation τ sig (Elt F)) : FVec F S131072x64 .f32 := (broadcastInDim S131072x64 ![0, 1] bcast_S1x64_S131072x64_0_1) (val_main_v28 V)
def val_main_v30 (V : Valuation τ sig (Elt F)) : FVec F S131072x64 .f32 := mulf (val_main_v24 V) (val_main_v29 V)
def val_main_v31 (V : Valuation τ sig (Elt F)) : FVec F S1x64 .f32 := (broadcastInDim S1x64 ![1] bcast_S64_S1x64_1) (val_main_arg6 V)
def val_main_v32 (V : Valuation τ sig (Elt F)) : FVec F S131072x64 .f32 := (broadcastInDim S131072x64 ![0, 1] bcast_S1x64_S131072x64_0_1) (val_main_v31 V)
def val_main_v33 (V : Valuation τ sig (Elt F)) : FVec F S131072x64 .f32 := mulf (val_main_v30 V) (val_main_v32 V)
def val_main_v34 (V : Valuation τ sig (Elt F)) : FVec F S1x64 .f32 := (broadcastInDim S1x64 ![1] bcast_S64_S1x64_1) (val_main_arg7 V)
def val_main_v35 (V : Valuation τ sig (Elt F)) : FVec F S131072x64 .f32 := (broadcastInDim S131072x64 ![0, 1] bcast_S1x64_S131072x64_0_1) (val_main_v34 V)
def val_main_v36 (V : Valuation τ sig (Elt F)) : FVec F S131072x64 .f32 := addf (val_main_v33 V) (val_main_v35 V)
def val_main_call1_cst (V : Valuation τ sig (Elt F)) : FVec F S_ .f32 := constant S_ .f32 0x00000000#32
def val_main_call1_v0 (V : Valuation τ sig (Elt F)) : FVec F S131072x64 .f32 := (broadcastInDim S131072x64 ![] bcast_S_S131072x64) (val_main_call1_cst V)
def val_main_v37 (V : Valuation τ sig (Elt F)) : FVec F S131072x64 .f32 := maximumf (val_main_v36 V) (val_main_call1_v0 V)
def val_main_v38 (V : Valuation τ sig (Elt F)) : FVec F S131072x64 .f32 := Host.dotGeneral dot_S131072x64_S64x64_S131072x64_1_0_0_1_n_n none (val_main_v37 V) (val_main_arg8 V)
def val_main_v39 (V : Valuation τ sig (Elt F)) : FVec F S1x64 .f32 := (broadcastInDim S1x64 ![1] bcast_S64_S1x64_1) (val_main_arg9 V)
def val_main_v40 (V : Valuation τ sig (Elt F)) : FVec F S131072x64 .f32 := (broadcastInDim S131072x64 ![0, 1] bcast_S1x64_S131072x64_0_1) (val_main_v39 V)
def val_main_v41 (V : Valuation τ sig (Elt F)) : FVec F S131072x64 .f32 := addf (val_main_v38 V) (val_main_v40 V)
def val_main_cst_4 (V : Valuation τ sig (Elt F)) : FVec F S_ .f32 := constant S_ .f32 0x00000000#32
def val_main_v42 (V : Valuation τ sig (Elt F)) : FVec F S64 .f32 := Host.reduceAdd (val_main_v41 V) (val_main_cst_4 V) reducesTo_S131072x64_S64_d0 h_S_
def val_main_cst_5 (V : Valuation τ sig (Elt F)) : FVec F S_ .f32 := constant S_ .f32 0x48000000#32
def val_main_v43 (V : Valuation τ sig (Elt F)) : FVec F S64 .f32 := (broadcastInDim S64 ![] bcast_S_S64) (val_main_cst_5 V)
def val_main_v44 (V : Valuation τ sig (Elt F)) : FVec F S64 .f32 := Host.divf (val_main_v42 V) (val_main_v43 V)
def val_main_c_6 (V : Valuation τ sig (Elt F)) : IVec S_ 32 := constantI S_ 32 0#32
def val_main_call2_cst (V : Valuation τ sig (Elt F)) : FVec F S_ .f32 := constant S_ .f32 0x00000000#32
def val_main_call2_v0 (V : Valuation τ sig (Elt F)) : FVec F S64 .f32 := Host.reduceAdd (val_main_v41 V) (val_main_call2_cst V) reducesTo_S131072x64_S64_d0 h_S_
def val_main_call2_v1 (V : Valuation τ sig (Elt F)) : FVec F S1x64 .f32 := (broadcastInDim S1x64 ![1] bcast_S64_S1x64_1) (val_main_call2_v0 V)
def val_main_call2_cst_0 (V : Valuation τ sig (Elt F)) : FVec F S_ .f32 := constant S_ .f32 0x48000000#32
def val_main_call2_v2 (V : Valuation τ sig (Elt F)) : FVec F S1x64 .f32 := (broadcastInDim S1x64 ![] bcast_S_S1x64) (val_main_call2_cst_0 V)
def val_main_call2_v3 (V : Valuation τ sig (Elt F)) : FVec F S1x64 .f32 := Host.divf (val_main_call2_v1 V) (val_main_call2_v2 V)
def val_main_call2_v4 (V : Valuation τ sig (Elt F)) : FVec F S131072x64 .f32 := (broadcastInDim S131072x64 ![0, 1] bcast_S1x64_S131072x64_0_1) (val_main_call2_v3 V)
def val_main_call2_v5 (V : Valuation τ sig (Elt F)) : FVec F S131072x64 .f32 := subf (val_main_v41 V) (val_main_call2_v4 V)
def val_main_call2_v6 (V : Valuation τ sig (Elt F)) : FVec F S131072x64 .f32 := mulf (val_main_call2_v5 V) (val_main_call2_v5 V)
def val_main_call2_v7 (V : Valuation τ sig (Elt F)) : FVec F S_ .f32 := (sitofp .f32) (val_main_c_6 V)
def val_main_call2_cst_1 (V : Valuation τ sig (Elt F)) : FVec F S_ .f32 := constant S_ .f32 0x48000000#32
def val_main_call2_v8 (V : Valuation τ sig (Elt F)) : FVec F S_ .f32 := subf (val_main_call2_cst_1 V) (val_main_call2_v7 V)
def val_main_call2_cst_2 (V : Valuation τ sig (Elt F)) : FVec F S_ .f32 := constant S_ .f32 0x00000000#32
def val_main_call2_v9 (V : Valuation τ sig (Elt F)) : FVec F S64 .f32 := Host.reduceAdd (val_main_call2_v6 V) (val_main_call2_cst_2 V) reducesTo_S131072x64_S64_d0 h_S_
def val_main_call2_v10 (V : Valuation τ sig (Elt F)) : FVec F S64 .f32 := (broadcastInDim S64 ![] bcast_S_S64) (val_main_call2_v8 V)
def val_main_call2_v11 (V : Valuation τ sig (Elt F)) : FVec F S64 .f32 := Host.divf (val_main_call2_v9 V) (val_main_call2_v10 V)
def val_main_call2_cst_3 (V : Valuation τ sig (Elt F)) : FVec F S_ .f32 := constant S_ .f32 0x00000000#32
def val_main_call2_v12 (V : Valuation τ sig (Elt F)) : IVec S_ 1 := (cmpf .ogt) (val_main_call2_v8 V) (val_main_call2_cst_3 V)
def val_main_call2_cst_4 (V : Valuation τ sig (Elt F)) : FVec F S_ .f32 := constant S_ .f32 0x7FC00000#32
def val_main_call2_call0_v0 (V : Valuation τ sig (Elt F)) : FVec F S_ .f32 := (val_main_call2_cst_4 V)
def val_main_call2_call0_v1 (V : Valuation τ sig (Elt F)) : FVec F S64 .f32 := (broadcastInDim S64 ![] bcast_S_S64) (val_main_call2_call0_v0 V)
def val_main_v45 (V : Valuation τ sig (Elt F)) : FVec F S64 .f32 := select (broadcastInDim S64 ![] bcast_S_S64 (val_main_call2_v12 V)) (val_main_call2_v11 V) (val_main_call2_call0_v1 V)
def val_main_v46 (V : Valuation τ sig (Elt F)) : FVec F S1x64 .f32 := (broadcastInDim S1x64 ![1] bcast_S64_S1x64_1) (val_main_v44 V)
def val_main_v47 (V : Valuation τ sig (Elt F)) : FVec F S131072x64 .f32 := (broadcastInDim S131072x64 ![0, 1] bcast_S1x64_S131072x64_0_1) (val_main_v46 V)
def val_main_v48 (V : Valuation τ sig (Elt F)) : FVec F S131072x64 .f32 := subf (val_main_v41 V) (val_main_v47 V)
def val_main_cst_7 (V : Valuation τ sig (Elt F)) : FVec F S_ .f32 := constant S_ .f32 0x3727C5AC#32
def val_main_v49 (V : Valuation τ sig (Elt F)) : FVec F S64 .f32 := (broadcastInDim S64 ![] bcast_S_S64) (val_main_cst_7 V)
def val_main_v50 (V : Valuation τ sig (Elt F)) : FVec F S64 .f32 := addf (val_main_v45 V) (val_main_v49 V)
def val_main_v51 (V : Valuation τ sig (Elt F)) : FVec F S64 .f32 := Host.rsqrt (val_main_v50 V)
def val_main_v52 (V : Valuation τ sig (Elt F)) : FVec F S1x64 .f32 := (broadcastInDim S1x64 ![1] bcast_S64_S1x64_1) (val_main_v51 V)
def val_main_v53 (V : Valuation τ sig (Elt F)) : FVec F S131072x64 .f32 := (broadcastInDim S131072x64 ![0, 1] bcast_S1x64_S131072x64_0_1) (val_main_v52 V)
def val_main_v54 (V : Valuation τ sig (Elt F)) : FVec F S131072x64 .f32 := mulf (val_main_v48 V) (val_main_v53 V)
def val_main_v55 (V : Valuation τ sig (Elt F)) : FVec F S1x64 .f32 := (broadcastInDim S1x64 ![1] bcast_S64_S1x64_1) (val_main_arg10 V)
def val_main_v56 (V : Valuation τ sig (Elt F)) : FVec F S131072x64 .f32 := (broadcastInDim S131072x64 ![0, 1] bcast_S1x64_S131072x64_0_1) (val_main_v55 V)
def val_main_v57 (V : Valuation τ sig (Elt F)) : FVec F S131072x64 .f32 := mulf (val_main_v54 V) (val_main_v56 V)
def val_main_v58 (V : Valuation τ sig (Elt F)) : FVec F S1x64 .f32 := (broadcastInDim S1x64 ![1] bcast_S64_S1x64_1) (val_main_arg11 V)
def val_main_v59 (V : Valuation τ sig (Elt F)) : FVec F S131072x64 .f32 := (broadcastInDim S131072x64 ![0, 1] bcast_S1x64_S131072x64_0_1) (val_main_v58 V)
def val_main_v60 (V : Valuation τ sig (Elt F)) : FVec F S131072x64 .f32 := addf (val_main_v57 V) (val_main_v59 V)
def val_main_call3_cst (V : Valuation τ sig (Elt F)) : FVec F S_ .f32 := constant S_ .f32 0x00000000#32
def val_main_call3_v0 (V : Valuation τ sig (Elt F)) : FVec F S131072x64 .f32 := (broadcastInDim S131072x64 ![] bcast_S_S131072x64) (val_main_call3_cst V)
def val_main_v61 (V : Valuation τ sig (Elt F)) : FVec F S131072x64 .f32 := maximumf (val_main_v60 V) (val_main_call3_v0 V)
def val_main_v62 (V : Valuation τ sig (Elt F)) : FVec F S131072x16 .f32 := Host.dotGeneral dot_S131072x64_S64x16_S131072x16_1_0_0_1_n_n none (val_main_v61 V) (val_main_arg12 V)
def val_main_v63 (V : Valuation τ sig (Elt F)) : FVec F S1x16 .f32 := (broadcastInDim S1x16 ![1] bcast_S16_S1x16_1) (val_main_arg13 V)
def val_main_v64 (V : Valuation τ sig (Elt F)) : FVec F S131072x16 .f32 := (broadcastInDim S131072x16 ![0, 1] bcast_S1x16_S131072x16_0_1) (val_main_v63 V)
def val_main_v65 (V : Valuation τ sig (Elt F)) : FVec F S131072x16 .f32 := addf (val_main_v62 V) (val_main_v64 V)
def val_main_v66 (V : Valuation τ sig (Elt F)) : FVec F S131072x16 .f32 := Host.negf (val_main_v65 V)
def val_main_v67 (V : Valuation τ sig (Elt F)) : FVec F S131072x16 .f32 := Host.exp (val_main_v66 V)
def val_main_cst_8 (V : Valuation τ sig (Elt F)) : FVec F S_ .f32 := constant S_ .f32 0x3F800000#32
def val_main_v68 (V : Valuation τ sig (Elt F)) : FVec F S131072x16 .f32 := (broadcastInDim S131072x16 ![] bcast_S_S131072x16) (val_main_cst_8 V)
def val_main_v69 (V : Valuation τ sig (Elt F)) : FVec F S131072x16 .f32 := addf (val_main_v68 V) (val_main_v67 V)
def val_main_cst_9 (V : Valuation τ sig (Elt F)) : FVec F S_ .f32 := constant S_ .f32 0x3F800000#32
def val_main_v70 (V : Valuation τ sig (Elt F)) : FVec F S131072x16 .f32 := (broadcastInDim S131072x16 ![] bcast_S_S131072x16) (val_main_cst_9 V)
def val_main_v71 (V : Valuation τ sig (Elt F)) : FVec F S131072x16 .f32 := Host.divf (val_main_v70 V) (val_main_v69 V)
def val_main_v72 (V : Valuation τ sig (Elt F)) : FVec F S256x512x16 .f32 := shapeCast S256x512x16 (val_main_v71 V) shapeCasts_S131072x16_S256x512x16

end Cert.ReferenceIdeal.RefVals

end
-- ==== Proof.RefRead.lean ====
/-
  The operations' fold read at the result buffer: every buffer is written once, so the fold there is the last operation's
  function of its operands' folds, down to the argument buffers — the value `val_main_v72` of Proof/RefVals.lean.
-/
import proofs.«157847_j6760278524113_2_alg».proof.Proof.RefRun
import proofs.«157847_j6760278524113_2_alg».proof.Proof.RefVals

noncomputable section

namespace Cert.ReferenceIdeal.RefRead

open Idealize.ShloMosaic Idealize.ShloMosaic.TcCoe Idealize.ShloMosaic.StableHlo Idealize.SL.Sem
open Cert.ReferenceIdeal Cert.ReferenceIdeal.Gen Cert.ReferenceIdeal.RefRun Cert.ReferenceIdeal.RefVals

variable {F : FTy → Type} [FloatOps F]

set_option maxRecDepth 65536 in
set_option maxHeartbeats 4000000 in
/-- The fold at the result buffer is the composed value. -/
theorem read_v72 (V : Valuation τ sig (Elt F)) :
    after ops V (main_v72 : DevRef τ sig) = val_main_v72 V := by
  after_results_simp
  rfl

end Cert.ReferenceIdeal.RefRead

end
-- ==== Proof.RefMath.lean ====
/-
  The reference's host operations read at an entry, and from them the reference's result as the network of
  Proof/SpecNet.lean with the variance read as the mean of squared deviations.

  First the operations at an index, for any arrays: the two products with a leading batch axis and the product of a stack of
  matrices with one matrix, as sums over the contracted coordinate; the host sums along one axis with their initial value;
  the broadcasts that copy a vector along rows, a table's entry along a last axis; the concatenation of two rows; the two
  reshapes between [256, 512, ·] and [131072, ·] (row R = 512 b + n). Then the reference's values stage by stage.
-/
import proofs.«157847_j6760278524113_2_alg».proof.Proof.RefVals
import proofs.«157847_j6760278524113_2_alg».proof.Proof.SpecNet
import Idealize.ShloMosaic.Lib.IdealHost
import Idealize.ShloMosaic.Lib.Pipeline.Value
import Idealize.ShloMosaic.Lib.StackMember
import Idealize.ShloMosaic.Lib.KernelVsHost

noncomputable section

namespace Cert.ReferenceIdeal.RefMath

open Idealize.ShloMosaic Idealize.ShloMosaic.ValueIdx Idealize.ShloMosaic.TcCoe Idealize.ShloMosaic.StableHlo
open Cert.ReferenceIdeal Cert.ReferenceIdeal.Gen Cert.ReferenceIdeal.RefVals Cert.Spec

/-! ## Operations at an index -/

section Ops
variable {α : Type}

/-- A stack of matrices times one matrix — `dot_general` of [G, M, K] with [K, N], contracting axes 2 and 0 — at
    `(g, a, b)`: the sum over the contracted coordinate. -/
theorem dot_rows_apply {G M K N : Nat} {φ₁ φ₂ : FTy}
    (w : DotDims.WF ⟨3, ![G, M, K]⟩ ⟨2, ![K, N]⟩ ⟨3, ![G, M, N]⟩ [2] [0] [0, 1] [1] [] [])
    (prec : Option ContractPrecision) (A : FVec Ideal ⟨3, ![G, M, K]⟩ φ₁) (B : FVec Ideal ⟨2, ![K, N]⟩ φ₂)
    (g : Fin G) (a : Fin M) (b : Fin N) :
    Host.dotGeneral (⟨[2], [0], [0, 1], [1], [], [], w⟩ : DotDims _ _ _) prec A B (ix3 g a b)
      = ∑ c : Fin K, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) K rfl rfl).symm]
  refine Finset.sum_congr rfl fun c _ => ?_
  have c3 := contrEquiv1_symm_val
    (⟨[2], [0], [0, 1], [1], [], [], w⟩ : DotDims ⟨3, ![G, M, K]⟩ ⟨2, ![K, N]⟩ ⟨3, ![G, M, N]⟩) K rfl rfl c
  have l3 : (⟨[2], [0], [0, 1], [1], [], [], w⟩ : DotDims ⟨3, ![G, M, K]⟩ ⟨2, ![K, N]⟩ ⟨3, ![G, M, N]⟩).lhsIdx (ix3 g a b)
      ((contrEquiv1 _ K rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, M, K]⟩ ⟨2, ![K, N]⟩ ⟨3, ![G, M, N]⟩).rhsIdx (ix3 g a b)
      ((contrEquiv1 _ K rfl rfl).symm c) = ix2 c b := by
    funext ax; apply Fin.ext
    match ax with
    | ⟨0, _⟩ => simp [DotDims.rhsIdx]; exact c3
    | ⟨1, _⟩ => simp [DotDims.rhsIdx]; rfl
  rw [l3, r3]

/-- Two stacks multiplied matrix by matrix, the second transposed — `dot_general` of [G, M, K] with [G, N, K], batch
    axes 0 and 0, contracting axes 2 and 2 — at `(g, a, b)`. -/
theorem dot_stackNT_apply {G M K N : Nat} {φ₁ φ₂ : FTy}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂)
    (g : Fin G) (a : Fin M) (b : Fin N) :
    Host.dotGeneral (⟨[2], [2], [1], [1], [0], [0], w⟩ : DotDims _ _ _) prec A B (ix3 g a b)
      = ∑ c : Fin K, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) K rfl rfl).symm]
  refine Finset.sum_congr rfl fun c _ => ?_
  have c3 := contrEquiv1_symm_val
    (⟨[2], [2], [1], [1], [0], [0], w⟩ : DotDims ⟨3, ![G, M, K]⟩ ⟨3, ![G, N, K]⟩ ⟨3, ![G, M, N]⟩) K rfl rfl c
  have l3 : (⟨[2], [2], [1], [1], [0], [0], w⟩ : DotDims ⟨3, ![G, M, K]⟩ ⟨3, ![G, N, K]⟩ ⟨3, ![G, M, N]⟩).lhsIdx (ix3 g a b)
      ((contrEquiv1 _ K rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, M, K]⟩ ⟨3, ![G, N, K]⟩ ⟨3, ![G, M, N]⟩).rhsIdx (ix3 g a b)
      ((contrEquiv1 _ K rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The host's sum of an [n, m] array over its rows, from the initial value `v`, at column `j`. -/
theorem hostColsum_apply {n m : Nat} (x : FVec Ideal ⟨2, ![n, m]⟩ .f32) (v : FVec Ideal ⟨0, ![]⟩ .f32)
    (h' : Shape.ReducesTo ⟨2, ![n, m]⟩ [0] ⟨1, ![m]⟩) (h : Shape.Reduces ⟨2, ![n, m]⟩ [0] ⟨1, ![m]⟩)
    (hu : 0 < (⟨0, ![]⟩ : Shape).numel) (j : Fin m) :
    Host.reduceAdd x v h' hu (ix1 j) = v (Shape.Idx.first hu) + ∑ r : Fin n, x (ix2 r j) := by
  rw [hostReduceAdd_apply]
  refine (Ideal.hostReduceAdd_single h' h x _ (ix1 j)).trans ?_
  refine congrArg (v (Shape.Idx.first hu) + ·) ?_
  refine Finset.sum_congr rfl fun r _ => congrArg x ?_
  funext c
  apply Fin.ext
  match c with
  | ⟨0, _⟩ => rfl
  | ⟨1, _⟩ => rfl

/-- The host's sum of a [G, M, P] array over its last axis, from the initial value `v`, at `(g, a)`. -/
theorem hostLastsum_apply {G M P : Nat} (x : FVec Ideal ⟨3, ![G, M, P]⟩ .f32) (v : FVec Ideal ⟨0, ![]⟩ .f32)
    (h' : Shape.ReducesTo ⟨3, ![G, M, P]⟩ [2] ⟨2, ![G, M]⟩) (h : Shape.Reduces ⟨3, ![G, M, P]⟩ [2] ⟨2, ![G, M]⟩)
    (hu : 0 < (⟨0, ![]⟩ : Shape).numel) (g : Fin G) (a : Fin M) :
    Host.reduceAdd x v h' hu (ix2 g a) = v (Shape.Idx.first hu) + ∑ p : Fin P, x (ix3 g a p) := by
  rw [hostReduceAdd_apply]
  refine (Ideal.hostReduceAdd_single h' h x _ (ix2 g a)).trans ?_
  refine congrArg (v (Shape.Idx.first hu) + ·) ?_
  refine Finset.sum_congr rfl fun p _ => congrArg x ?_
  funext c
  apply Fin.ext
  match c with
  | ⟨0, _⟩ => rfl
  | ⟨1, _⟩ => rfl
  | ⟨2, _⟩ => rfl

/-- A vector laid as the one row of a [1, n] matrix (`broadcast_in_dim` along axis 1), at `(0, j)`. -/
theorem bcast_vec_row_apply {n : Nat} (h : (⟨1, ![n]⟩ : Shape).BroadcastsInDim ⟨2, ![1, n]⟩ ![1])
    (x : (⟨1, ![n]⟩ : Shape).Idx → α) (r : Fin 1) (j : Fin n) :
    broadcastInDim ⟨2, ![1, n]⟩ ![1] h x (ix2 r j) = x (ix1 j) := by
  refine broadcastInDim_apply ![1] h x (ix2 r j) (ix1 j) ?_
  intro a
  match a with
  | ⟨0, _⟩ =>
    show j.val = if n = 1 then 0 else j.val
    split
    · have := j.isLt; omega
    · rfl

/-- A [G, M] table given a last axis of one entry, at `(g, a, 0)`. -/
theorem bcast_tab_unit_apply {G M : Nat} (h : (⟨2, ![G, M]⟩ : Shape).BroadcastsInDim ⟨3, ![G, M, 1]⟩ ![0, 1])
    (x : (⟨2, ![G, M]⟩ : Shape).Idx → α) (g : Fin G) (a : Fin M) (z : Fin 1) :
    broadcastInDim ⟨3, ![G, M, 1]⟩ ![0, 1] h x (ix3 g a z) = x (ix2 g a) := by
  refine broadcastInDim_apply ![0, 1] h x (ix3 g a z) (ix2 g a) ?_
  intro c
  match c with
  | ⟨0, _⟩ =>
    show g.val = if G = 1 then 0 else g.val
    split
    · have := g.isLt; omega
    · rfl
  | ⟨1, _⟩ =>
    show a.val = if M = 1 then 0 else a.val
    split
    · have := a.isLt; omega
    · rfl

/-- A [G, M, 1] table copied along a last axis of `P` entries, at `(g, a, p)`. -/
theorem bcast_unit_last_apply {G M P : Nat} (h : (⟨3, ![G, M, 1]⟩ : Shape).BroadcastsInDim ⟨3, ![G, M, P]⟩ ![0, 1, 2])
    (x : (⟨3, ![G, M, 1]⟩ : Shape).Idx → α) (g : Fin G) (a : Fin M) (p : Fin P) :
    broadcastInDim ⟨3, ![G, M, P]⟩ ![0, 1, 2] h x (ix3 g a p) = x (ix3 g a (0 : Fin 1)) := by
  refine broadcastInDim_apply ![0, 1, 2] h x (ix3 g a p) (ix3 g a (0 : Fin 1)) ?_
  intro c
  match c with
  | ⟨0, _⟩ =>
    show g.val = if G = 1 then 0 else g.val
    split
    · have := g.isLt; omega
    · rfl
  | ⟨1, _⟩ =>
    show a.val = if M = 1 then 0 else a.val
    split
    · have := a.isLt; omega
    · rfl
  | ⟨2, _⟩ =>
    show (0 : ℕ) = if (1 : ℕ) = 1 then 0 else p.val
    simp

end Ops

section Ops2
variable {α : Type}

/-- The two [256, 512, 128] arrays joined along the last axis, at `(b, n, e)`: the first below 128, the second from there. -/
theorem cat_apply (x₁ x₂ : S256x512x128.Idx → α) (b : Fin 256) (n : Fin 512) (e : Fin 256) :
    concatenate S256x512x256 2 [⟨S256x512x128, x₁⟩, ⟨S256x512x128, x₂⟩]
        concatenates_S256x512x128_S256x512x128_S256x512x256_d2 (ix3 b n e)
      = if h : e.val < 128 then x₁ (ix3 b n ⟨e.val, h⟩)
        else x₂ (ix3 b n ⟨e.val - 128, by have := e.isLt; omega⟩) := by
  split
  · next h =>
    refine concatenate_pair_apply_left 2 x₁ x₂ _ (ix3 b n e) rfl (ix3 b n (⟨e.val, h⟩ : Fin 128)) ?_
    intro c
    match c with
    | ⟨0, _⟩ => rfl
    | ⟨1, _⟩ => rfl
    | ⟨2, _⟩ => rfl
  · next h =>
    refine concatenate_pair_apply_right 2 x₁ x₂ _ (ix3 b n e) rfl rfl
      (ix3 b n (⟨e.val - 128, by have := e.isLt; omega⟩ : Fin 128)) ?_ ?_
    · intro c hc
      match c with
      | ⟨0, _⟩ => rfl
      | ⟨1, _⟩ => rfl
      | ⟨2, _⟩ => exact absurd rfl hc
    · show (e.val - 128) + 128 = e.val
      omega

/-- The [256, 512, 256] array as [131072, 256], at `(R, e)`: row `R % 512` of batch `R / 512`. -/
theorem flat_apply (x : S256x512x256.Idx → α) (R : Fin 131072) (e : Fin 256) :
    shapeCast S131072x256 x shapeCasts_S256x512x256_S131072x256 (ix2 R e)
      = x (ix3 (⟨R.val / 512, by have := R.isLt; omega⟩ : Fin 256) (⟨R.val % 512, Nat.mod_lt _ (by decide)⟩ : Fin 512) e) := by
  refine shapeCast_apply x _ (ix2 R e) _ ?_
  rw [Shape.rowMajor_val_three, Shape.rowMajor_val_two]
  show (R.val / 512 * 512 + R.val % 512) * 256 + e.val = R.val * 256 + e.val
  have := Nat.div_add_mod R.val 512
  omega

/-- The [131072, 16] array as [256, 512, 16], at `(b, n, a)`: row `512 b + n`. -/
theorem unflat_apply (x : S131072x16.Idx → α) (b : Fin 256) (n : Fin 512) (a : Fin 16) :
    shapeCast S256x512x16 x shapeCasts_S131072x16_S256x512x16 (ix3 b n a)
      = x (ix2 (⟨512 * b.val + n.val, by have := b.isLt; have := n.isLt; omega⟩ : Fin 131072) a) := by
  refine shapeCast_apply x _ (ix3 b n a) _ ?_
  rw [Shape.rowMajor_val_three, Shape.rowMajor_val_two]
  show (512 * b.val + n.val) * 16 + a.val = (b.val * 512 + n.val) * 16 + a.val
  omega

end Ops2

/-! ## The words the reference evaluates: the row count and the integer zero -/

/-- The word `0x48000000` denotes `131072`. -/
theorem ofBits_nRows : Ideal.ofBits .f32 0x48000000#32 = ((131072 : ℝ) : EReal) := by
  simp [Ideal.ofBits, Ideal.ieee, -EReal.coe_mul]; norm_num

/-- The row count is positive. -/
theorem nRows_pos : (0 : EReal) < nRows := by
  show (0 : EReal) < Ideal.ofBits .f32 0x48000000#32
  rw [ofBits_nRows]
  exact EReal.coe_pos.mpr (by norm_num)

/-- The integer zero converted to a float is zero. -/
theorem sitofp_zero_word : (FloatOps.sitofp .f32 (0#32 : BitVec 32) : Ideal .f32) = 0 := by
  show ((((0#32 : BitVec 32).toInt : ℤ) : ℝ) : EReal) = 0
  simp

/-! ## The arguments as the network's, and the reference's values stage by stage -/

end Cert.ReferenceIdeal.RefMath

namespace Cert.ReferenceIdeal.RefValue

open Idealize.ShloMosaic Idealize.ShloMosaic.TcCoe Idealize.ShloMosaic.StableHlo Cert.ReferenceIdeal

/-- The fourteen argument arrays, read from a valuation, as the network's arguments. -/
def refArgs (V : Valuation τ sig (Elt Ideal)) : Cert.Spec.Args :=
  ⟨V (main_arg0 : DevRef τ sig), V (main_arg1 : DevRef τ sig), V (main_arg2 : DevRef τ sig), V (main_arg3 : DevRef τ sig),
    V (main_arg4 : DevRef τ sig), V (main_arg5 : DevRef τ sig), V (main_arg6 : DevRef τ sig), V (main_arg7 : DevRef τ sig),
    V (main_arg8 : DevRef τ sig), V (main_arg9 : DevRef τ sig), V (main_arg10 : DevRef τ sig), V (main_arg11 : DevRef τ sig),
    V (main_arg12 : DevRef τ sig), V (main_arg13 : DevRef τ sig)⟩

end Cert.ReferenceIdeal.RefValue

namespace Cert.ReferenceIdeal.RefMath

open Idealize.ShloMosaic Idealize.ShloMosaic.ValueIdx Idealize.ShloMosaic.TcCoe Idealize.ShloMosaic.StableHlo
open Cert.ReferenceIdeal Cert.ReferenceIdeal.Gen Cert.ReferenceIdeal.RefVals Cert.Spec
open Cert.ReferenceIdeal.RefValue

section HostUnary
variable {s : Shape} {φ : FTy}
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_negf_apply (a : FVec Ideal s φ) (i : s.Idx) : Host.negf a i = -(a i) := rfl
end HostUnary

section Stages
variable (V : Valuation τ sig (Elt Ideal))

/-! ### Attention and the first linear layer -/

theorem v0_apply (b : Fin 256) (n : Fin 512) (m : Fin 32) :
    val_main_v0 V (ix3 b n m) = projAt (refArgs V) (refArgs V).qw b n m := by
  unfold val_main_v0 projAt
  exact dot_rows_apply dot_S256x512x128_S128x32_S256x512x32_2_0_01_1_n_n_wf none _ _ b n m

theorem v1_apply (b : Fin 256) (n : Fin 512) (m : Fin 32) :
    val_main_v1 V (ix3 b n m) = projAt (refArgs V) (refArgs V).kw b n m := by
  unfold val_main_v1 projAt
  exact dot_rows_apply dot_S256x512x128_S128x32_S256x512x32_2_0_01_1_n_n_wf none _ _ b n m

theorem v2_apply (b : Fin 256) (n p : Fin 512) : val_main_v2 V (ix3 b n p) = qkAt (refArgs V) b n p := by
  unfold val_main_v2 qkAt
  refine (dot_stackNT_apply dot_S256x512x32_S256x512x32_S256x512x512_2_2_1_1_0_0_wf none _ _ b n p).trans ?_
  exact Finset.sum_congr rfl fun m _ => by rw [v0_apply, v1_apply]

theorem v4_apply (b : Fin 256) (n p : Fin 512) : val_main_v4 V (ix3 b n p) = scAt (refArgs V) b n p := by
  unfold val_main_v4 val_main_v3 scAt
  rw [mulf_apply, mulf_apply, v2_apply]
  all_goals rfl

theorem v5_apply (b : Fin 256) (n : Fin 512) : val_main_v5 V (ix2 b n) = ∑ p : Fin 512, scAt (refArgs V) b n p := by
  have hR : Shape.Reduces S256x512x512 [2] S256x512 := by decide
  unfold val_main_v5 val_main_cst
  rw [hostLastsum_apply _ _ _ hR, constant_apply, Ideal.ofBits_zero_f32, zero_add]
  exact Finset.sum_congr rfl fun p _ => v4_apply V b n p

theorem v8_apply (b : Fin 256) (n : Fin 512) (z : Fin 1) : val_main_v8 V (ix3 b n z) = denAt (refArgs V) b n := by
  unfold val_main_v8 val_main_v6 val_main_v7 val_main_cst_0 denAt
  rw [addf_apply, bcast_tab_unit_apply, broadcastInDim_scalar_apply, v5_apply]
  all_goals rfl

theorem v10_apply (b : Fin 256) (n p : Fin 512) : val_main_v10 V (ix3 b n p) = attAt (refArgs V) b n p := by
  unfold val_main_v10 val_main_v9 attAt
  rw [hostDivf_apply, bcast_unit_last_apply, v4_apply, v8_apply]

theorem v11_apply (b : Fin 256) (n : Fin 512) (d : Fin 128) : val_main_v11 V (ix3 b n d) = aggAt (refArgs V) b n d := by
  unfold val_main_v11 aggAt
  refine (StackMember.dotGeneral_stack_apply dot_S256x512x512_S256x512x128_S256x512x128_2_1_1_2_0_0_wf none _ _ b n d).trans ?_
  exact Finset.sum_congr rfl fun p _ => by rw [v10_apply]; rfl

theorem v12_apply (b : Fin 256) (n : Fin 512) (e : Fin 256) : val_main_v12 V (ix3 b n e) = catAt (refArgs V) b n e := by
  unfold val_main_v12 catAt
  rw [cat_apply]
  by_cases h : e.val < 128
  · rw [dif_pos h, dif_pos h]
    rfl
  · rw [dif_neg h, dif_neg h]
    exact v11_apply V b n _

theorem v17_apply (R : Fin 131072) (j : Fin 64) : val_main_v17 V (ix2 R j) = h1Row (refArgs V) R j := by
  have hd : dot_S131072x256_S256x64_S131072x64_1_0_0_1_n_n = DotDims.plain 131072 256 64 := rfl
  unfold val_main_v17 val_main_v14 val_main_v16 val_main_v15 val_main_v13 h1Row h1At
  rw [addf_apply, broadcastInDim_oneRow_apply, bcast_vec_row_apply, hd]
  refine congrArg₂ (· + ·) ?_ rfl
  refine (StackMember.dotGeneral_plain_apply none _ _ R j).trans ?_
  exact Finset.sum_congr rfl fun e _ => by rw [flat_apply, v12_apply]; rfl

/-! ### The first normalised layer -/

theorem main_v18_apply (k : Fin 64) : val_main_v18 V (ix1 k) = ∑ R : Fin 131072, h1Row (refArgs V) R k := by
  have hR : Shape.Reduces S131072x64 [0] S64 := by decide
  unfold val_main_v18 val_main_cst_1
  rw [hostColsum_apply _ _ _ hR, constant_apply, Ideal.ofBits_zero_f32, zero_add]
  exact Finset.sum_congr rfl fun R _ => v17_apply V R k

theorem main_v20_apply (k : Fin 64) : val_main_v20 V (ix1 k) = colMean (h1Row (refArgs V)) k := by
  unfold val_main_v20 val_main_v19 val_main_cst_2 colMean
  rw [hostDivf_apply, broadcastInDim_scalar_apply, main_v18_apply]
  all_goals rfl

theorem main_call0_v0_apply (k : Fin 64) : val_main_call0_v0 V (ix1 k) = ∑ R : Fin 131072, h1Row (refArgs V) R k := by
  have hR : Shape.Reduces S131072x64 [0] S64 := by decide
  unfold val_main_call0_v0 val_main_call0_cst
  rw [hostColsum_apply _ _ _ hR, constant_apply, Ideal.ofBits_zero_f32, zero_add]
  exact Finset.sum_congr rfl fun R _ => v17_apply V R k

theorem main_call0_v3_apply (z : Fin 1) (k : Fin 64) : val_main_call0_v3 V (ix2 z k) = colMean (h1Row (refArgs V)) k := by
  unfold val_main_call0_v3 val_main_call0_v1 val_main_call0_v2 val_main_call0_cst_0 colMean
  rw [hostDivf_apply, bcast_vec_row_apply, broadcastInDim_scalar_apply, main_call0_v0_apply]
  all_goals rfl

theorem main_call0_v6_apply (R : Fin 131072) (k : Fin 64) :
    val_main_call0_v6 V (ix2 R k) = (h1Row (refArgs V) R k - colMean (h1Row (refArgs V)) k) * (h1Row (refArgs V) R k - colMean (h1Row (refArgs V)) k) := by
  unfold val_main_call0_v6 val_main_call0_v5 val_main_call0_v4
  rw [mulf_apply, subf_apply, broadcastInDim_oneRow_apply, main_call0_v3_apply, v17_apply]

theorem main_call0_v8_apply : val_main_call0_v8 V ix0 = nRows := by
  unfold val_main_call0_v8 val_main_call0_cst_1 val_main_call0_v7 val_main_c
  rw [subf_apply, sitofp_apply]
  show Ideal.ofBits .f32 0x48000000#32 - FloatOps.sitofp .f32 (0#32 : BitVec 32) = nRows
  rw [sitofp_zero_word, sub_zero]

theorem main_call0_v11_apply (k : Fin 64) : val_main_call0_v11 V (ix1 k) = colVarDev (h1Row (refArgs V)) k := by
  have hR : Shape.Reduces S131072x64 [0] S64 := by decide
  unfold val_main_call0_v11 val_main_call0_v10 val_main_call0_v9 val_main_call0_cst_2 colVarDev
  rw [hostDivf_apply, broadcastInDim_scalar_apply, main_call0_v8_apply, hostColsum_apply _ _ _ hR, constant_apply,
    Ideal.ofBits_zero_f32, zero_add]
  refine congrArg (Ideal.div · nRows) ?_
  exact Finset.sum_congr rfl fun R _ => main_call0_v6_apply V R k

theorem main_v21_apply (k : Fin 64) : val_main_v21 V (ix1 k) = colVarDev (h1Row (refArgs V)) k := by
  have hc : Ideal.cmp .ogt nRows 0 = 1#1 := by
    show BitVec.ofBool (decide ((0 : EReal) < nRows)) = 1#1
    rw [decide_eq_true nRows_pos]
    rfl
  unfold val_main_v21 val_main_call0_v12 val_main_call0_cst_3
  rw [select_apply, broadcastInDim_scalar_apply, cmpf_apply, main_call0_v8_apply, constant_apply, Ideal.ofBits_zero_f32]
  show Scalar.select (Ideal.cmp .ogt nRows 0) _ _ = _
  rw [hc, select_one, main_call0_v11_apply]

theorem main_v37_apply (R : Fin 131072) (k : Fin 64) :
    val_main_v37 V (ix2 R k)
      = bnRelu (h1Row (refArgs V) R k) (colMean (h1Row (refArgs V)) k) (colVarDev (h1Row (refArgs V)) k) ((refArgs V).g1 (ix1 k)) ((refArgs V).be1 (ix1 k)) := by
  unfold val_main_v37 val_main_call1_v0 val_main_call1_cst val_main_v36 val_main_v35 val_main_v34 val_main_v33 val_main_v32 val_main_v31
    val_main_v30 val_main_v29 val_main_v28 val_main_v27 val_main_v26 val_main_v25 val_main_cst_3 val_main_v24 val_main_v23 val_main_v22 bnRelu
  rw [maximumf_apply, addf_apply, mulf_apply, mulf_apply, subf_apply,
    broadcastInDim_oneRow_apply, broadcastInDim_oneRow_apply, broadcastInDim_oneRow_apply, broadcastInDim_oneRow_apply,
    bcast_vec_row_apply, bcast_vec_row_apply, bcast_vec_row_apply, bcast_vec_row_apply,
    host_rsqrt_apply, addf_apply, broadcastInDim_scalar_apply, broadcastInDim_scalar_apply, v17_apply, main_v20_apply, main_v21_apply]
  rfl

theorem main_v41_apply (R : Fin 131072) (j : Fin 64) : val_main_v41 V (ix2 R j) = h2Row (refArgs V) colVarDev R j := by
  have hd : dot_S131072x64_S64x64_S131072x64_1_0_0_1_n_n = DotDims.plain 131072 64 64 := rfl
  unfold val_main_v41 val_main_v38 val_main_v40 val_main_v39 h2Row layerAt
  rw [addf_apply, broadcastInDim_oneRow_apply, bcast_vec_row_apply, hd]
  refine congrArg₂ (· + ·) ?_ rfl
  refine (StackMember.dotGeneral_plain_apply none _ _ R j).trans ?_
  exact Finset.sum_congr rfl fun k _ => by rw [main_v37_apply]; rfl

/-! ### The second normalised layer -/

theorem main_v42_apply (k : Fin 64) : val_main_v42 V (ix1 k) = ∑ R : Fin 131072, h2Row (refArgs V) colVarDev R k := by
  have hR : Shape.Reduces S131072x64 [0] S64 := by decide
  unfold val_main_v42 val_main_cst_4
  rw [hostColsum_apply _ _ _ hR, constant_apply, Ideal.ofBits_zero_f32, zero_add]
  exact Finset.sum_congr rfl fun R _ => main_v41_apply V R k

theorem main_v44_apply (k : Fin 64) : val_main_v44 V (ix1 k) = colMean (h2Row (refArgs V) colVarDev) k := by
  unfold val_main_v44 val_main_v43 val_main_cst_5 colMean
  rw [hostDivf_apply, broadcastInDim_scalar_apply, main_v42_apply]
  all_goals rfl

theorem main_call2_v0_apply (k : Fin 64) : val_main_call2_v0 V (ix1 k) = ∑ R : Fin 131072, h2Row (refArgs V) colVarDev R k := by
  have hR : Shape.Reduces S131072x64 [0] S64 := by decide
  unfold val_main_call2_v0 val_main_call2_cst
  rw [hostColsum_apply _ _ _ hR, constant_apply, Ideal.ofBits_zero_f32, zero_add]
  exact Finset.sum_congr rfl fun R _ => main_v41_apply V R k

theorem main_call2_v3_apply (z : Fin 1) (k : Fin 64) : val_main_call2_v3 V (ix2 z k) = colMean (h2Row (refArgs V) colVarDev) k := by
  unfold val_main_call2_v3 val_main_call2_v1 val_main_call2_v2 val_main_call2_cst_0 colMean
  rw [hostDivf_apply, bcast_vec_row_apply, broadcastInDim_scalar_apply, main_call2_v0_apply]
  all_goals rfl

theorem main_call2_v6_apply (R : Fin 131072) (k : Fin 64) :
    val_main_call2_v6 V (ix2 R k) = (h2Row (refArgs V) colVarDev R k - colMean (h2Row (refArgs V) colVarDev) k) * (h2Row (refArgs V) colVarDev R k - colMean (h2Row (refArgs V) colVarDev) k) := by
  unfold val_main_call2_v6 val_main_call2_v5 val_main_call2_v4
  rw [mulf_apply, subf_apply, broadcastInDim_oneRow_apply, main_call2_v3_apply, main_v41_apply]

theorem main_call2_v8_apply : val_main_call2_v8 V ix0 = nRows := by
  unfold val_main_call2_v8 val_main_call2_cst_1 val_main_call2_v7 val_main_c_6
  rw [subf_apply, sitofp_apply]
  show Ideal.ofBits .f32 0x48000000#32 - FloatOps.sitofp .f32 (0#32 : BitVec 32) = nRows
  rw [sitofp_zero_word, sub_zero]

theorem main_call2_v11_apply (k : Fin 64) : val_main_call2_v11 V (ix1 k) = colVarDev (h2Row (refArgs V) colVarDev) k := by
  have hR : Shape.Reduces S131072x64 [0] S64 := by decide
  unfold val_main_call2_v11 val_main_call2_v10 val_main_call2_v9 val_main_call2_cst_2 colVarDev
  rw [hostDivf_apply, broadcastInDim_scalar_apply, main_call2_v8_apply, hostColsum_apply _ _ _ hR, constant_apply,
    Ideal.ofBits_zero_f32, zero_add]
  refine congrArg (Ideal.div · nRows) ?_
  exact Finset.sum_congr rfl fun R _ => main_call2_v6_apply V R k

theorem main_v45_apply (k : Fin 64) : val_main_v45 V (ix1 k) = colVarDev (h2Row (refArgs V) colVarDev) k := by
  have hc : Ideal.cmp .ogt nRows 0 = 1#1 := by
    show BitVec.ofBool (decide ((0 : EReal) < nRows)) = 1#1
    rw [decide_eq_true nRows_pos]
    rfl
  unfold val_main_v45 val_main_call2_v12 val_main_call2_cst_3
  rw [select_apply, broadcastInDim_scalar_apply, cmpf_apply, main_call2_v8_apply, constant_apply, Ideal.ofBits_zero_f32]
  show Scalar.select (Ideal.cmp .ogt nRows 0) _ _ = _
  rw [hc, select_one, main_call2_v11_apply]

theorem main_v61_apply (R : Fin 131072) (k : Fin 64) :
    val_main_v61 V (ix2 R k)
      = bnRelu (h2Row (refArgs V) colVarDev R k) (colMean (h2Row (refArgs V) colVarDev) k) (colVarDev (h2Row (refArgs V) colVarDev) k) ((refArgs V).g2 (ix1 k)) ((refArgs V).be2 (ix1 k)) := by
  unfold val_main_v61 val_main_call3_v0 val_main_call3_cst val_main_v60 val_main_v59 val_main_v58 val_main_v57 val_main_v56 val_main_v55
    val_main_v54 val_main_v53 val_main_v52 val_main_v51 val_main_v50 val_main_v49 val_main_cst_7 val_main_v48 val_main_v47 val_main_v46 bnRelu
  rw [maximumf_apply, addf_apply, mulf_apply, mulf_apply, subf_apply,
    broadcastInDim_oneRow_apply, broadcastInDim_oneRow_apply, broadcastInDim_oneRow_apply, broadcastInDim_oneRow_apply,
    bcast_vec_row_apply, bcast_vec_row_apply, bcast_vec_row_apply, bcast_vec_row_apply,
    host_rsqrt_apply, addf_apply, broadcastInDim_scalar_apply, broadcastInDim_scalar_apply, main_v41_apply, main_v44_apply, main_v45_apply]
  rfl

theorem main_v65_apply (R : Fin 131072) (j : Fin 16) : val_main_v65 V (ix2 R j) = logitRow (refArgs V) colVarDev R j := by
  have hd : dot_S131072x64_S64x16_S131072x16_1_0_0_1_n_n = DotDims.plain 131072 64 16 := rfl
  unfold val_main_v65 val_main_v62 val_main_v64 val_main_v63 logitRow layerAt
  rw [addf_apply, broadcastInDim_oneRow_apply, bcast_vec_row_apply, hd]
  refine congrArg₂ (· + ·) ?_ rfl
  refine (StackMember.dotGeneral_plain_apply none _ _ R j).trans ?_
  exact Finset.sum_congr rfl fun k _ => by rw [main_v61_apply]; rfl

/-! ### The logistic function and the result -/

theorem v71_apply (R : Fin 131072) (a : Fin 16) :
    val_main_v71 V (ix2 R a) = Ideal.logistic (logitRow (refArgs V) colVarDev R a) := by
  unfold val_main_v71 val_main_v70 val_main_cst_9 val_main_v69 val_main_v68 val_main_cst_8 val_main_v67 val_main_v66
  rw [hostDivf_apply, addf_apply, broadcastInDim_scalar_apply, host_exp_apply, host_negf_apply, constant_apply,
    Ideal.ofBits_one_f32, main_v65_apply]
  rfl

/-- The reference's result at `(b, n, a)` is the network's. -/
theorem v72_apply (b : Fin 256) (n : Fin 512) (a : Fin 16) :
    val_main_v72 V (ix3 b n a) = outAt (refArgs V) colVarDev b n a := by
  unfold val_main_v72 outAt
  rw [unflat_apply, v71_apply]

end Stages

end Cert.ReferenceIdeal.RefMath

end
-- ==== Proof.RefValue.lean ====
/-
  The reference's result, entry by entry: what @main's operations leave in the result buffer, read at `(b, n, a)`, is the
  network of Proof/SpecNet.lean at the argument arrays, its variance the mean of squared deviations. The fold at the
  result buffer is the composed value of the operations (Proof/RefRead.lean), and that value is the network's stage by
  stage (Proof/RefMath.lean).
-/
import proofs.«157847_j6760278524113_2_alg».proof.Proof.RefRun
import proofs.«157847_j6760278524113_2_alg».proof.Proof.RefRead
import proofs.«157847_j6760278524113_2_alg».proof.Proof.RefMath
import proofs.«157847_j6760278524113_2_alg».proof.Proof.SpecNet

noncomputable section

namespace Cert.ReferenceIdeal.RefValue

open Idealize.ShloMosaic Idealize.ShloMosaic.TcCoe Idealize.ShloMosaic.StableHlo Idealize.SL.Sem
open Cert.ReferenceIdeal Cert.ReferenceIdeal.RefRun

/-- The reference's result at `(b, n, a)` is the network's, the variance read as the mean of squared deviations. -/
theorem result_apply (V : Valuation τ sig (Elt Ideal)) (b : Fin 256) (n : Fin 512) (a : Fin 16) :
    (after ops V (main_v72 : DevRef τ sig) : S256x512x16.Idx → EReal) (Idealize.ShloMosaic.ValueIdx.ix3 b n a)
      = Cert.Spec.outAt (refArgs V) Cert.Spec.colVarDev b n a :=
  (congrFun (RefRead.read_v72 V) (Idealize.ShloMosaic.ValueIdx.ix3 b n a)).trans (RefMath.v72_apply V b n a)

end Cert.ReferenceIdeal.RefValue

end
-- ==== Proof.Claims.lean ====
/-
  The five claims. The two kernel programs' frames are the generated frame certificates; the reference is a host program whose run
  ends with every buffer at the fold of its operations over the launch memory, and no operation writes an argument. The idealized
  kernel and the idealized reference, run from memories that agree on the arguments, end with the same result: entry by entry
  the kernel's is the network with the variance read from the running totals (Proof/KernelNet.lean), the reference's the
  network with the variance read as the mean of squared deviations, and under the precondition — every argument entry a real
  number, the graph weights non-negative — the two networks are one function (Proof/Bridge.lean).
-/
import proofs.«157847_j6760278524113_2_alg».proof.Defs
import proofs.«157847_j6760278524113_2_alg».proof.Proof.Gen.Kernel.Frame
import proofs.«157847_j6760278524113_2_alg».proof.Proof.KernelRun
import proofs.«157847_j6760278524113_2_alg».proof.Proof.KernelNet
import proofs.«157847_j6760278524113_2_alg».proof.Proof.Bridge
import proofs.«157847_j6760278524113_2_alg».proof.Proof.PreDecode
import proofs.«157847_j6760278524113_2_alg».proof.Proof.RefValue

set_option maxRecDepth 16384

noncomputable section

open Idealize.ShloMosaic Idealize.ShloMosaic.TcCoe Idealize.SL.Sem Idealize.ShloMosaic.StableHlo

namespace Cert.Proof.Claims

open Idealize.ShloMosaic.ValueIdx Cert.Spec

theorem frame_k : Cert.frame_Kernel := fun m ρ _ => Cert.Kernel.Gen.frame m ρ

theorem frame_ki : Cert.frame_KernelIdeal := fun m ρ _ => Cert.KernelIdeal.Gen.frame m ρ

/-- The reference's run keeps every argument: no operation of its one straight line writes an argument buffer. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg_eq0 _),
      (h c Cert.ReferenceIdeal.main_arg1).trans (Cert.ReferenceIdeal.RefRun.arg_eq1 _),
      (h c Cert.ReferenceIdeal.main_arg2).trans (Cert.ReferenceIdeal.RefRun.arg_eq2 _),
      (h c Cert.ReferenceIdeal.main_arg3).trans (Cert.ReferenceIdeal.RefRun.arg_eq3 _),
      (h c Cert.ReferenceIdeal.main_arg4).trans (Cert.ReferenceIdeal.RefRun.arg_eq4 _),
      (h c Cert.ReferenceIdeal.main_arg5).trans (Cert.ReferenceIdeal.RefRun.arg_eq5 _),
      (h c Cert.ReferenceIdeal.main_arg6).trans (Cert.ReferenceIdeal.RefRun.arg_eq6 _),
      (h c Cert.ReferenceIdeal.main_arg7).trans (Cert.ReferenceIdeal.RefRun.arg_eq7 _),
      (h c Cert.ReferenceIdeal.main_arg8).trans (Cert.ReferenceIdeal.RefRun.arg_eq8 _),
      (h c Cert.ReferenceIdeal.main_arg9).trans (Cert.ReferenceIdeal.RefRun.arg_eq9 _),
      (h c Cert.ReferenceIdeal.main_arg10).trans (Cert.ReferenceIdeal.RefRun.arg_eq10 _),
      (h c Cert.ReferenceIdeal.main_arg11).trans (Cert.ReferenceIdeal.RefRun.arg_eq11 _),
      (h c Cert.ReferenceIdeal.main_arg12).trans (Cert.ReferenceIdeal.RefRun.arg_eq12 _),
      (h c Cert.ReferenceIdeal.main_arg13).trans (Cert.ReferenceIdeal.RefRun.arg_eq13 _)⟩)
    (Cert.ReferenceIdeal.RefRun.run_main (F := Ideal) m ρ)

/-- Under the precondition the kernel's arguments are real numbers and the graph weights are non-negative. -/
theorem realArgs (m : (ℓ : Loc Cert.KernelIdeal.nD Cert.KernelIdeal.τ Cert.KernelIdeal.sig) → Buf (Elt Ideal) ℓ)
    (hpre : Cert.Pre_KernelIdeal m) (c : Dev Cert.KernelIdeal.nD) : Cert.Bridge.RealArgs (Cert.KernelIdeal.Glue.kerArgs m c) := by
  obtain ⟨h0, h1, h2, h3, h4, h5, h6, h7, h8, h9, h10, h11, h12, h13, hg⟩ := Cert.PreDecode.decode _ _ _ _ _ _ _ _ _ _ _ _ _ _ (hpre c)
  refine ⟨h0, h1, h2, h3, h4, h5, h6, h7, h8, h9, h10, h11, h12, h13, fun i => ?_⟩
  obtain ⟨r, hr⟩ := h1 i
  have hnn := hg i
  refine ⟨r, ?_, hr⟩
  rw [hr] at hnn
  exact EReal.coe_nonneg.mp hnn

/-- The two idealized programs, from memories agreeing on the arguments, end with equal results. -/
theorem algebraic : Cert.algebraic_KernelIdeal_ReferenceIdeal := by
  intro m ρ m' ρ' hpre hagree
  refine ⟨fun c => Cert.KernelIdeal.Gen.W7 m ρ c (Proc.devRef .tc Cert.KernelIdeal.main_v23),
    Cert.KernelIdeal.RunValue.run_named (F := Ideal) m ρ, ?_⟩
  refine (θ_run Cert.ReferenceIdeal.defs _ _).mono (fun r h c => ⟨?_,
      (h c Cert.ReferenceIdeal.main_arg0).trans (Cert.ReferenceIdeal.RefRun.arg_eq0 _),
      (h c Cert.ReferenceIdeal.main_arg1).trans (Cert.ReferenceIdeal.RefRun.arg_eq1 _),
      (h c Cert.ReferenceIdeal.main_arg2).trans (Cert.ReferenceIdeal.RefRun.arg_eq2 _),
      (h c Cert.ReferenceIdeal.main_arg3).trans (Cert.ReferenceIdeal.RefRun.arg_eq3 _),
      (h c Cert.ReferenceIdeal.main_arg4).trans (Cert.ReferenceIdeal.RefRun.arg_eq4 _),
      (h c Cert.ReferenceIdeal.main_arg5).trans (Cert.ReferenceIdeal.RefRun.arg_eq5 _),
      (h c Cert.ReferenceIdeal.main_arg6).trans (Cert.ReferenceIdeal.RefRun.arg_eq6 _),
      (h c Cert.ReferenceIdeal.main_arg7).trans (Cert.ReferenceIdeal.RefRun.arg_eq7 _),
      (h c Cert.ReferenceIdeal.main_arg8).trans (Cert.ReferenceIdeal.RefRun.arg_eq8 _),
      (h c Cert.ReferenceIdeal.main_arg9).trans (Cert.ReferenceIdeal.RefRun.arg_eq9 _),
      (h c Cert.ReferenceIdeal.main_arg10).trans (Cert.ReferenceIdeal.RefRun.arg_eq10 _),
      (h c Cert.ReferenceIdeal.main_arg11).trans (Cert.ReferenceIdeal.RefRun.arg_eq11 _),
      (h c Cert.ReferenceIdeal.main_arg12).trans (Cert.ReferenceIdeal.RefRun.arg_eq12 _),
      (h c Cert.ReferenceIdeal.main_arg13).trans (Cert.ReferenceIdeal.RefRun.arg_eq13 _)⟩)
    (Cert.ReferenceIdeal.RefRun.run_main (F := Ideal) m' ρ')
  refine (h c Cert.ReferenceIdeal.main_v72).trans ?_
  have hargs : Cert.ReferenceIdeal.RefValue.refArgs (launchContents m' c) = Cert.KernelIdeal.Glue.kerArgs m c := by
    obtain ⟨e0, e1, e2, e3, e4, e5, e6, e7, e8, e9, e10, e11, e12, e13⟩ := hagree c
    unfold Cert.ReferenceIdeal.RefValue.refArgs Cert.KernelIdeal.Glue.kerArgs
    exact congr (congr (congr (congr (congr (congr (congr (congr (congr (congr (congr (congr (congr (congrArg Args.mk e0) e1) e2) e3) e4) e5) e6) e7) e8)
      e9) e10) e11) e12) e13
  funext i
  obtain ⟨b, n, a, rfl⟩ : ∃ (b : Fin 256) (n : Fin 512) (a : Fin 16), i = ix3 b n a := ⟨i 0, i 1, i 2, eq_ix3 i⟩
  refine (Cert.ReferenceIdeal.RefValue.result_apply (launchContents m' c) b n a).trans ?_
  rw [hargs]
  exact ((Cert.Bridge.outAt_eq (realArgs m hpre c) b n a).symm.trans (Cert.KernelIdeal.Net.result_apply m ρ c b n a).symm)

end Cert.Proof.Claims

end
-- ==== Proof.lean ====
/-
  The certificate of the graph-attention kernel against its reference, on the extended reals.

  The kernel computes, in three launches with a few host operations between them, a squared dot-product attention over a graph,
  a linear layer, and two batch-normalised layers whose statistics are taken over all `131072` rows; it gathers each
  layer's column sums and sums of squares while it streams the rows and reads the variance as the mean of the squares minus
  the squared mean. The reference computes the same network with the variance as the mean of squared deviations. The two readings
  agree exactly when the table's entries are real numbers; they are, for real arguments, once no attention denominator vanishes —
  which non-negative graph weights guarantee, the denominator being a sum of squares times weights plus a positive guard. The
  precondition states both (finite arguments, non-negative graph weights). The proof reads the kernel's result and the reference's
  result entry by entry as one network (Proof/SpecNet.lean) and joins them by the variance identity (Proof/LibVariance.lean).
-/
import proofs.«157847_j6760278524113_2_alg».proof.Defs
import proofs.«157847_j6760278524113_2_alg».proof.Proof.Gen.Kernel
import proofs.«157847_j6760278524113_2_alg».proof.Proof.Gen.KernelIdeal
import proofs.«157847_j6760278524113_2_alg».proof.Proof.Gen.ReferenceIdeal
import proofs.«157847_j6760278524113_2_alg».proof.Proof.Gen.Pre_finite_inputs
import proofs.«157847_j6760278524113_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
